-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x600000 : Shape := ⟨2, ![2, 600000]⟩
abbrev S100000 : Shape := ⟨1, ![100000]⟩
abbrev S2x128 : Shape := ⟨2, ![2, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S64x10 : Shape := ⟨2, ![64, 10]⟩
abbrev S10 : Shape := ⟨1, ![10]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  reducesTo_S_S_d : S_.ReducesTo [] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part10 {F : FTy → Type} [FloatOps F] (main_arg37 : FVec F S_ .f32) (main_arg38 : FVec F S64x10 .f32) (main_arg39 : FVec F S10 .f32) (main_v168 : IVec S_ 1) (main_v169 : FVec F S64 .f32) (main_v170 : FVec F S64 .f32) : IVec S_ 1 :=
  let main_v171 : IVec S64 1 := cmpf .olt main_v169 main_v170
  let main_c_67 : IVec S_ 1 := constantI S_ 1 1#1
  let main_v172 : IVec S_ 1 := (fun x v => Host.reduce IntOp.andi x v reducesTo_S64_S_d0 h_S_) main_v171 main_c_67
  let main_v173 : IVec S_ 1 := andi main_v168 main_v172
  let main_v174 : FVec F S_ .f32 := Host.absf main_arg37
  let main_cst_68 : FVec F S_ .f32 := constant S_ .f32 0x7F800000#32
  let main_v175 : IVec S_ 1 := cmpf .olt main_v174 main_cst_68
  let main_c_69 : IVec S_ 1 := constantI S_ 1 1#1
  let main_v176 : IVec S_ 1 := (fun x v => Host.reduce IntOp.andi x v reducesTo_S_S_d h_S_) main_v175 main_c_69
  let main_v177 : IVec S_ 1 := andi main_v173 main_v176
  let main_v178 : FVec F S64x10 .f32 := Host.absf main_arg38
  let main_cst_70 : FVec F S_ .f32 := constant S_ .f32 0x7F800000#32
  let main_v179 : FVec F S64x10 .f32 := broadcastInDim S64x10 ![] bcast_S_S64x10 main_cst_70
  let main_v180 : IVec S64x10 1 := cmpf .olt main_v178 main_v179
  let main_c_71 : IVec S_ 1 := constantI S_ 1 1#1
  let main_v181 : IVec S_ 1 := (fun x v => Host.reduce IntOp.andi x v reducesTo_S64x10_S_d0_1 h_S_) main_v180 main_c_71
  let main_v182 : IVec S_ 1 := andi main_v177 main_v181
  let main_v183 : FVec F S10 .f32 := Host.absf main_arg39
  let main_cst_72 : FVec F S_ .f32 := constant S_ .f32 0x7F800000#32
  let main_v184 : FVec F S10 .f32 := broadcastInDim S10 ![] bcast_S_S10 main_cst_72
  let main_v185 : IVec S10 1 := cmpf .olt main_v183 main_v184
  let main_c_73 : IVec S_ 1 := constantI S_ 1 1#1
  let main_v186 : IVec S_ 1 := (fun x v => Host.reduce IntOp.andi x v reducesTo_S10_S_d0 h_S_) main_v185 main_c_73
  let main_v187 : IVec S_ 1 := andi main_v182 main_v186
  main_v187

def fn_part9 {F : FTy → Type} [FloatOps F] (main_arg33 : FVec F S64 .f32) (main_arg34 : FVec F S64 .f32) (main_arg35 : FVec F S64 .f32) (main_arg36 : FVec F S64 .f32) (main_arg37 : FVec F S_ .f32) (main_arg38 : FVec F S64x10 .f32) (main_arg39 : FVec F S10 .f32) (main_v153 : IVec S_ 1) : IVec S_ 1 :=
  let main_v154 : FVec F S64 .f32 := Host.absf main_arg33
  let main_cst_60 : FVec F S_ .f32 := constant S_ .f32 0x7F800000#32
  let main_v155 : FVec F S64 .f32 := broadcastInDim S64 ![] bcast_S_S64 main_cst_60
  let main_v156 : IVec S64 1 := cmpf .olt main_v154 main_v155
  let main_c_61 : IVec S_ 1 := constantI S_ 1 1#1
  let main_v157 : IVec S_ 1 := (fun x v => Host.reduce IntOp.andi x v reducesTo_S64_S_d0 h_S_) main_v156 main_c_61
  let main_v158 : IVec S_ 1 := andi main_v153 main_v157
  let main_v159 : FVec F S64 .f32 := Host.absf main_arg34
  let main_cst_62 : FVec F S_ .f32 := constant S_ .f32 0x7F800000#32
  let main_v160 : FVec F S64 .f32 := broadcastInDim S64 ![] bcast_S_S64 main_cst_62
  let main_v161 : IVec S64 1 := cmpf .olt main_v159 main_v160
  let main_c_63 : IVec S_ 1 := constantI S_ 1 1#1
  let main_v162 : IVec S_ 1 := (fun x v => Host.reduce IntOp.andi x v reducesTo_S64_S_d0 h_S_) main_v161 main_c_63
  let main_v163 : IVec S_ 1 := andi main_v158 main_v162
  let main_v164 : FVec F S64 .f32 := Host.absf main_arg35
  let main_cst_64 : FVec F S_ .f32 := constant S_ .f32 0x7F800000#32
  let main_v165 : FVec F S64 .f32 := broadcastInDim S64 ![] bcast_S_S64 main_cst_64
  let main_v166 : IVec S64 1 := cmpf .olt main_v164 main_v165
  let main_c_65 : IVec S_ 1 := constantI S_ 1 1#1
  let main_v167 : IVec S_ 1 := (fun x v => Host.reduce IntOp.andi x v reducesTo_S64_S_d0 h_S_) main_v166 main_c_65
  let main_v168 : IVec S_ 1 := andi main_v163 main_v167
  let main_v169 : FVec F S64 .f32 := Host.absf main_arg36
  let main_cst_66 : FVec F S_ .f32 := constant S_ .f32 0x7F800000#32
  let main_v170 : FVec F S64 .f32 := broadcastInDim S64 ![] bcast_S_S64 main_cst_66
  fn_part10 (F := F) main_arg37 main_arg38 main_arg39 main_v168 main_v169 main_v170

def fn_part8 {F : FTy → Type} [FloatOps F] (main_arg30 : FVec F S128 .f32) (main_arg31 : FVec F S128x64 .f32) (main_arg32 : FVec F S64 .f32) (main_arg33 : FVec F S64 .f32) (main_arg34 : FVec F S64 .f32) (main_arg35 : FVec F S64 .f32) (main_arg36 : FVec F S64 .f32) (main_arg37 : FVec F S_ .f32) (main_arg38 : FVec F S64x10 .f32) (main_arg39 : FVec F S10 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128 .f32 := Host.absf main_arg30
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S128x64 .f32 := Host.absf main_arg31
  let main_cst_56 : FVec F S_ .f32 := constant S_ .f32 0x7F800000#32
  let main_v145 : FVec F S128x64 .f32 := broadcastInDim S128x64 ![] bcast_S_S128x64 main_cst_56
  let main_v146 : IVec S128x64 1 := cmpf .olt main_v144 main_v145
  let main_c_57 : IVec S_ 1 := constantI S_ 1 1#1
  let main_v147 : IVec S_ 1 := (fun x v => Host.reduce IntOp.andi x v reducesTo_S128x64_S_d0_1 h_S_) main_v146 main_c_57
  let main_v148 : IVec S_ 1 := andi main_v143 main_v147
  let main_v149 : FVec F S64 .f32 := Host.absf main_arg32
  let main_cst_58 : FVec F S_ .f32 := constant S_ .f32 0x7F800000#32
  let main_v150 : FVec F S64 .f32 := broadcastInDim S64 ![] bcast_S_S64 main_cst_58
  let main_v151 : IVec S64 1 := cmpf .olt main_v149 main_v150
  let main_c_59 : IVec S_ 1 := constantI S_ 1 1#1
  let main_v152 : IVec S_ 1 := (fun x v => Host.reduce IntOp.andi x v reducesTo_S64_S_d0 h_S_) main_v151 main_c_59
  let main_v153 : IVec S_ 1 := andi main_v148 main_v152
  fn_part9 (F := F) main_arg33 main_arg34 main_arg35 main_arg36 main_arg37 main_arg38 main_arg39 main_v153

def fn_part7 {F : FTy → Type} [FloatOps F] (main_arg27 : FVec F S128 .f32) (main_arg28 : FVec F S128 .f32) (main_arg29 : FVec F S128 .f32) (main_arg30 : FVec F S128 .f32) (main_arg31 : FVec F S128x64 .f32) (main_arg32 : FVec F S64 .f32) (main_arg33 : FVec F S64 .f32) (main_arg34 : FVec F S64 .f32) (main_arg35 : FVec F S64 .f32) (main_arg36 : FVec F S64 .f32) (main_arg37 : FVec F S_ .f32) (main_arg38 : FVec F S64x10 .f32) (main_arg39 : FVec F S10 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg27
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128 .f32 := Host.absf main_arg28
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128 .f32 := Host.absf main_arg29
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg30 main_arg31 main_arg32 main_arg33 main_arg34 main_arg35 main_arg36 main_arg37 main_arg38 main_arg39 main_v133 main_v136

def fn_part6 {F : FTy → Type} [FloatOps F] (main_arg23 : FVec F S128 .f32) (main_arg24 : FVec F S128 .f32) (main_arg25 : FVec F S128x128 .f32) (main_arg26 : FVec F S128 .f32) (main_arg27 : FVec F S128 .f32) (main_arg28 : FVec F S128 .f32) (main_arg29 : FVec F S128 .f32) (main_arg30 : FVec F S128 .f32) (main_arg31 : FVec F S128x64 .f32) (main_arg32 : FVec F S64 .f32) (main_arg33 : FVec F S64 .f32) (main_arg34 : FVec F S64 .f32) (main_arg35 : FVec F S64 .f32) (main_arg36 : FVec F S64 .f32) (main_arg37 : FVec F S_ .f32) (main_arg38 : FVec F S64x10 .f32) (main_arg39 : FVec F S10 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg25
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg26
  fn_part7 (F := F) main_arg27 main_arg28 main_arg29 main_arg30 main_arg31 main_arg32 main_arg33 main_arg34 main_arg35 main_arg36 main_arg37 main_arg38 main_arg39 main_v118 main_v119

def fn_part5 {F : FTy → Type} [FloatOps F] (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S128 .f32) (main_arg28 : FVec F S128 .f32) (main_arg29 : FVec F S128 .f32) (main_arg30 : FVec F S128 .f32) (main_arg31 : FVec F S128x64 .f32) (main_arg32 : FVec F S64 .f32) (main_arg33 : FVec F S64 .f32) (main_arg34 : FVec F S64 .f32) (main_arg35 : FVec F S64 .f32) (main_arg36 : FVec F S64 .f32) (main_arg37 : FVec F S_ .f32) (main_arg38 : FVec F S64x10 .f32) (main_arg39 : FVec F S10 .f32) (main_v83 : IVec S_ 1) (main_v84 : FVec F S2x128 .f32) (main_cst_32 : FVec F S_ .f32) : IVec S_ 1 :=
  let main_v85 : FVec F S2x128 .f32 := broadcastInDim S2x128 ![] bcast_S_S2x128 main_cst_32
  let main_v86 : IVec S2x128 1 := cmpf .olt main_v84 main_v85
  let main_c_33 : IVec S_ 1 := constantI S_ 1 1#1
  let main_v87 : IVec S_ 1 := (fun x v => Host.reduce IntOp.andi x v reducesTo_S2x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_arg27 main_arg28 main_arg29 main_arg30 main_arg31 main_arg32 main_arg33 main_arg34 main_arg35 main_arg36 main_arg37 main_arg38 main_arg39 main_v98 main_v101 main_c_39

def fn_part4 {F : FTy → Type} [FloatOps F] (main_arg16 : FVec F S128 .f32) (main_arg17 : FVec F S128 .f32) (main_arg18 : FVec F S128 .f32) (main_arg19 : FVec F S2x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S128 .f32) (main_arg28 : FVec F S128 .f32) (main_arg29 : FVec F S128 .f32) (main_arg30 : FVec F S128 .f32) (main_arg31 : FVec F S128x64 .f32) (main_arg32 : FVec F S64 .f32) (main_arg33 : FVec F S64 .f32) (main_arg34 : FVec F S64 .f32) (main_arg35 : FVec F S64 .f32) (main_arg36 : FVec F S64 .f32) (main_arg37 : FVec F S_ .f32) (main_arg38 : FVec F S64x10 .f32) (main_arg39 : FVec F S10 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S2x128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_arg32 main_arg33 main_arg34 main_arg35 main_arg36 main_arg37 main_arg38 main_arg39 main_v83 main_v84 main_cst_32

def fn_part3 {F : FTy → Type} [FloatOps F] (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S2x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S128 .f32) (main_arg28 : FVec F S128 .f32) (main_arg29 : FVec F S128 .f32) (main_arg30 : FVec F S128 .f32) (main_arg31 : FVec F S128x64 .f32) (main_arg32 : FVec F S64 .f32) (main_arg33 : FVec F S64 .f32) (main_arg34 : FVec F S64 .f32) (main_arg35 : FVec F S64 .f32) (main_arg36 : FVec F S64 .f32) (main_arg37 : FVec F S_ .f32) (main_arg38 : FVec F S64x10 .f32) (main_arg39 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_v63 main_v67

def fn_part2 {F : FTy → Type} [FloatOps F] (main_arg9 : FVec F S128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S2x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S128 .f32) (main_arg28 : FVec F S128 .f32) (main_arg29 : FVec F S128 .f32) (main_arg30 : FVec F S128 .f32) (main_arg31 : FVec F S128x64 .f32) (main_arg32 : FVec F S64 .f32) (main_arg33 : FVec F S64 .f32) (main_arg34 : FVec F S64 .f32) (main_arg35 : FVec F S64 .f32) (main_arg36 : FVec F S64 .f32) (main_arg37 : FVec F S_ .f32) (main_arg38 : FVec F S64x10 .f32) (main_arg39 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_v48 main_v49 main_v50

def fn_part1 {F : FTy → Type} [FloatOps F] (main_arg6 : FVec F S128 .f32) (main_arg7 : FVec F S128 .f32) (main_arg8 : FVec F S128 .f32) (main_arg9 : FVec F S128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S2x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S128 .f32) (main_arg28 : FVec F S128 .f32) (main_arg29 : FVec F S128 .f32) (main_arg30 : FVec F S128 .f32) (main_arg31 : FVec F S128x64 .f32) (main_arg32 : FVec F S64 .f32) (main_arg33 : FVec F S64 .f32) (main_arg34 : FVec F S64 .f32) (main_arg35 : FVec F S64 .f32) (main_arg36 : FVec F S64 .f32) (main_arg37 : FVec F S_ .f32) (main_arg38 : FVec F S64x10 .f32) (main_arg39 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_v33

def fn {F : FTy → Type} [FloatOps F] (main_arg0 : FVec F S100000x2 .f32) (main_arg1 : IVec S2x600000 32) (main_arg2 : IVec S100000 32) (main_arg3 : FVec F S2x128 .f32) (main_arg4 : FVec F S128 .f32) (main_arg5 : FVec F S128x128 .f32) (main_arg6 : FVec F S128 .f32) (main_arg7 : FVec F S128 .f32) (main_arg8 : FVec F S128 .f32) (main_arg9 : FVec F S128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S2x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S128 .f32) (main_arg28 : FVec F S128 .f32) (main_arg29 : FVec F S128 .f32) (main_arg30 : FVec F S128 .f32) (main_arg31 : FVec F S128x64 .f32) (main_arg32 : FVec F S64 .f32) (main_arg33 : FVec F S64 .f32) (main_arg34 : FVec F S64 .f32) (main_arg35 : FVec F S64 .f32) (main_arg36 : FVec F S64 .f32) (main_arg37 : FVec F S_ .f32) (main_arg38 : FVec F S64x10 .f32) (main_arg39 : FVec F S10 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x128 .f32 := Host.absf main_arg3
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_v13 main_v16
-- ==== Kernel.lean ====
abbrev S100000x2 : Shape := ⟨2, ![100000, 2]⟩
abbrev S2x600000 : Shape := ⟨2, ![2, 600000]⟩
abbrev S100000 : Shape := ⟨1, ![100000]⟩
abbrev S2x128 : Shape := ⟨2, ![2, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S64x10 : Shape := ⟨2, ![64, 10]⟩
abbrev S10 : Shape := ⟨1, ![10]⟩
abbrev S1x600000 : Shape := ⟨2, ![1, 600000]⟩
abbrev S600000 : Shape := ⟨1, ![600000]⟩
abbrev S1000x2 : Shape := ⟨2, ![1000, 2]⟩
abbrev S100000x1 : Shape := ⟨2, ![100000, 1]⟩
abbrev S1000x128 : Shape := ⟨2, ![1000, 128]⟩
abbrev S1x128 : Shape := ⟨2, ![1, 128]⟩
abbrev S600000x1 : Shape := ⟨2, ![600000, 1]⟩
abbrev S600000x2 : Shape := ⟨2, ![600000, 2]⟩
abbrev S100000x128 : Shape := ⟨2, ![100000, 128]⟩
abbrev S5000x2 : Shape := ⟨2, ![5000, 2]⟩
abbrev S5000x128 : Shape := ⟨2, ![5000, 128]⟩
abbrev S600000x128 : Shape := ⟨2, ![600000, 128]⟩
abbrev S1x1 : Shape := ⟨2, ![1, 1]⟩
abbrev S1000x10 : Shape := ⟨2, ![1000, 10]⟩
abbrev S1000x64 : Shape := ⟨2, ![1000, 64]⟩
abbrev S1x64 : Shape := ⟨2, ![1, 64]⟩
abbrev S1x10 : Shape := ⟨2, ![1, 10]⟩

abbrev nBuf : Space → Nat
  | .hbm => 92
  | .vmem => 63
  | .smem => 0
  | _ => 0

abbrev bufTy : (tb : Table) → Fin (tcTables nBuf tb) → BufTy
  | .hbm, ⟨0, _⟩ => ⟨S100000x2, .f32⟩
  | .hbm, ⟨1, _⟩ => ⟨S2x600000, .i32⟩
  | .hbm, ⟨2, _⟩ => ⟨S100000, .i32⟩
  | .hbm, ⟨3, _⟩ => ⟨S2x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S2x128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128x128, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128x64, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64x10, .f32⟩
  | .hbm, ⟨39, _⟩ => ⟨S10, .f32⟩
  | .hbm, ⟨40, _⟩ => ⟨S1x600000, .i32⟩
  | .hbm, ⟨41, _⟩ => ⟨S600000, .i32⟩
  | .hbm, ⟨42, _⟩ => ⟨S1x600000, .i32⟩
  | .hbm, ⟨43, _⟩ => ⟨S600000, .i32⟩
  | .hbm, ⟨44, _⟩ => ⟨S_, .f32⟩
  | .hbm, ⟨45, _⟩ => ⟨S1000x2, .f32⟩
  | .hbm, ⟨46, _⟩ => ⟨S100000x1, .i32⟩
  | .hbm, ⟨47, _⟩ => ⟨S1000x2, .f32⟩
  | .hbm, ⟨48, _⟩ => ⟨S1000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x2, .f32⟩
  | .hbm, ⟨58, _⟩ => ⟨S_, .f32⟩
  | .hbm, ⟨59, _⟩ => ⟨S100000x2, .f32⟩
  | .hbm, ⟨60, _⟩ => ⟨S600000x1, .i32⟩
  | .hbm, ⟨61, _⟩ => ⟨S100000x2, .f32⟩
  | .hbm, ⟨62, _⟩ => ⟨S100000x128, .f32⟩
  | .hbm, ⟨63, _⟩ => ⟨S_, .f32⟩
  | .hbm, ⟨64, _⟩ => ⟨S1000x128, .f32⟩
  | .hbm, ⟨65, _⟩ => ⟨S100000x1, .i32⟩
  | .hbm, ⟨66, _⟩ => ⟨S1000x128, .f32⟩
  | .hbm, ⟨67, _⟩ => ⟨S1000x128, .f32⟩
  | .hbm, ⟨68, _⟩ => ⟨S1000x128, .f32⟩
  | .hbm, ⟨69, _⟩ => ⟨S_, .i32⟩
  | .hbm, ⟨70, _⟩ => ⟨S600000, .i32⟩
  | .hbm, ⟨71, _⟩ => ⟨S600000, .i1⟩
  | .hbm, ⟨72, _⟩ => ⟨S_, .i32⟩
  | .hbm, ⟨73, _⟩ => ⟨S600000, .i32⟩
  | .hbm, ⟨74, _⟩ => ⟨S600000, .i32⟩
  | .hbm, ⟨75, _⟩ => ⟨S600000, .i32⟩
  | .hbm, ⟨76, _⟩ => ⟨S600000x1, .i32⟩
  | .hbm, ⟨77, _⟩ => ⟨S600000x128, .f32⟩
  | .hbm, ⟨78, _⟩ => ⟨S_, .f32⟩
  | .hbm, ⟨79, _⟩ => ⟨S100000x128, .f32⟩
  | .hbm, ⟨80, _⟩ => ⟨S600000x1, .i32⟩
  | .hbm, ⟨81, _⟩ => ⟨S100000x128, .f32⟩
  | .hbm, ⟨82, _⟩ => ⟨S100000x128, .f32⟩
  | .hbm, ⟨83, _⟩ => ⟨S1000x128, .f32⟩
  | .hbm, ⟨84, _⟩ => ⟨S_, .f32⟩
  | .hbm, ⟨85, _⟩ => ⟨S1000x128, .f32⟩
  | .hbm, ⟨86, _⟩ => ⟨S100000x1, .i32⟩
  | .hbm, ⟨87, _⟩ => ⟨S1000x128, .f32⟩
  | .hbm, ⟨88, _⟩ => ⟨S1000x128, .f32⟩
  | .hbm, ⟨89, _⟩ => ⟨S1000x128, .f32⟩
  | .hbm, ⟨90, _⟩ => ⟨S1x1, .f32⟩
  | .hbm, ⟨91, _⟩ => ⟨S1000x10, .f32⟩
  | .local _ .vmem, ⟨0, _⟩ => ⟨S1000x2, .f32⟩
  | .local _ .vmem, ⟨1, _⟩ => ⟨S2x128, .f32⟩
  | .local _ .vmem, ⟨2, _⟩ => ⟨S128, .f32⟩
  | .local _ .vmem, ⟨3, _⟩ => ⟨S128, .f32⟩
  | .local _ .vmem, ⟨4, _⟩ => ⟨S128, .f32⟩
  | .local _ .vmem, ⟨5, _⟩ => ⟨S128, .f32⟩
  | .local _ .vmem, ⟨6, _⟩ => ⟨S128, .f32⟩
  | .local _ .vmem, ⟨7, _⟩ => ⟨S1000x128, .f32⟩
  | .local _ .vmem, ⟨8, _⟩ => ⟨S5000x2, .f32⟩
  | .local _ .vmem, ⟨9, _⟩ => ⟨S5000x2, .f32⟩
  | .local _ .vmem, ⟨10, _⟩ => ⟨S5000x2, .f32⟩
  | .local _ .vmem, ⟨11, _⟩ => ⟨S5000x2, .f32⟩
  | .local _ .vmem, ⟨12, _⟩ => ⟨S2x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S1000x128, .f32⟩
  | .local _ .vmem, ⟨23, _⟩ => ⟨S128x128, .f32⟩
  | .local _ .vmem, ⟨24, _⟩ => ⟨S128, .f32⟩
  | .local _ .vmem, ⟨25, _⟩ => ⟨S128, .f32⟩
  | .local _ .vmem, ⟨26, _⟩ => ⟨S128, .f32⟩
  | .local _ .vmem, ⟨27, _⟩ => ⟨S128, .f32⟩
  | .local _ .vmem, ⟨28, _⟩ => ⟨S128, .f32⟩
  | .local _ .vmem, ⟨29, _⟩ => ⟨S1000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S128, .f32⟩
  | .local _ .vmem, ⟨36, _⟩ => ⟨S128x128, .f32⟩
  | .local _ .vmem, ⟨37, _⟩ => ⟨S128, .f32⟩
  | .local _ .vmem, ⟨38, _⟩ => ⟨S128, .f32⟩
  | .local _ .vmem, ⟨39, _⟩ => ⟨S128, .f32⟩
  | .local _ .vmem, ⟨40, _⟩ => ⟨S128, .f32⟩
  | .local _ .vmem, ⟨41, _⟩ => ⟨S128, .f32⟩
  | .local _ .vmem, ⟨42, _⟩ => ⟨S5000x128, .f32⟩
  | .local _ .vmem, ⟨43, _⟩ => ⟨S5000x128, .f32⟩
  | .local _ .vmem, ⟨44, _⟩ => ⟨S1000x128, .f32⟩
  | .local _ .vmem, ⟨45, _⟩ => ⟨S128x128, .f32⟩
  | .local _ .vmem, ⟨46, _⟩ => ⟨S128, .f32⟩
  | .local _ .vmem, ⟨47, _⟩ => ⟨S128, .f32⟩
  | .local _ .vmem, ⟨48, _⟩ => ⟨S128, .f32⟩
  | .local _ .vmem, ⟨49, _⟩ => ⟨S128, .f32⟩
  | .local _ .vmem, ⟨50, _⟩ => ⟨S128, .f32⟩
  | .local _ .vmem, ⟨51, _⟩ => ⟨S1000x128, .f32⟩
  | .local _ .vmem, ⟨52, _⟩ => ⟨S1000x128, .f32⟩
  | .local _ .vmem, ⟨53, _⟩ => ⟨S128x64, .f32⟩
  | .local _ .vmem, ⟨54, _⟩ => ⟨S64, .f32⟩
  | .local _ .vmem, ⟨55, _⟩ => ⟨S64, .f32⟩
  | .local _ .vmem, ⟨56, _⟩ => ⟨S64, .f32⟩
  | .local _ .vmem, ⟨57, _⟩ => ⟨S64, .f32⟩
  | .local _ .vmem, ⟨58, _⟩ => ⟨S64, .f32⟩
  | .local _ .vmem, ⟨59, _⟩ => ⟨S1x1, .f32⟩
  | .local _ .vmem, ⟨60, _⟩ => ⟨S64x10, .f32⟩
  | .local _ .vmem, ⟨61, _⟩ => ⟨S10, .f32⟩
  | .local _ .vmem, ⟨62, _⟩ => ⟨S1000x10, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_cst : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_c : Ref sig .tc := ⟨.hbm, 49, rfl⟩
abbrev main_v8 : Ref sig .tc := ⟨.hbm, 50, rfl⟩
abbrev main_v9 : Ref sig .tc := ⟨.hbm, 51, rfl⟩
abbrev main_c_0 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_cst_1 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_3 : Ref sig .tc := ⟨.hbm, 69, rfl⟩
abbrev main_v24 : Ref sig .tc := ⟨.hbm, 70, rfl⟩
abbrev main_v25 : Ref sig .tc := ⟨.hbm, 71, rfl⟩
abbrev main_c_4 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_cst_5 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_cst_6 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg9_0 : Ref sig .tc := ⟨.vmem, 41, rfl⟩
abbrev cc3_stg10_0 : Ref sig .tc := ⟨.vmem, 42, rfl⟩
abbrev cc3_stg10_1 : Ref sig .tc := ⟨.vmem, 43, rfl⟩
abbrev cc4_stg0_0 : Ref sig .tc := ⟨.vmem, 44, rfl⟩
abbrev cc4_stg1_0 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc5_stg0_0 : Ref sig .tc := ⟨.vmem, 52, rfl⟩
abbrev cc5_stg1_0 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg7_0 : Ref sig .tc := ⟨.vmem, 59, rfl⟩
abbrev cc5_stg8_0 : Ref sig .tc := ⟨.vmem, 60, rfl⟩
abbrev cc5_stg9_0 : Ref sig .tc := ⟨.vmem, 61, rfl⟩
abbrev cc5_stg10_0 : Ref sig .tc := ⟨.vmem, 62, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem9_0 : DmaSem sig := 41
abbrev cc3_sem10_0 : DmaSem sig := 42
abbrev cc3_sem10_1 : DmaSem sig := 43
abbrev cc4_sem0_0 : DmaSem sig := 44
abbrev cc4_sem1_0 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem6_0 : DmaSem sig := 50
abbrev cc4_sem7_0 : DmaSem sig := 51
abbrev cc5_sem0_0 : DmaSem sig := 52
abbrev cc5_sem1_0 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem7_0 : DmaSem sig := 59
abbrev cc5_sem8_0 : DmaSem sig := 60
abbrev cc5_sem9_0 : DmaSem sig := 61
abbrev cc5_sem10_0 : DmaSem sig := 62

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1000x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1000x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1000x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S5000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1000x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1000x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S1000x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S64x10 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S10 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1000x10 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S1000x2 : S_.BroadcastsInDim S1000x2 (![] : Fin 0 → Fin S1000x2.rank)
  bcast_S100000_S100000x1_0 : S100000.BroadcastsInDim S100000x1 (![0] : Fin 1 → Fin S100000x1.rank)
  inb_S1000x2_S1000x2_0_0 : ∀ a, (![0, 0] : Fin 2 → Nat) a + S1000x2.size a ≤ S1000x2.size a
  h_S1000x2 : 0 < S1000x2.numel
  shapeCasts_S1000x2_S1000x2 : S1000x2.ShapeCasts S1000x2
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  bcast_S_S600000 : S_.BroadcastsInDim S600000 (![] : Fin 0 → Fin S600000.rank)
  bcast_S600000_S600000x1_0 : S600000.BroadcastsInDim S600000x1 (![0] : Fin 1 → Fin S600000x1.rank)
  bcast_S_S100000x2 : S_.BroadcastsInDim S100000x2 (![] : Fin 0 → Fin S100000x2.rank)
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S_S1000x128 : S_.BroadcastsInDim S1000x128 (![] : Fin 0 → Fin S1000x128.rank)
  shapeCasts_S1000x128_S1000x128 : S1000x128.ShapeCasts S1000x128
  bcast_S_S100000x128 : S_.BroadcastsInDim S100000x128 (![] : Fin 0 → Fin S100000x128.rank)
  shapeCasts_S5000x128_S5000x128 : S5000x128.ShapeCasts S5000x128
  shapeCasts_S_S1x1 : S_.ShapeCasts S1x1
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S1000x64 : S1x64.Broadcasts S1000x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  broadcasts_S1x10_S1000x10 : S1x10.Broadcasts S1000x10
  inb_S1000x10_S1000x10_0_0 : ∀ a, (![0, 0] : Fin 2 → Nat) a + S1000x10.size a ≤ S1000x10.size a
  h_S1000x10 : 0 < S1000x10.numel
  scatter_S1000x2_S100000x1_S100000x2_1_0_0_1_wf : ScatterDims.WF S1000x2 S100000x1 S100000x2 [1] [0] [0] 1
  dot_S1000x2_S2x128_S1000x128_1_0_0_1_n_n_wf : DotDims.WF S1000x2 S2x128 S1000x128 [1] [0] [0] [1] [] []
  gather_S100000x2_S600000x1_S600000x2_1_0_n_n_0_1_12_wf : GatherDims.WF S100000x2 S600000x1 S600000x2 [1] [0] [] [0] [] 1 ![1, 2]
  scatter_S100000x2_S600000x1_S600000x2_1_0_0_1_wf : ScatterDims.WF S100000x2 S600000x1 S600000x2 [1] [0] [0] 1
  dot_S5000x2_S2x128_S5000x128_1_0_0_1_n_n_wf : DotDims.WF S5000x2 S2x128 S5000x128 [1] [0] [0] [1] [] []
  dot_S5000x128_S128x128_S5000x128_1_0_0_1_n_n_wf : DotDims.WF S5000x128 S128x128 S5000x128 [1] [0] [0] [1] [] []
  scatter_S1000x128_S100000x1_S100000x128_1_0_0_1_wf : ScatterDims.WF S1000x128 S100000x1 S100000x128 [1] [0] [0] 1
  dot_S1000x128_S128x128_S1000x128_1_0_0_1_n_n_wf : DotDims.WF S1000x128 S128x128 S1000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S1000x128_S128x64_S1000x64_1_0_0_1_n_n_wf : DotDims.WF S1000x128 S128x64 S1000x64 [1] [0] [0] [1] [] []
  dot_S1000x64_S64x10_S1000x10_1_0_0_1_n_n_wf : DotDims.WF S1000x64 S64x10 S1000x10 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1000x2.size a ≤ S1000x2.size a
  hwx0_0 : ∀ i : grid0.Coords, EltTy.bits .f32 = 32 ∨ (Rect.block (s := S1000x2) S1000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1000x128.size a ≤ S1000x128.size a
  hwx0_7 : ∀ i : grid0.Coords, EltTy.bits .f32 = 32 ∨ (Rect.block (s := S1000x128) S1000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x2.size a ≤ S100000x2.size a
  hwx1_0 : ∀ i : grid1.Coords, EltTy.bits .f32 = 32 ∨ (Rect.block (s := S100000x2) S5000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S100000x2.size a
  hwx1_1 : ∀ i : grid1.Coords, EltTy.bits .f32 = 32 ∨ (Rect.block (s := S100000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x128.size a ≤ S2x128.size a
  hwx1_2 : ∀ i : grid1.Coords, EltTy.bits .f32 = 32 ∨ (Rect.block (s := S2x128) S2x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S100000x128.size a
  hwx1_10 : ∀ i : grid1.Coords, EltTy.bits .f32 = 32 ∨ (Rect.block (s := S100000x128) S5000x128.size (cc1_transform_10 i) (hinb1_10 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S1000x128.size a
  hwx2_0 : ∀ i : grid2.Coords, EltTy.bits .f32 = 32 ∨ (Rect.block (s := S1000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1000x128.size a ≤ S1000x128.size a
  hwx2_7 : ∀ i : grid2.Coords, EltTy.bits .f32 = 32 ∨ (Rect.block (s := S1000x128) S1000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128.size a ≤ S128.size a
  hwx3_8 : ∀ i : grid3.Coords, EltTy.bits .f32 = 32 ∨ (Rect.block (s := S128) S128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128.size a ≤ S128.size a
  hwx3_9 : ∀ i : grid3.Coords, EltTy.bits .f32 = 32 ∨ (Rect.block (s := S128) S128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S5000x128.size a ≤ S100000x128.size a
  hwx3_10 : ∀ i : grid3.Coords, EltTy.bits .f32 = 32 ∨ (Rect.block (s := S100000x128) S5000x128.size (cc3_transform_10 i) (hinb3_10 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S1000x128.size a
  hwx4_0 : ∀ i : grid4.Coords, EltTy.bits .f32 = 32 ∨ (Rect.block (s := S1000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128.size a ≤ S128.size a
  hwx4_6 : ∀ i : grid4.Coords, EltTy.bits .f32 = 32 ∨ (Rect.block (s := S128) S128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1000x128.size a ≤ S1000x128.size a
  hwx4_7 : ∀ i : grid4.Coords, EltTy.bits .f32 = 32 ∨ (Rect.block (s := S1000x128) S1000x128.size (cc4_transform_7 i) (hinb4_7 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S1000x128.size a
  hwx5_0 : ∀ i : grid5.Coords, EltTy.bits .f32 = 32 ∨ (Rect.block (s := S1000x128) S1000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64.size a ≤ S64.size a
  hwx5_4 : ∀ i : grid5.Coords, EltTy.bits .f32 = 32 ∨ (Rect.block (s := S64) S64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64.size a ≤ S64.size a
  hwx5_5 : ∀ i : grid5.Coords, EltTy.bits .f32 = 32 ∨ (Rect.block (s := S64) S64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64.size a ≤ S64.size a
  hwx5_6 : ∀ i : grid5.Coords, EltTy.bits .f32 = 32 ∨ (Rect.block (s := S64) S64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x1.size a ≤ S1x1.size a
  hwx5_7 : ∀ i : grid5.Coords, EltTy.bits .f32 = 32 ∨ (Rect.block (s := S1x1) S1x1.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S64x10.size a ≤ S64x10.size a
  hwx5_8 : ∀ i : grid5.Coords, EltTy.bits .f32 = 32 ∨ (Rect.block (s := S64x10) S64x10.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S10.size a ≤ S10.size a
  hwx5_9 : ∀ i : grid5.Coords, EltTy.bits .f32 = 32 ∨ (Rect.block (s := S10) S10.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1000x10.size a ≤ S1000x10.size a
  hwx5_10 : ∀ i : grid5.Coords, EltTy.bits .f32 = 32 ∨ (Rect.block (s := S1000x10) S1000x10.size (cc5_transform_10 i) (hinb5_10 i)).WholeWords (EltTy.packing .f32)

variable [Facts₀]

def scatter_S1000x2_S100000x1_S100000x2_1_0_0_1 : ScatterDims S1000x2 S100000x1 S100000x2 where
  updateWindowDims := [1]
  insertedWindowDims := [0]
  scatterDimsToOperandDims := [0]
  indexVectorDim := 1
  wf := scatter_S1000x2_S100000x1_S100000x2_1_0_0_1_wf
def dot_S1000x2_S2x128_S1000x128_1_0_0_1_n_n : DotDims S1000x2 S2x128 S1000x128 where
  lhsContracting := [1]
  rhsContracting := [0]
  lhsNonContracting := [0]
  rhsNonContracting := [1]
  lhsBatch := []
  rhsBatch := []
  wf := dot_S1000x2_S2x128_S1000x128_1_0_0_1_n_n_wf
def gather_S100000x2_S600000x1_S600000x2_1_0_n_n_0_1_12 : GatherDims S100000x2 S600000x1 S600000x2 where
  offsetDims := [1]
  collapsedSliceDims := [0]
  operandBatchingDims := []
  startIndicesBatchingDims := []
  startIndexMap := [0]
  indexVectorDim := 1
  sliceSizes := ![1, 2]
  wf := gather_S100000x2_S600000x1_S600000x2_1_0_n_n_0_1_12_wf
def scatter_S100000x2_S600000x1_S600000x2_1_0_0_1 : ScatterDims S100000x2 S600000x1 S600000x2 where
  updateWindowDims := [1]
  insertedWindowDims := [0]
  scatterDimsToOperandDims := [0]
  indexVectorDim := 1
  wf := scatter_S100000x2_S600000x1_S600000x2_1_0_0_1_wf
def dot_S5000x2_S2x128_S5000x128_1_0_0_1_n_n : DotDims S5000x2 S2x128 S5000x128 where
  lhsContracting := [1]
  rhsContracting := [0]
  lhsNonContracting := [0]
  rhsNonContracting := [1]
  lhsBatch := []
  rhsBatch := []
  wf := dot_S5000x2_S2x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1000x64_S64x10_S1000x10_1_0_0_1_n_n : DotDims S1000x64 S64x10 S1000x10 where
  lhsContracting := [1]
  rhsContracting := [0]
  lhsNonContracting := [0]
  rhsNonContracting := [1]
  lhsBatch := []
  rhsBatch := []
  wf := dot_S1000x64_S64x10_S1000x10_1_0_0_1_n_n_wf

abbrev win0_0 : Pipeline.Window sig grid0 :=
  Pipeline.Window.ofSpec (Memref.whole main_v6) S1000x2.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg19) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg20) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg21) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg22) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg23) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg24) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1000x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S2x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v18) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v22) S1000x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg25) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg26) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg27) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg28) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg29) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg30) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v23) S1000x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v18) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg15) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg16) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg17) S128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg18) S128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v34) S5000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v39) S1000x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg25) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg26) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg27) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg28) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg29) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg30) S128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v40) S1000x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v40) S1000x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg31) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg32) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg33) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg34) S64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg35) S64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg36) S64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v41) S1x1.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg38) S64x10.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_arg39) S10.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v42) S1000x10.size cc5_transform_10 reads5_10 true true 1 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

class Facts : Prop extends Facts₀ where

variable [Facts]
-- ==== ReferenceIdeal.lean ====
abbrev S100000x2 : Shape := ⟨2, ![100000, 2]⟩
abbrev S2x600000 : Shape := ⟨2, ![2, 600000]⟩
abbrev S100000 : Shape := ⟨1, ![100000]⟩
abbrev S2x128 : Shape := ⟨2, ![2, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S64x10 : Shape := ⟨2, ![64, 10]⟩
abbrev S10 : Shape := ⟨1, ![10]⟩
abbrev S1x600000 : Shape := ⟨2, ![1, 600000]⟩
abbrev S600000 : Shape := ⟨1, ![600000]⟩
abbrev S1000x2 : Shape := ⟨2, ![1000, 2]⟩
abbrev S100000x1 : Shape := ⟨2, ![100000, 1]⟩
abbrev S1000x128 : Shape := ⟨2, ![1000, 128]⟩
abbrev S1x128 : Shape := ⟨2, ![1, 128]⟩
abbrev S600000x1 : Shape := ⟨2, ![600000, 1]⟩
abbrev S600000x2 : Shape := ⟨2, ![600000, 2]⟩
abbrev S100000x128 : Shape := ⟨2, ![100000, 128]⟩
abbrev S600000x128 : Shape := ⟨2, ![600000, 128]⟩
abbrev S1000x64 : Shape := ⟨2, ![1000, 64]⟩
abbrev S1x64 : Shape := ⟨2, ![1, 64]⟩
abbrev S1000x10 : Shape := ⟨2, ![1000, 10]⟩
abbrev S1x10 : Shape := ⟨2, ![1, 10]⟩

abbrev nBuf : Space → Nat
  | .hbm => 246
  | .vmem => 0
  | .smem => 0
  | _ => 0

abbrev hbmTy0_0 (i : Nat) : BufTy := match i % 128 with
  | 0 => ⟨S100000x2, .f32⟩
  | 1 => ⟨S2x600000, .i32⟩
  | 2 => ⟨S100000, .i32⟩
  | 3 => ⟨S2x128, .f32⟩
  | 4 => ⟨S128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128, .f32⟩
  | 16 => ⟨S128, .f32⟩
  | 17 => ⟨S128, .f32⟩
  | 18 => ⟨S128, .f32⟩
  | 19 => ⟨S2x128, .f32⟩
  | 20 => ⟨S128, .f32⟩
  | 21 => ⟨S128, .f32⟩
  | 22 => ⟨S128, .f32⟩
  | 23 => ⟨S128, .f32⟩
  | 24 => ⟨S128, .f32⟩
  | 25 => ⟨S128x128, .f32⟩
  | 26 => ⟨S128, .f32⟩
  | 27 => ⟨S128, .f32⟩
  | 28 => ⟨S128, .f32⟩
  | 29 => ⟨S128, .f32⟩
  | 30 => ⟨S128, .f32⟩
  | 31 => ⟨S128x64, .f32⟩
  | 32 => ⟨S64, .f32⟩
  | 33 => ⟨S64, .f32⟩
  | 34 => ⟨S64, .f32⟩
  | 35 => ⟨S64, .f32⟩
  | 36 => ⟨S64, .f32⟩
  | 37 => ⟨S_, .f32⟩
  | 38 => ⟨S64x10, .f32⟩
  | 39 => ⟨S10, .f32⟩
  | 40 => ⟨S1x600000, .i32⟩
  | 41 => ⟨S600000, .i32⟩
  | 42 => ⟨S1x600000, .i32⟩
  | 43 => ⟨S600000, .i32⟩
  | 44 => ⟨S_, .f32⟩
  | 45 => ⟨S1000x2, .f32⟩
  | 46 => ⟨S100000x1, .i32⟩
  | 47 => ⟨S1000x2, .f32⟩
  | 48 => ⟨S1000x128, .f32⟩
  | 49 => ⟨S1x128, .f32⟩
  | 50 => ⟨S1000x128, .f32⟩
  | 51 => ⟨S1000x128, .f32⟩
  | 52 => ⟨S_, .f32⟩
  | 53 => ⟨S1000x128, .f32⟩
  | 54 => ⟨S1000x128, .f32⟩
  | 55 => ⟨S1x128, .f32⟩
  | 56 => ⟨S1000x128, .f32⟩
  | 57 => ⟨S1000x128, .f32⟩
  | 58 => ⟨S_, .f32⟩
  | 59 => ⟨S128, .f32⟩
  | 60 => ⟨S128, .f32⟩
  | 61 => ⟨S128, .f32⟩
  | 62 => ⟨S1x128, .f32⟩
  | 63 => ⟨S1000x128, .f32⟩
  | 64 => ⟨S1000x128, .f32⟩
  | 65 => ⟨S1x128, .f32⟩
  | 66 => ⟨S1000x128, .f32⟩
  | 67 => ⟨S1000x128, .f32⟩
  | 68 => ⟨S1x128, .f32⟩
  | 69 => ⟨S1000x128, .f32⟩
  | 70 => ⟨S1000x128, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000x2, .f32⟩
  | 80 => ⟨S_, .f32⟩
  | 81 => ⟨S100000x2, .f32⟩
  | 82 => ⟨S600000x1, .i32⟩
  | 83 => ⟨S100000x2, .f32⟩
  | 84 => ⟨S100000x2, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S128, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S1000x128, .f32⟩
  | 117 => ⟨S100000x1, .i32⟩
  | 118 => ⟨S1000x128, .f32⟩
  | 119 => ⟨S1000x128, .f32⟩
  | 120 => ⟨S1000x128, .f32⟩
  | 121 => ⟨S1x128, .f32⟩
  | 122 => ⟨S1000x128, .f32⟩
  | 123 => ⟨S1000x128, .f32⟩
  | 124 => ⟨S_, .f32⟩
  | 125 => ⟨S1000x128, .f32⟩
  | 126 => ⟨S1000x128, .f32⟩
  | 127 => ⟨S1x128, .f32⟩
  | _ => ⟨S100000x2, .f32⟩

abbrev hbmTy0_1 (i : Nat) : BufTy := match i % 128 with
  | 0 => ⟨S1000x128, .f32⟩
  | 1 => ⟨S1000x128, .f32⟩
  | 2 => ⟨S_, .f32⟩
  | 3 => ⟨S128, .f32⟩
  | 4 => ⟨S128, .f32⟩
  | 5 => ⟨S128, .f32⟩
  | 6 => ⟨S1x128, .f32⟩
  | 7 => ⟨S1000x128, .f32⟩
  | 8 => ⟨S1000x128, .f32⟩
  | 9 => ⟨S1x128, .f32⟩
  | 10 => ⟨S1000x128, .f32⟩
  | 11 => ⟨S1000x128, .f32⟩
  | 12 => ⟨S1x128, .f32⟩
  | 13 => ⟨S1000x128, .f32⟩
  | 14 => ⟨S1000x128, .f32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S600000x128, .f32⟩
  | 24 => ⟨S_, .f32⟩
  | 25 => ⟨S100000x128, .f32⟩
  | 26 => ⟨S600000x1, .i32⟩
  | 27 => ⟨S100000x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S_, .f32⟩
  | 34 => ⟨S100000x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S128, .f32⟩
  | 48 => ⟨S128, .f32⟩
  | 49 => ⟨S128, .f32⟩
  | 50 => ⟨S1x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S1000x128, .f32⟩
  | 60 => ⟨S_, .f32⟩
  | 61 => ⟨S1000x128, .f32⟩
  | 62 => ⟨S100000x1, .i32⟩
  | 63 => ⟨S1000x128, .f32⟩
  | 64 => ⟨S1000x128, .f32⟩
  | 65 => ⟨S1000x128, .f32⟩
  | 66 => ⟨S1x128, .f32⟩
  | 67 => ⟨S1000x128, .f32⟩
  | 68 => ⟨S1000x128, .f32⟩
  | 69 => ⟨S_, .f32⟩
  | 70 => ⟨S1000x128, .f32⟩
  | 71 => ⟨S1000x128, .f32⟩
  | 72 => ⟨S1x128, .f32⟩
  | 73 => ⟨S1000x128, .f32⟩
  | 74 => ⟨S1000x128, .f32⟩
  | 75 => ⟨S_, .f32⟩
  | 76 => ⟨S128, .f32⟩
  | 77 => ⟨S128, .f32⟩
  | 78 => ⟨S128, .f32⟩
  | 79 => ⟨S1x128, .f32⟩
  | 80 => ⟨S1000x128, .f32⟩
  | 81 => ⟨S1000x128, .f32⟩
  | 82 => ⟨S1x128, .f32⟩
  | 83 => ⟨S1000x128, .f32⟩
  | 84 => ⟨S1000x128, .f32⟩
  | 85 => ⟨S1x128, .f32⟩
  | 86 => ⟨S1000x128, .f32⟩
  | 87 => ⟨S1000x128, .f32⟩
  | 88 => ⟨S1000x64, .f32⟩
  | 89 => ⟨S1x64, .f32⟩
  | 90 => ⟨S1000x64, .f32⟩
  | 91 => ⟨S1000x64, .f32⟩
  | 92 => ⟨S1x64, .f32⟩
  | 93 => ⟨S1000x64, .f32⟩
  | 94 => ⟨S1000x64, .f32⟩
  | 95 => ⟨S_, .f32⟩
  | 96 => ⟨S64, .f32⟩
  | 97 => ⟨S64, .f32⟩
  | 98 => ⟨S64, .f32⟩
  | 99 => ⟨S1x64, .f32⟩
  | 100 => ⟨S1000x64, .f32⟩
  | 101 => ⟨S1000x64, .f32⟩
  | 102 => ⟨S1x64, .f32⟩
  | 103 => ⟨S1000x64, .f32⟩
  | 104 => ⟨S1000x64, .f32⟩
  | 105 => ⟨S1x64, .f32⟩
  | 106 => ⟨S1000x64, .f32⟩
  | 107 => ⟨S1000x64, .f32⟩
  | 108 => ⟨S_, .f32⟩
  | 109 => ⟨S1000x64, .f32⟩
  | 110 => ⟨S1000x64, .i1⟩
  | 111 => ⟨S1000x64, .f32⟩
  | 112 => ⟨S1000x64, .f32⟩
  | 113 => ⟨S1000x64, .f32⟩
  | 114 => ⟨S1000x10, .f32⟩
  | 115 => ⟨S1x10, .f32⟩
  | 116 => ⟨S1000x10, .f32⟩
  | 117 => ⟨S1000x10, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_cst : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_call0_cst : Ref sig .tc := ⟨.hbm, 52, rfl⟩
abbrev main_call0_v0 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_cst_0 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_c : Ref sig .tc := ⟨.hbm, 71, rfl⟩
abbrev main_v27 : Ref sig .tc := ⟨.hbm, 72, rfl⟩
abbrev main_v28 : Ref sig .tc := ⟨.hbm, 73, rfl⟩
abbrev main_c_1 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_cst_2 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_call1_cst : Ref sig .tc := ⟨.hbm, 89, rfl⟩
abbrev main_call1_v0 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_call2_cst : Ref sig .tc := ⟨.hbm, 96, rfl⟩
abbrev main_call2_v0 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_cst_3 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_cst_4 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_call3_cst : Ref sig .tc := ⟨.hbm, 124, rfl⟩
abbrev main_call3_v0 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_cst_5 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_c_6 : Ref sig .tc := ⟨.hbm, 143, rfl⟩
abbrev main_v87 : Ref sig .tc := ⟨.hbm, 144, rfl⟩
abbrev main_v88 : Ref sig .tc := ⟨.hbm, 145, rfl⟩
abbrev main_c_7 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_cst_8 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_call4_cst : Ref sig .tc := ⟨.hbm, 161, rfl⟩
abbrev main_call4_v0 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_call5_cst : Ref sig .tc := ⟨.hbm, 168, rfl⟩
abbrev main_call5_v0 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_cst_9 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_cst_10 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_call6_cst : Ref sig .tc := ⟨.hbm, 197, rfl⟩
abbrev main_call6_v0 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_cst_11 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_cst_12 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_cst_13 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S1000x2 : S_.BroadcastsInDim S1000x2 (![] : Fin 0 → Fin S1000x2.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S1000x128_0_1 : S1x128.BroadcastsInDim S1000x128 (![0, 1] : Fin 2 → Fin S1000x128.rank)
  bcast_S_S1000x128 : S_.BroadcastsInDim S1000x128 (![] : Fin 0 → Fin S1000x128.rank)
  bcast_S_S128 : S_.BroadcastsInDim S128 (![] : Fin 0 → Fin S128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S100000x2 : S_.BroadcastsInDim S100000x2 (![] : Fin 0 → Fin S100000x2.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S1000x64_0_1 : S1x64.BroadcastsInDim S1000x64 (![0, 1] : Fin 2 → Fin S1000x64.rank)
  bcast_S_S64 : S_.BroadcastsInDim S64 (![] : Fin 0 → Fin S64.rank)
  bcast_S_S1000x64 : S_.BroadcastsInDim S1000x64 (![] : Fin 0 → Fin S1000x64.rank)
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  scatter_S1000x2_S100000x1_S100000x2_1_0_0_1_wf : ScatterDims.WF S1000x2 S100000x1 S100000x2 [1] [0] [0] 1
  dot_S1000x2_S2x128_S1000x128_1_0_0_1_n_n_wf : DotDims.WF S1000x2 S2x128 S1000x128 [1] [0] [0] [1] [] []
  gather_S100000x2_S600000x1_S600000x2_1_0_n_n_0_1_12_wf : GatherDims.WF S100000x2 S600000x1 S600000x2 [1] [0] [] [0] [] 1 ![1, 2]
  scatter_S100000x2_S600000x1_S600000x2_1_0_0_1_wf : ScatterDims.WF S100000x2 S600000x1 S600000x2 [1] [0] [0] 1
  dot_S100000x2_S2x128_S100000x128_1_0_0_1_n_n_wf : DotDims.WF S100000x2 S2x128 S100000x128 [1] [0] [0] [1] [] []
  dot_S100000x128_S128x128_S100000x128_1_0_0_1_n_n_wf : DotDims.WF S100000x128 S128x128 S100000x128 [1] [0] [0] [1] [] []
  scatter_S1000x128_S100000x1_S100000x128_1_0_0_1_wf : ScatterDims.WF S1000x128 S100000x1 S100000x128 [1] [0] [0] 1
  dot_S1000x128_S128x128_S1000x128_1_0_0_1_n_n_wf : DotDims.WF S1000x128 S128x128 S1000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S1000x128_S128x64_S1000x64_1_0_0_1_n_n_wf : DotDims.WF S1000x128 S128x64 S1000x64 [1] [0] [0] [1] [] []
  dot_S1000x64_S64x10_S1000x10_1_0_0_1_n_n_wf : DotDims.WF S1000x64 S64x10 S1000x10 [1] [0] [0] [1] [] []

variable [Facts₀]

def scatter_S1000x2_S100000x1_S100000x2_1_0_0_1 : ScatterDims S1000x2 S100000x1 S100000x2 where
  updateWindowDims := [1]
  insertedWindowDims := [0]
  scatterDimsToOperandDims := [0]
  indexVectorDim := 1
  wf := scatter_S1000x2_S100000x1_S100000x2_1_0_0_1_wf
def dot_S1000x2_S2x128_S1000x128_1_0_0_1_n_n : DotDims S1000x2 S2x128 S1000x128 where
  lhsContracting := [1]
  rhsContracting := [0]
  lhsNonContracting := [0]
  rhsNonContracting := [1]
  lhsBatch := []
  rhsBatch := []
  wf := dot_S1000x2_S2x128_S1000x128_1_0_0_1_n_n_wf
def gather_S100000x2_S600000x1_S600000x2_1_0_n_n_0_1_12 : GatherDims S100000x2 S600000x1 S600000x2 where
  offsetDims := [1]
  collapsedSliceDims := [0]
  operandBatchingDims := []
  startIndicesBatchingDims := []
  startIndexMap := [0]
  indexVectorDim := 1
  sliceSizes := ![1, 2]
  wf := gather_S100000x2_S600000x1_S600000x2_1_0_n_n_0_1_12_wf
def scatter_S100000x2_S600000x1_S600000x2_1_0_0_1 : ScatterDims S100000x2 S600000x1 S600000x2 where
  updateWindowDims := [1]
  insertedWindowDims := [0]
  scatterDimsToOperandDims := [0]
  indexVectorDim := 1
  wf := scatter_S100000x2_S600000x1_S600000x2_1_0_0_1_wf
def dot_S100000x2_S2x128_S100000x128_1_0_0_1_n_n : DotDims S100000x2 S2x128 S100000x128 where
  lhsContracting := [1]
  rhsContracting := [0]
  lhsNonContracting := [0]
  rhsNonContracting := [1]
  lhsBatch := []
  rhsBatch := []
  wf := dot_S100000x2_S2x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1000x64_S64x10_S1000x10_1_0_0_1_n_n : DotDims S1000x64 S64x10 S1000x10 where
  lhsContracting := [1]
  rhsContracting := [0]
  lhsNonContracting := [0]
  rhsNonContracting := [1]
  lhsBatch := []
  rhsBatch := []
  wf := dot_S1000x64_S64x10_S1000x10_1_0_0_1_n_n_wf

class Facts : Prop extends Facts₀ where

variable [Facts]
-- ==== Proof.KRun.lean ====
/-
  The kernel program's run with its result array named.

  Every weakly fair execution of the program — six launches among stretches of host operations — terminates without a
  fault, and in the final memory the result array holds what the last launch's write-backs leave (the fold of the buffer
  contents through the program's segments, read at the result's buffer), while every argument array is as launched.
  The run is the launch theorem for a list of segments, applied to the segments of the program; the final thread state
  holds every buffer at the fold's last contents, and the post reads the result's buffer and the arguments' buffers
  off it.
-/
import proofs.«150847_j10282151707326_2_alg».proof.Proof.Gen.KernelIdeal.Frame

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- The run: the result array at the last launch's write-backs, the arguments as launched. -/
theorem run_named : θ_run defs (onTc (τ := τ) (main (F := F))) ⟨m, fun _ => 0, ρ⟩ (fun r => ∀ c : Dev nD,
      r.2.mem ((c.tc : Thread nD τ).loc main_v42) = W12 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v42 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c),
       (h c _ (mem_uc main_arg23 (by decide))).trans (W12_main_arg23 m ρ c),
       (h c _ (mem_uc main_arg24 (by decide))).trans (W12_main_arg24 m ρ c),
       (h c _ (mem_uc main_arg25 (by decide))).trans (W12_main_arg25 m ρ c),
       (h c _ (mem_uc main_arg26 (by decide))).trans (W12_main_arg26 m ρ c),
       (h c _ (mem_uc main_arg27 (by decide))).trans (W12_main_arg27 m ρ c),
       (h c _ (mem_uc main_arg28 (by decide))).trans (W12_main_arg28 m ρ c),
       (h c _ (mem_uc main_arg29 (by decide))).trans (W12_main_arg29 m ρ c),
       (h c _ (mem_uc main_arg30 (by decide))).trans (W12_main_arg30 m ρ c),
       (h c _ (mem_uc main_arg31 (by decide))).trans (W12_main_arg31 m ρ c),
       (h c _ (mem_uc main_arg32 (by decide))).trans (W12_main_arg32 m ρ c),
       (h c _ (mem_uc main_arg33 (by decide))).trans (W12_main_arg33 m ρ c),
       (h c _ (mem_uc main_arg34 (by decide))).trans (W12_main_arg34 m ρ c),
       (h c _ (mem_uc main_arg35 (by decide))).trans (W12_main_arg35 m ρ c),
       (h c _ (mem_uc main_arg36 (by decide))).trans (W12_main_arg36 m ρ c),
       (h c _ (mem_uc main_arg37 (by decide))).trans (W12_main_arg37 m ρ c),
       (h c _ (mem_uc main_arg38 (by decide))).trans (W12_main_arg38 m ρ c),
       (h c _ (mem_uc main_arg39 (by decide))).trans (W12_main_arg39 m ρ c)⟩)

end Cert.KRun

end
-- ==== Proof.KSparse.lean ====
/-
  The sparse steps of the network as maps between arrays, spelt with this program's own records.

  `pool` adds every node's row into the row of the graph the node belongs to (a scatter-add of the node rows into a zero
  array of 1000 graph rows, indexed by the graph ids).  `agg` adds, for every edge, the source node's row into the target
  node's row: the source ids are wrapped (a negative id has the node count added), the source rows are gathered, and the
  gathered rows are scatter-added into a zero array of 100000 node rows, indexed by the target ids.  The edge array's first
  row holds the source ids and its second row the target ids.  These are exactly the host operations the program performs,
  composed; they are never evaluated.
-/
import proofs.«150847_j10282151707326_2_alg».proof.KernelIdeal
import proofs.«150847_j10282151707326_2_alg».proof.Proof.Gen.KernelIdeal
import Idealize.ShloMosaic.PureOps.Ideal

noncomputable section

namespace Cert.KSparse

open Idealize.ShloMosaic Cert.KernelIdeal Cert.KernelIdeal.Gen

/-- The graph ids of the nodes. -/
abbrev Ids : Type := (⟨S100000, .i32⟩ : BufTy).Contents (Elt Ideal)
/-- The edges: row 0 the source ids, row 1 the target ids. -/
abbrev Edges : Type := (⟨S2x600000, .i32⟩ : BufTy).Contents (Elt Ideal)

/-- The source ids of the edges. -/
def src (ei : Edges) : (⟨S600000, .i32⟩ : BufTy).Contents (Elt Ideal) :=
  shapeCast S600000 (extractStridedSlice S1x600000 ![0, 0] ei slices_S2x600000_S1x600000_0_0) shapeCasts_S1x600000_S600000
/-- The target ids of the edges. -/
def dst (ei : Edges) : (⟨S600000, .i32⟩ : BufTy).Contents (Elt Ideal) :=
  shapeCast S600000 (extractStridedSlice S1x600000 ![1, 0] ei slices_S2x600000_S1x600000_1_0) shapeCasts_S1x600000_S600000
/-- The source ids wrapped into range as a column of indices: a negative id has the node count added. -/
def srcIdx (ei : Edges) : (⟨S600000x1, .i32⟩ : BufTy).Contents (Elt Ideal) :=
  broadcastInDim S600000x1 ![0] bcast_S600000_S600000x1_0
    (select (cmpi .slt (src ei) (broadcastInDim S600000 ![] bcast_S_S600000 (constantI S_ 32 0#32)))
      (addi (src ei) (broadcastInDim S600000 ![] bcast_S_S600000 (constantI S_ 32 100000#32))) (src ei))

/-- Per-graph sums of two-column node rows. -/
def pool2 (batch : Ids) (x : FVec Ideal S100000x2 .f32) : FVec Ideal S1000x2 .f32 :=
  Host.scatterAdd scatter_S1000x2_S100000x1_S100000x2_1_0_0_1
    (broadcastInDim S1000x2 ![] bcast_S_S1000x2 (constant S_ .f32 0x00000000#32))
    (broadcastInDim S100000x1 ![0] bcast_S100000_S100000x1_0 batch) x
/-- Per-graph sums of 128-column node rows. -/
def pool128 (batch : Ids) (x : FVec Ideal S100000x128 .f32) : FVec Ideal S1000x128 .f32 :=
  Host.scatterAdd scatter_S1000x128_S100000x1_S100000x128_1_0_0_1
    (broadcastInDim S1000x128 ![] bcast_S_S1000x128 (constant S_ .f32 0x00000000#32))
    (broadcastInDim S100000x1 ![0] bcast_S100000_S100000x1_0 batch) x
/-- Per-node sums of the in-neighbours' two-column rows. -/
def agg2 (ei : Edges) (x : FVec Ideal S100000x2 .f32) : FVec Ideal S100000x2 .f32 :=
  Host.scatterAdd scatter_S100000x2_S600000x1_S600000x2_1_0_0_1
    (broadcastInDim S100000x2 ![] bcast_S_S100000x2 (constant S_ .f32 0x00000000#32))
    (broadcastInDim S600000x1 ![0] bcast_S600000_S600000x1_0 (dst ei))
    (Host.gather gather_S100000x2_S600000x1_S600000x2_1_0_n_n_0_1_12 x (srcIdx ei))
/-- Per-node sums of the in-neighbours' 128-column rows. -/
def agg128 (ei : Edges) (x : FVec Ideal S100000x128 .f32) : FVec Ideal S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 (dst ei))
    (Host.gather gather_S100000x128_S600000x1_S600000x128_1_0_n_n_0_1_1128 x (srcIdx ei))

end Cert.KSparse

end
-- ==== Proof.KFold.lean ====
/-
  The buffer contents at every region's entry, read back through the fold of host stretches and regions to the launch
  memory and to the earlier regions' output arrays.  A host stretch leaves every buffer it does not write as it was; a
  region leaves every buffer that is not one of its output arrays as it was (an input array is handed back unchanged,
  a buffer that is no array of it is not touched).  The result of a host stretch is the composition of its operations'
  functions over the stretch's entry contents.
-/
import proofs.«150847_j10282151707326_2_alg».proof.Proof.Gen.KernelIdeal.Frame
import proofs.«150847_j10282151707326_2_alg».proof.Proof.KSparse
import Idealize.ShloMosaic.Lib.StableHlo.Run
noncomputable section
namespace Cert.KFold
open Idealize.ShloMosaic Idealize.ShloMosaic.TcCoe Cert.KernelIdeal Cert.KernelIdeal.Gen
variable (m : (ℓ : Loc nD τ sig) → Buf (Elt Ideal) ℓ) (ρ : Dev nD → PrngReg) (c : Dev nD)

/-- the launch contents of a buffer -/
abbrev A (b : Ref sig .tc) := m ((c : Thread nD τ).loc b)

/-- the regions' output arrays -/
def X0 := (dat0 (F := Ideal) (V1 m ρ) c).arrAt 7 cfg0.N
def X1 := (dat1 (F := Ideal) (V3 m ρ) c).arrAt 10 cfg1.N
def X2 := (dat2 (F := Ideal) (V5 m ρ) c).arrAt 7 cfg2.N
def X3 := (dat3 (F := Ideal) (V7 m ρ) c).arrAt 10 cfg3.N
def X4 := (dat4 (F := Ideal) (V9 m ρ) c).arrAt 7 cfg4.N
def X5 := (dat5 (F := Ideal) (V11 m ρ) c).arrAt 10 cfg5.N

/-! ## What a host stretch writes, and what it therefore keeps -/

/-- The forty argument references. -/
def argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18, main_arg19,
   main_arg20, main_arg21, main_arg22, main_arg23, main_arg24, main_arg25, main_arg26, main_arg27, main_arg28, main_arg29,
   main_arg30, main_arg31, main_arg32, main_arg33, main_arg34, main_arg35, main_arg36, main_arg37, main_arg38, main_arg39]

/-- The references each host stretch writes. -/
abbrev wr0 : List (Ref sig .tc) := [main_v0, main_v1, main_v2, main_v3, main_cst, main_v4, main_v5, main_v6]
abbrev wr1 : List (Ref sig .tc) :=
  [main_c, main_v8, main_v9, main_c_0, main_v10, main_v11, main_v12, main_v13, main_v14, main_cst_1, main_v15, main_v16, main_v17]
abbrev wr2 : List (Ref sig .tc) := [main_cst_2, main_v19, main_v20, main_v21, main_v22]
abbrev wr3 : List (Ref sig .tc) :=
  [main_c_3, main_v24, main_v25, main_c_4, main_v26, main_v27, main_v28, main_v29, main_v30, main_cst_5, main_v31, main_v32, main_v33]
abbrev wr4 : List (Ref sig .tc) := [main_v35, main_cst_6, main_v36, main_v37, main_v38, main_v39]
abbrev wr5 : List (Ref sig .tc) := [main_v41]

/-- Every operation of the stretch writes one reference of the list. -/
macro "writes_sub" ops:ident : tactic =>
  `(tactic| (simp only [$ops:ident, List.Forall]
             repeat' apply And.intro
             all_goals (simp only [StableHlo.nullary_writes, StableHlo.unary_writes, StableHlo.binary_writes,
               StableHlo.ternary_writes, StableHlo.reshape_writes, Finset.singleton_subset_iff, List.mem_toFinset]
                        exact List.mem_map_of_mem (by decide))))

theorem writes0 : (hostOps0 : List (HloOp τ sig (Elt Ideal))).Forall fun op => op.writes ⊆ (wr0.map (Proc.devRef (τ := τ) .tc)).toFinset := by
  writes_sub hostOps0
theorem writes1 : (hostOps1 : List (HloOp τ sig (Elt Ideal))).Forall fun op => op.writes ⊆ (wr1.map (Proc.devRef (τ := τ) .tc)).toFinset := by
  writes_sub hostOps1
theorem writes2 : (hostOps2 : List (HloOp τ sig (Elt Ideal))).Forall fun op => op.writes ⊆ (wr2.map (Proc.devRef (τ := τ) .tc)).toFinset := by
  writes_sub hostOps2
theorem writes3 : (hostOps3 : List (HloOp τ sig (Elt Ideal))).Forall fun op => op.writes ⊆ (wr3.map (Proc.devRef (τ := τ) .tc)).toFinset := by
  writes_sub hostOps3
theorem writes4 : (hostOps4 : List (HloOp τ sig (Elt Ideal))).Forall fun op => op.writes ⊆ (wr4.map (Proc.devRef (τ := τ) .tc)).toFinset := by
  writes_sub hostOps4
theorem writes5 : (hostOps5 : List (HloOp τ sig (Elt Ideal))).Forall fun op => op.writes ⊆ (wr5.map (Proc.devRef (τ := τ) .tc)).toFinset := by
  writes_sub hostOps5

/-- A host stretch keeps every reference it does not write. -/
theorem keep0 (r : Ref sig .tc) (h : r ∉ wr0) : W1 m ρ c (Proc.devRef .tc r) = W0 m ρ c (Proc.devRef .tc r) :=
  StableHlo.after_of_writes_sub hostOps0 _ writes0 h
theorem keep1 (r : Ref sig .tc) (h : r ∉ wr1) : W3 m ρ c (Proc.devRef .tc r) = W2 m ρ c (Proc.devRef .tc r) :=
  StableHlo.after_of_writes_sub hostOps1 _ writes1 h
theorem keep2 (r : Ref sig .tc) (h : r ∉ wr2) : W5 m ρ c (Proc.devRef .tc r) = W4 m ρ c (Proc.devRef .tc r) :=
  StableHlo.after_of_writes_sub hostOps2 _ writes2 h
theorem keep3 (r : Ref sig .tc) (h : r ∉ wr3) : W7 m ρ c (Proc.devRef .tc r) = W6 m ρ c (Proc.devRef .tc r) :=
  StableHlo.after_of_writes_sub hostOps3 _ writes3 h
theorem keep4 (r : Ref sig .tc) (h : r ∉ wr4) : W9 m ρ c (Proc.devRef .tc r) = W8 m ρ c (Proc.devRef .tc r) :=
  StableHlo.after_of_writes_sub hostOps4 _ writes4 h
theorem keep5 (r : Ref sig .tc) (h : r ∉ wr5) : W11 m ρ c (Proc.devRef .tc r) = W10 m ρ c (Proc.devRef .tc r) :=
  StableHlo.after_of_writes_sub hostOps5 _ writes5 h

/-! ## A region keeps every reference that is not one of its output arrays -/

theorem pass0 (b : Ref sig .tc) (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (hb w rfl) _).trans (A_eq0 (V1 m ρ) c w))
  · exact W2_of_ne m ρ c b fun w e => h ⟨w, e⟩
theorem pass1 (b : Ref sig .tc) (hb : ∀ w, Pipeline.arrRef spec1 w = b → (cfg1.win w).isOut = false) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (hb w rfl) _).trans (A_eq1 (V3 m ρ) c w))
  · exact W4_of_ne m ρ c b fun w e => h ⟨w, e⟩
theorem pass2 (b : Ref sig .tc) (hb : ∀ w, Pipeline.arrRef spec2 w = b → (cfg2.win w).isOut = false) :
    W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (hb w rfl) _).trans (A_eq2 (V5 m ρ) c w))
  · exact W6_of_ne m ρ c b fun w e => h ⟨w, e⟩
theorem pass3 (b : Ref sig .tc) (hb : ∀ w, Pipeline.arrRef spec3 w = b → (cfg3.win w).isOut = false) :
    W8 m ρ c (Proc.devRef .tc b) = W7 m ρ c (Proc.devRef .tc b) := by
  by_cases h : ∃ w, Pipeline.arrRef spec3 w = b
  · obtain ⟨w, rfl⟩ := h
    exact (W8_arr m ρ c w).trans (((dat3 (V7 m ρ) c).arrAt_in w (hb w rfl) _).trans (A_eq3 (V7 m ρ) c w))
  · exact W8_of_ne m ρ c b fun w e => h ⟨w, e⟩
theorem pass4 (b : Ref sig .tc) (hb : ∀ w, Pipeline.arrRef spec4 w = b → (cfg4.win w).isOut = false) :
    W10 m ρ c (Proc.devRef .tc b) = W9 m ρ c (Proc.devRef .tc b) := by
  by_cases h : ∃ w, Pipeline.arrRef spec4 w = b
  · obtain ⟨w, rfl⟩ := h
    exact (W10_arr m ρ c w).trans (((dat4 (V9 m ρ) c).arrAt_in w (hb w rfl) _).trans (A_eq4 (V9 m ρ) c w))
  · exact W10_of_ne m ρ c b fun w e => h ⟨w, e⟩

/-! ## The arguments at every region entry: nothing writes an argument -/

theorem arg_not_wr0 : ∀ b ∈ argRefs, b ∉ wr0 := by decide
theorem arg_not_wr1 : ∀ b ∈ argRefs, b ∉ wr1 := by decide
theorem arg_not_wr2 : ∀ b ∈ argRefs, b ∉ wr2 := by decide
theorem arg_not_wr3 : ∀ b ∈ argRefs, b ∉ wr3 := by decide
theorem arg_not_wr4 : ∀ b ∈ argRefs, b ∉ wr4 := by decide
theorem arg_not_wr5 : ∀ b ∈ argRefs, b ∉ wr5 := by decide

theorem out0_not_arg : ∀ w : Fin cfg0.W, (cfg0.win w).isOut = true → Pipeline.arrRef spec0 w ∉ argRefs := by decide
theorem out1_not_arg : ∀ w : Fin cfg1.W, (cfg1.win w).isOut = true → Pipeline.arrRef spec1 w ∉ argRefs := by decide
theorem out2_not_arg : ∀ w : Fin cfg2.W, (cfg2.win w).isOut = true → Pipeline.arrRef spec2 w ∉ argRefs := by decide
theorem out3_not_arg : ∀ w : Fin cfg3.W, (cfg3.win w).isOut = true → Pipeline.arrRef spec3 w ∉ argRefs := by decide
theorem out4_not_arg : ∀ w : Fin cfg4.W, (cfg4.win w).isOut = true → Pipeline.arrRef spec4 w ∉ argRefs := by decide

variable (b : Ref sig .tc) (hb : b ∈ argRefs)
include hb

theorem args_V1 : V1 m ρ c b = m ((c : Thread nD τ).loc b) := keep0 m ρ c b (arg_not_wr0 b hb)
theorem args_W2 : W2 m ρ c (Proc.devRef .tc b) = m ((c : Thread nD τ).loc b) :=
  (pass0 m ρ c b fun w e => Bool.eq_false_iff.mpr fun h => out0_not_arg w h (e ▸ hb)).trans (args_V1 m ρ c b hb)
theorem args_V3 : V3 m ρ c b = m ((c : Thread nD τ).loc b) := (keep1 m ρ c b (arg_not_wr1 b hb)).trans (args_W2 m ρ c b hb)
theorem args_W4 : W4 m ρ c (Proc.devRef .tc b) = m ((c : Thread nD τ).loc b) :=
  (pass1 m ρ c b fun w e => Bool.eq_false_iff.mpr fun h => out1_not_arg w h (e ▸ hb)).trans (args_V3 m ρ c b hb)
theorem args_V5 : V5 m ρ c b = m ((c : Thread nD τ).loc b) := (keep2 m ρ c b (arg_not_wr2 b hb)).trans (args_W4 m ρ c b hb)
theorem args_W6 : W6 m ρ c (Proc.devRef .tc b) = m ((c : Thread nD τ).loc b) :=
  (pass2 m ρ c b fun w e => Bool.eq_false_iff.mpr fun h => out2_not_arg w h (e ▸ hb)).trans (args_V5 m ρ c b hb)
theorem args_V7 : V7 m ρ c b = m ((c : Thread nD τ).loc b) := (keep3 m ρ c b (arg_not_wr3 b hb)).trans (args_W6 m ρ c b hb)
theorem args_W8 : W8 m ρ c (Proc.devRef .tc b) = m ((c : Thread nD τ).loc b) :=
  (pass3 m ρ c b fun w e => Bool.eq_false_iff.mpr fun h => out3_not_arg w h (e ▸ hb)).trans (args_V7 m ρ c b hb)
theorem args_V9 : V9 m ρ c b = m ((c : Thread nD τ).loc b) := (keep4 m ρ c b (arg_not_wr4 b hb)).trans (args_W8 m ρ c b hb)
theorem args_W10 : W10 m ρ c (Proc.devRef .tc b) = m ((c : Thread nD τ).loc b) :=
  (pass4 m ρ c b fun w e => Bool.eq_false_iff.mpr fun h => out4_not_arg w h (e ▸ hb)).trans (args_V9 m ρ c b hb)
theorem args_V11 : V11 m ρ c b = m ((c : Thread nD τ).loc b) := (keep5 m ρ c b (arg_not_wr5 b hb)).trans (args_W10 m ρ c b hb)

omit hb

/-! ## The regions' outputs and the host's index vectors, carried to where they are read -/

/-- Region 0's output, up to the entries of the second and the fourth host stretch after it. -/
theorem v7_W2 : W2 m ρ c (Proc.devRef .tc main_v7) = X0 m ρ c := W2_arr m ρ c 7
theorem v7_W4 : W4 m ρ c (Proc.devRef .tc main_v7) = X0 m ρ c :=
  (pass1 m ρ c main_v7 (by decide)).trans ((keep1 m ρ c main_v7 (by decide)).trans (v7_W2 m ρ c))
theorem v7_W8 : W8 m ρ c (Proc.devRef .tc main_v7) = X0 m ρ c :=
  (pass3 m ρ c main_v7 (by decide)).trans ((keep3 m ρ c main_v7 (by decide)).trans
    ((pass2 m ρ c main_v7 (by decide)).trans ((keep2 m ρ c main_v7 (by decide)).trans (v7_W4 m ρ c))))

/-- Region 1's output, up to region 3's entry. -/
theorem v18_W4 : W4 m ρ c (Proc.devRef .tc main_v18) = X1 m ρ c := W4_arr m ρ c 10
theorem v18_W6 : W6 m ρ c (Proc.devRef .tc main_v18) = X1 m ρ c :=
  (pass2 m ρ c main_v18 (by decide)).trans ((keep2 m ρ c main_v18 (by decide)).trans (v18_W4 m ρ c))
theorem entry3_v18 : V7 m ρ c main_v18 = X1 m ρ c :=
  (keep3 m ρ c main_v18 (by decide)).trans (v18_W6 m ρ c)

/-- Region 2's output, up to the entry of the host stretch that adds it. -/
theorem v23_W6 : W6 m ρ c (Proc.devRef .tc main_v23) = X2 m ρ c := W6_arr m ρ c 7
theorem v23_W8 : W8 m ρ c (Proc.devRef .tc main_v23) = X2 m ρ c :=
  (pass3 m ρ c main_v23 (by decide)).trans ((keep3 m ρ c main_v23 (by decide)).trans (v23_W6 m ρ c))

/-- Region 3's and region 4's outputs. -/
theorem v34_W8 : W8 m ρ c (Proc.devRef .tc main_v34) = X3 m ρ c := W8_arr m ρ c 10
theorem v40_W10 : W10 m ρ c (Proc.devRef .tc main_v40) = X4 m ρ c := W10_arr m ρ c 7
theorem entry5_v40 : V11 m ρ c main_v40 = X4 m ρ c :=
  (keep5 m ρ c main_v40 (by decide)).trans (v40_W10 m ρ c)

/-- Region 5's output is the returned buffer. -/
theorem exit_v42 : W12 m ρ c (Proc.devRef .tc main_v42) = X5 m ρ c := W12_arr m ρ c 10

/-- The two index vectors are written once, by the first host stretch, and kept. -/
theorem v1_W2 : W2 m ρ c (Proc.devRef .tc main_v1) = W1 m ρ c (Proc.devRef .tc main_v1) := pass0 m ρ c main_v1 (by decide)
theorem v3_W2 : W2 m ρ c (Proc.devRef .tc main_v3) = W1 m ρ c (Proc.devRef .tc main_v3) := pass0 m ρ c main_v3 (by decide)
theorem v1_W6 : W6 m ρ c (Proc.devRef .tc main_v1) = W1 m ρ c (Proc.devRef .tc main_v1) :=
  (pass2 m ρ c main_v1 (by decide)).trans ((keep2 m ρ c main_v1 (by decide)).trans
    ((pass1 m ρ c main_v1 (by decide)).trans ((keep1 m ρ c main_v1 (by decide)).trans (v1_W2 m ρ c))))
theorem v3_W6 : W6 m ρ c (Proc.devRef .tc main_v3) = W1 m ρ c (Proc.devRef .tc main_v3) :=
  (pass2 m ρ c main_v3 (by decide)).trans ((keep2 m ρ c main_v3 (by decide)).trans
    ((pass1 m ρ c main_v3 (by decide)).trans ((keep1 m ρ c main_v3 (by decide)).trans (v3_W2 m ρ c))))

/-! ## The computed inputs -/

theorem W1_v1 : W1 m ρ c (Proc.devRef .tc main_v1) = KSparse.src (A m c main_arg1) := by
  show StableHlo.after hostOps0 (W0 m ρ c) (Proc.devRef .tc main_v1) = _
  after_results
  rfl
theorem W1_v3 : W1 m ρ c (Proc.devRef .tc main_v3) = KSparse.dst (A m c main_arg1) := by
  show StableHlo.after hostOps0 (W0 m ρ c) (Proc.devRef .tc main_v3) = _
  after_results
  rfl

theorem entry0_v6 : V1 m ρ c main_v6 = KSparse.pool2 (A m c main_arg2) (A m c main_arg0) := by
  show StableHlo.after hostOps0 (W0 m ρ c) (Proc.devRef .tc main_v6) = _
  after_results
  rfl

set_option maxHeartbeats 1600000 in
theorem entry1_v17 : V3 m ρ c main_v17 = KSparse.agg2 (A m c main_arg1) (A m c main_arg0) := by
  show StableHlo.after hostOps1 (W2 m ρ c) (Proc.devRef .tc main_v17) = _
  after_results
  rw [v1_W2, v3_W2, W1_v1, W1_v3, args_W2 m ρ c main_arg0 (by decide)]
  rfl

theorem entry2_v22 : V5 m ρ c main_v22 = addf (X0 m ρ c) (KSparse.pool128 (A m c main_arg2) (X1 m ρ c)) := by
  show StableHlo.after hostOps2 (W4 m ρ c) (Proc.devRef .tc main_v22) = _
  after_results
  rw [v7_W4, v18_W4, args_W4 m ρ c main_arg2 (by decide)]
  rfl

set_option maxHeartbeats 1600000 in
theorem entry3_v33 : V7 m ρ c main_v33 = KSparse.agg128 (A m c main_arg1) (X1 m ρ c) := by
  show StableHlo.after hostOps3 (W6 m ρ c) (Proc.devRef .tc main_v33) = _
  after_results
  rw [v1_W6, v3_W6, W1_v1, W1_v3, v18_W6]
  rfl

set_option maxHeartbeats 1600000 in
theorem entry4_v39 : V9 m ρ c main_v39
    = addf (addf (X0 m ρ c) (X2 m ρ c)) (KSparse.pool128 (A m c main_arg2) (X3 m ρ c)) := by
  show StableHlo.after hostOps4 (W8 m ρ c) (Proc.devRef .tc main_v39) = _
  after_results
  rw [v7_W8, v23_W8, v34_W8, args_W8 m ρ c main_arg2 (by decide)]
  rfl

theorem entry5_v41 : V11 m ρ c main_v41 = shapeCast S1x1 (A m c main_arg37) shapeCasts_S_S1x1 := by
  show StableHlo.after hostOps5 (W10 m ρ c) (Proc.devRef .tc main_v41) = _
  after_results
  rw [args_W10 m ρ c main_arg37 (by decide)]
  rfl

end Cert.KFold
end
-- ==== Proof.Spec.lean ====
/-
  The dense layers of the network as index-by-index functions on the extended reals.

  Every array is a function of its index. A linear layer's entry (i, j) is the sum over the contracted coordinate k of
  x (i, k) · W (k, j) plus the bias b (j). The inference batch norm of a value h in column j is
  (h − rm j) · rsqrt (rv j + ε) · g j + be j, in exactly this grouping. The rectifier is the maximum with zero. The three
  dense blocks of the network are built from these: a fully connected block (linear, rectifier, batch norm), the
  two-layer block applied to a node's own row plus its aggregated neighbours (linear, rectifier, linear, rectifier, batch
  norm), and the classifier (linear, batch norm, a leaky rectifier whose slope is a scalar, linear).  Nothing here
  needs finiteness: no sum is regrouped and no factor is moved across a sum.
-/
import Idealize.ShloMosaic.Lib.ValueIdx
import Idealize.ShloMosaic.PureOps.Ideal

noncomputable section

namespace Cert.Spec

open Idealize.ShloMosaic Idealize.ShloMosaic.ValueIdx

/-- An m × n array of extended reals. -/
abbrev Mat (m n : ℕ) : Type := (⟨2, ![m, n]⟩ : Shape).Idx → EReal
/-- A length-n array of extended reals. -/
abbrev Row (n : ℕ) : Type := (⟨1, ![n]⟩ : Shape).Idx → EReal

/-- The batch norm's ε, the single-precision word nearest 1e-5, as the extended real it denotes. -/
abbrev eps : EReal := Ideal.ofBits .f32 0x3727C5AC#32
/-- The zero word as the extended real it denotes. -/
abbrev zero : EReal := Ideal.ofBits .f32 0x00000000#32

variable {M K H O : ℕ}

/-- Entry (i, j) of x · W + b. -/
def lin (x : Mat M K) (W : Mat K H) (b : Row H) (i : Fin M) (j : Fin H) : EReal :=
  (∑ k : Fin K, x (ix2 i k) * W (ix2 k j)) + b (ix1 j)

/-- The inference batch norm of the value h standing in column j. -/
def bn (h : EReal) (g be rm rv : Row H) (j : Fin H) : EReal :=
  (h - rm (ix1 j)) * Ideal.rsqrt (rv (ix1 j) + eps) * g (ix1 j) + be (ix1 j)

/-- Linear, rectifier, batch norm. -/
def fc (x : Mat M K) (W : Mat K H) (b g be rm rv : Row H) : Mat M H := fun y =>
  bn (max (lin x W b (y 0) (y 1)) zero) g be rm rv (y 1)

/-- The hidden layer of the two-layer block: the rectified linear image of a row of x plus the same row of agg. -/
def hidden (x agg : Mat M K) (Wa : Mat K H) (ba : Row H) : Mat M H := fun z =>
  max (lin (fun w => x w + agg w) Wa ba (z 0) (z 1)) zero

/-- Linear, rectifier, linear, rectifier, batch norm, applied to x + agg. -/
def gin (x agg : Mat M K) (Wa : Mat K H) (ba : Row H) (Wb : Mat H O) (bb g be rm rv : Row O) : Mat M O := fun y =>
  bn (max (lin (hidden x agg Wa ba) Wb bb (y 0) (y 1)) zero) g be rm rv (y 1)

/-- The leaky rectifier with slope a: h where h > 0, a · h elsewhere. -/
def prelu (a h : EReal) : EReal := Scalar.select (Ideal.cmp .ogt h zero) h (a * h)

/-- The classifier's hidden layer: linear, batch norm, leaky rectifier. -/
def clsHidden (x : Mat M K) (W1 : Mat K H) (b1 g be rm rv : Row H) (a : EReal) : Mat M H := fun z =>
  prelu a (bn (lin x W1 b1 (z 0) (z 1)) g be rm rv (z 1))

/-- The classifier: its hidden layer, then a linear layer. -/
def cls (x : Mat M K) (W1 : Mat K H) (b1 g be rm rv : Row H) (a : EReal) (W2 : Mat H O) (b2 : Row O) : Mat M O := fun y =>
  lin (clsHidden x W1 b1 g be rm rv a) W2 b2 (y 0) (y 1)

end Cert.Spec

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.KFc.lean ====
/-
  The three fully connected blocks of the kernel, each as one array.

  A fully connected block's region has one grid point, and at that point every window's block is its whole array: the
  block's offsets are zero and its extents are the array's. So each input block read is the input array, and the one
  write-back covers the output array.

  What the body stores, index by index: the matrix product accumulated into zero is the plain sum over the contracted
  coordinate of x (i, k) · W (k, j); the bias, the running mean, the reciprocal square root of the running variance
  plus ε, the scale and the shift are rows, given a leading unit axis and repeated down the rows, so at (i, j) each
  reads its entry j; the sum with the bias, the maximum with zero, the difference, the two products and the last sum are
  entry by entry, in the specification's grouping. Rounding to the narrow format and widening are the identity on the
  extended reals. That is the specification's fully connected block of the values read.

  The first block contracts over 2 coordinates, the other two over 128; the other two have the same body, so they share
  one stored-value lemma. Nothing here needs finiteness.
-/
import proofs.«150847_j10282151707326_2_alg».proof.Proof.Gen.KernelIdeal.Frame
import proofs.«150847_j10282151707326_2_alg».proof.Proof.Spec
import proofs.«150847_j10282151707326_2_alg».proof.Proof.LibDot
import Idealize.ShloMosaic.Lib.ValueLayout
import Idealize.ShloMosaic.Lib.Pipeline.Value

noncomputable section

namespace Cert.KVal

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b))

namespace Fc

theorem zeros1 : (![0] : Fin 1 → Nat) = fun _ => 0 := funext fun a => by fin_cases a <;> rfl
theorem zeros2 : (![0, 0] : Fin 2 → Nat) = fun _ => 0 := funext fun a => by fin_cases a <;> rfl

/-- One row, given a leading unit axis and repeated down the rows, reads the row's entry of the column. -/
theorem row_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (i : Fin a) (j : Fin b) :
    broadcastTo ⟨2, ![a, b]⟩ (shapeCast ⟨2, ![1, b]⟩ v h1) h2 (ix2 i j) = v (ix1 j) := by
  rw [broadcastTo_1b_ab_apply, shapeCast_a_1a_apply]

end Fc

open Fc

/-! ## The stored values -/

/-- The stored value of a two-column fully connected block at row i, column j: the product accumulated into zero is the sum over
    the contracted coordinate, each row vector repeated down the rows reads its entry j, and the rest is entry by entry. -/
theorem pay0_apply (x : Vec Ideal S1000x2 .f32) (W : Vec Ideal S2x128 .f32) (b g be rm rv : Vec Ideal S128 .f32)
    (i : Fin 1000) (j : Fin 128) :
    k0_pay1 x W b g be rm rv (ix2 i j) = Spec.fc x W b g be rm rv (ix2 i j) := by
  have hm : matmul dot_S1000x2_S2x128_S1000x128_1_0_0_1_n_n none (truncf .bf16 x bitsLt_bf16_f32)
      (truncf .bf16 W bitsLt_bf16_f32) (constant (F := Ideal) S1000x128 .f32 0x00000000#32) (ix2 i j)
      = ∑ k : Fin 2, x (ix2 i k) * W (ix2 k j) :=
    Cert.LibDot.matmul_zero_plain_apply dot_S1000x2_S2x128_S1000x128_1_0_0_1_n_n rfl rfl rfl rfl rfl rfl none _ _ (ix2 i j)
  unfold k0_pay1
  simp only [addf_apply, mulf_apply, subf_apply, maximumf_apply, broadcast_apply, row_apply, shapeCast_self]
  rw [hm]
  rfl

/-- So the stored value is the block's specification of the values read. -/
theorem pay0_eq (x : Vec Ideal S1000x2 .f32) (W : Vec Ideal S2x128 .f32) (b g be rm rv : Vec Ideal S128 .f32) :
    k0_pay1 x W b g be rm rv = Spec.fc x W b g be rm rv := by
  funext y
  obtain ⟨p, q, rfl⟩ : ∃ (p : Fin 1000) (q : Fin 128), y = ix2 p q := ⟨y 0, y 1, eq_ix2 y⟩
  exact pay0_apply x W b g be rm rv p q

/-- The stored value of a 128-column fully connected block at row i, column j: the product accumulated into zero is the sum over
    the contracted coordinate, each row vector repeated down the rows reads its entry j, and the rest is entry by entry. -/
theorem pay2_apply (x : Vec Ideal S1000x128 .f32) (W : Vec Ideal S128x128 .f32) (b g be rm rv : Vec Ideal S128 .f32)
    (i : Fin 1000) (j : Fin 128) :
    k2_pay1 x W b g be rm rv (ix2 i j) = Spec.fc x W b g be rm rv (ix2 i j) := by
  have hm : matmul dot_S1000x128_S128x128_S1000x128_1_0_0_1_n_n none (truncf .bf16 x bitsLt_bf16_f32)
      (truncf .bf16 W bitsLt_bf16_f32) (constant (F := Ideal) S1000x128 .f32 0x00000000#32) (ix2 i j)
      = ∑ k : Fin 128, x (ix2 i k) * W (ix2 k j) :=
    Cert.LibDot.matmul_zero_plain_apply dot_S1000x128_S128x128_S1000x128_1_0_0_1_n_n rfl rfl rfl rfl rfl rfl none _ _ (ix2 i j)
  unfold k2_pay1
  simp only [addf_apply, mulf_apply, subf_apply, maximumf_apply, broadcast_apply, row_apply, shapeCast_self]
  rw [hm]
  rfl

/-- So the stored value is the block's specification of the values read. -/
theorem pay2_eq (x : Vec Ideal S1000x128 .f32) (W : Vec Ideal S128x128 .f32) (b g be rm rv : Vec Ideal S128 .f32) :
    k2_pay1 x W b g be rm rv = Spec.fc x W b g be rm rv := by
  funext y
  obtain ⟨p, q, rfl⟩ : ∃ (p : Fin 1000) (q : Fin 128), y = ix2 p q := ⟨y 0, y 1, eq_ix2 y⟩
  exact pay2_apply x W b g be rm rv p q

/-- The third block's body is the second's. -/
theorem pay4_eq (x : Vec Ideal S1000x128 .f32) (W : Vec Ideal S128x128 .f32) (b g be rm rv : Vec Ideal S128 .f32) :
    k4_pay1 x W b g be rm rv = Spec.fc x W b g be rm rv :=
  (show k4_pay1 x W b g be rm rv = k2_pay1 x W b g be rm rv from rfl).trans (pay2_eq x W b g be rm rv)

/-! ## The output buffers after the body -/

/-- What the body leaves in the output's buffer: its one store fills the buffer, and each load reads a whole block. -/
theorem out0_eq (x : Vec Ideal S1000x2 .f32) (W : Vec Ideal S2x128 .f32) (b g be rm rv : Vec Ideal S128 .f32) :
    out0_7 x W b g be rm rv = Spec.fc x W b g be rm rv := by
  unfold out0_7
  rw [View.canon_unit_zero zeros2]
  simp only [View.ld_unit_zero (S := S1000x2) zeros2, View.ld_unit_zero (S := S2x128) zeros2, View.ld_unit_zero (S := S128) zeros1]
  exact pay0_eq x W b g be rm rv

/-- What the body leaves in the output's buffer: its one store fills the buffer, and each load reads a whole block. -/
theorem out2_eq (x : Vec Ideal S1000x128 .f32) (W : Vec Ideal S128x128 .f32) (b g be rm rv : Vec Ideal S128 .f32) :
    out2_7 x W b g be rm rv = Spec.fc x W b g be rm rv := by
  unfold out2_7
  rw [View.canon_unit_zero zeros2]
  simp only [View.ld_unit_zero (S := S1000x128) zeros2, View.ld_unit_zero (S := S128x128) zeros2, View.ld_unit_zero (S := S128) zeros1]
  exact pay2_eq x W b g be rm rv

/-- What the body leaves in the output's buffer: its one store fills the buffer, and each load reads a whole block. -/
theorem out4_eq (x : Vec Ideal S1000x128 .f32) (W : Vec Ideal S128x128 .f32) (b g be rm rv : Vec Ideal S128 .f32) :
    out4_7 x W b g be rm rv = Spec.fc x W b g be rm rv := by
  unfold out4_7
  rw [View.canon_unit_zero zeros2]
  simp only [View.ld_unit_zero (S := S1000x128) zeros2, View.ld_unit_zero (S := S128x128) zeros2, View.ld_unit_zero (S := S128) zeros1]
  exact pay4_eq x W b g be rm rv

/-! ## The first block's region -/

theorem blk0_0 (c : Dev nD) : (iblk0 V c 0 t0_0 : Vec Ideal S1000x2 .f32) = V c main_v6 := by
  unfold iblk0
  have hz' : (fun a => win0_0.index t0_0 a * main_v6.ty.shape.size a) = fun _ => 0 := funext fun a => by fin_cases a <;> decide
  exact Memref.read_access_unit_zero (Elt Ideal) main_v6 hz' (fun a => by rw [congrFun hz' a]; simp) (V c main_v6)

theorem blk0_1 (c : Dev nD) : (iblk0 V c 1 t0_0 : Vec Ideal S2x128 .f32) = V c main_arg19 := by
  unfold iblk0
  have hz' : (fun a => win0_1.index t0_0 a * main_arg19.ty.shape.size a) = fun _ => 0 := funext fun a => by fin_cases a <;> decide
  exact Memref.read_access_unit_zero (Elt Ideal) main_arg19 hz' (fun a => by rw [congrFun hz' a]; simp) (V c main_arg19)

theorem blk0_2 (c : Dev nD) : (iblk0 V c 2 t0_0 : Vec Ideal S128 .f32) = V c main_arg20 := by
  unfold iblk0
  have hz' : (fun a => win0_2.index t0_0 a * main_arg20.ty.shape.size a) = fun _ => 0 := funext fun a => by fin_cases a <;> decide
  exact Memref.read_access_unit_zero (Elt Ideal) main_arg20 hz' (fun a => by rw [congrFun hz' a]; simp) (V c main_arg20)

theorem blk0_3 (c : Dev nD) : (iblk0 V c 3 t0_0 : Vec Ideal S128 .f32) = V c main_arg21 := by
  unfold iblk0
  have hz' : (fun a => win0_3.index t0_0 a * main_arg21.ty.shape.size a) = fun _ => 0 := funext fun a => by fin_cases a <;> decide
  exact Memref.read_access_unit_zero (Elt Ideal) main_arg21 hz' (fun a => by rw [congrFun hz' a]; simp) (V c main_arg21)

theorem blk0_4 (c : Dev nD) : (iblk0 V c 4 t0_0 : Vec Ideal S128 .f32) = V c main_arg22 := by
  unfold iblk0
  have hz' : (fun a => win0_4.index t0_0 a * main_arg22.ty.shape.size a) = fun _ => 0 := funext fun a => by fin_cases a <;> decide
  exact Memref.read_access_unit_zero (Elt Ideal) main_arg22 hz' (fun a => by rw [congrFun hz' a]; simp) (V c main_arg22)

theorem blk0_5 (c : Dev nD) : (iblk0 V c 5 t0_0 : Vec Ideal S128 .f32) = V c main_arg23 := by
  unfold iblk0
  have hz' : (fun a => win0_5.index t0_0 a * main_arg23.ty.shape.size a) = fun _ => 0 := funext fun a => by fin_cases a <;> decide
  exact Memref.read_access_unit_zero (Elt Ideal) main_arg23 hz' (fun a => by rw [congrFun hz' a]; simp) (V c main_arg23)

theorem blk0_6 (c : Dev nD) : (iblk0 V c 6 t0_0 : Vec Ideal S128 .f32) = V c main_arg24 := by
  unfold iblk0
  have hz' : (fun a => win0_6.index t0_0 a * main_arg24.ty.shape.size a) = fun _ => 0 := funext fun a => by fin_cases a <;> decide
  exact Memref.read_access_unit_zero (Elt Ideal) main_arg24 hz' (fun a => by rw [congrFun hz' a]; simp) (V c main_arg24)

/-- The output window's one block starts at the array's origin. -/
theorem off0_7 : (fun a => win0_7.index t0_0 a * win0_7.size a) = fun _ => 0 := funext fun a => by fin_cases a <;> decide

/-- What the region's one point writes back is the specification of the input arrays, read through the output's block. -/
theorem flushed0 (c : Dev nD) (t : Fin cfg0.N) :
    (dat0 (F := Ideal) V c).flushed 7 t = ((cfg0.win 7).blk t).view.read (Elt Ideal)
      (Spec.fc (V c main_v6) (V c main_arg19) (V c main_arg20) (V c main_arg21) (V c main_arg22) (V c main_arg23) (V c main_arg24)) := by
  obtain rfl := fin_N0 t
  show (cfg0.win 7).cut (grid0.coords t0_0) ((dat0 V c).after 7 t0_0) = _
  rw [after0_7]
  have hz' : (fun a => win0_7.index t0_0 a * main_v7.ty.shape.size a) = fun _ => 0 := funext fun a => by fin_cases a <;> decide
  refine Eq.trans ?_ (Memref.read_access_unit_zero (Elt Ideal) main_v7 hz' (fun a => by rw [congrFun hz' a]; simp) _).symm
  refine (out0_eq (iblk0 V c 0 t0_0) (iblk0 V c 1 t0_0) (iblk0 V c 2 t0_0) (iblk0 V c 3 t0_0) (iblk0 V c 4 t0_0) (iblk0 V c 5 t0_0) (iblk0 V c 6 t0_0)).trans ?_
  rw [blk0_0, blk0_1, blk0_2, blk0_3, blk0_4, blk0_5, blk0_6]

/-- The output array after the region: its one block covers it. -/
theorem region0 (c : Dev nD) : (dat0 (F := Ideal) V c).arrAt 7 cfg0.N
    = Spec.fc (V c main_v6) (V c main_arg19) (V c main_arg20) (V c main_arg21) (V c main_arg22) (V c main_arg23) (V c main_arg24) :=
  (dat0 V c).arrAt_eq_of_cover 7 _ (fun t _ => flushed0 V c t) fun i =>
    ⟨t0_0, flush0_7 t0_0, by
      show i ∈ ((View.whole main_v7).slice (win0_7.rect t0_0)).set
      rw [View.set_slice_whole]
      exact View.mem_set_unit_zero off0_7 _ i⟩

/-! ## The second block's region -/

theorem blk2_0 (c : Dev nD) : (iblk2 V c 0 t2_0 : Vec Ideal S1000x128 .f32) = V c main_v22 := by
  unfold iblk2
  have hz' : (fun a => win2_0.index t2_0 a * main_v22.ty.shape.size a) = fun _ => 0 := funext fun a => by fin_cases a <;> decide
  exact Memref.read_access_unit_zero (Elt Ideal) main_v22 hz' (fun a => by rw [congrFun hz' a]; simp) (V c main_v22)

theorem blk2_1 (c : Dev nD) : (iblk2 V c 1 t2_0 : Vec Ideal S128x128 .f32) = V c main_arg25 := by
  unfold iblk2
  have hz' : (fun a => win2_1.index t2_0 a * main_arg25.ty.shape.size a) = fun _ => 0 := funext fun a => by fin_cases a <;> decide
  exact Memref.read_access_unit_zero (Elt Ideal) main_arg25 hz' (fun a => by rw [congrFun hz' a]; simp) (V c main_arg25)

theorem blk2_2 (c : Dev nD) : (iblk2 V c 2 t2_0 : Vec Ideal S128 .f32) = V c main_arg26 := by
  unfold iblk2
  have hz' : (fun a => win2_2.index t2_0 a * main_arg26.ty.shape.size a) = fun _ => 0 := funext fun a => by fin_cases a <;> decide
  exact Memref.read_access_unit_zero (Elt Ideal) main_arg26 hz' (fun a => by rw [congrFun hz' a]; simp) (V c main_arg26)

theorem blk2_3 (c : Dev nD) : (iblk2 V c 3 t2_0 : Vec Ideal S128 .f32) = V c main_arg27 := by
  unfold iblk2
  have hz' : (fun a => win2_3.index t2_0 a * main_arg27.ty.shape.size a) = fun _ => 0 := funext fun a => by fin_cases a <;> decide
  exact Memref.read_access_unit_zero (Elt Ideal) main_arg27 hz' (fun a => by rw [congrFun hz' a]; simp) (V c main_arg27)

theorem blk2_4 (c : Dev nD) : (iblk2 V c 4 t2_0 : Vec Ideal S128 .f32) = V c main_arg28 := by
  unfold iblk2
  have hz' : (fun a => win2_4.index t2_0 a * main_arg28.ty.shape.size a) = fun _ => 0 := funext fun a => by fin_cases a <;> decide
  exact Memref.read_access_unit_zero (Elt Ideal) main_arg28 hz' (fun a => by rw [congrFun hz' a]; simp) (V c main_arg28)

theorem blk2_5 (c : Dev nD) : (iblk2 V c 5 t2_0 : Vec Ideal S128 .f32) = V c main_arg29 := by
  unfold iblk2
  have hz' : (fun a => win2_5.index t2_0 a * main_arg29.ty.shape.size a) = fun _ => 0 := funext fun a => by fin_cases a <;> decide
  exact Memref.read_access_unit_zero (Elt Ideal) main_arg29 hz' (fun a => by rw [congrFun hz' a]; simp) (V c main_arg29)

theorem blk2_6 (c : Dev nD) : (iblk2 V c 6 t2_0 : Vec Ideal S128 .f32) = V c main_arg30 := by
  unfold iblk2
  have hz' : (fun a => win2_6.index t2_0 a * main_arg30.ty.shape.size a) = fun _ => 0 := funext fun a => by fin_cases a <;> decide
  exact Memref.read_access_unit_zero (Elt Ideal) main_arg30 hz' (fun a => by rw [congrFun hz' a]; simp) (V c main_arg30)

/-- The output window's one block starts at the array's origin. -/
theorem off2_7 : (fun a => win2_7.index t2_0 a * win2_7.size a) = fun _ => 0 := funext fun a => by fin_cases a <;> decide

/-- What the region's one point writes back is the specification of the input arrays, read through the output's block. -/
theorem flushed2 (c : Dev nD) (t : Fin cfg2.N) :
    (dat2 (F := Ideal) V c).flushed 7 t = ((cfg2.win 7).blk t).view.read (Elt Ideal)
      (Spec.fc (V c main_v22) (V c main_arg25) (V c main_arg26) (V c main_arg27) (V c main_arg28) (V c main_arg29) (V c main_arg30)) := by
  obtain rfl := fin_N2 t
  show (cfg2.win 7).cut (grid2.coords t2_0) ((dat2 V c).after 7 t2_0) = _
  rw [after2_7]
  have hz' : (fun a => win2_7.index t2_0 a * main_v23.ty.shape.size a) = fun _ => 0 := funext fun a => by fin_cases a <;> decide
  refine Eq.trans ?_ (Memref.read_access_unit_zero (Elt Ideal) main_v23 hz' (fun a => by rw [congrFun hz' a]; simp) _).symm
  refine (out2_eq (iblk2 V c 0 t2_0) (iblk2 V c 1 t2_0) (iblk2 V c 2 t2_0) (iblk2 V c 3 t2_0) (iblk2 V c 4 t2_0) (iblk2 V c 5 t2_0) (iblk2 V c 6 t2_0)).trans ?_
  rw [blk2_0, blk2_1, blk2_2, blk2_3, blk2_4, blk2_5, blk2_6]

/-- The output array after the region: its one block covers it. -/
theorem region2 (c : Dev nD) : (dat2 (F := Ideal) V c).arrAt 7 cfg2.N
    = Spec.fc (V c main_v22) (V c main_arg25) (V c main_arg26) (V c main_arg27) (V c main_arg28) (V c main_arg29) (V c main_arg30) :=
  (dat2 V c).arrAt_eq_of_cover 7 _ (fun t _ => flushed2 V c t) fun i =>
    ⟨t2_0, flush2_7 t2_0, by
      show i ∈ ((View.whole main_v23).slice (win2_7.rect t2_0)).set
      rw [View.set_slice_whole]
      exact View.mem_set_unit_zero off2_7 _ i⟩

/-! ## The third block's region -/

theorem blk4_0 (c : Dev nD) : (iblk4 V c 0 t4_0 : Vec Ideal S1000x128 .f32) = V c main_v39 := by
  unfold iblk4
  have hz' : (fun a => win4_0.index t4_0 a * main_v39.ty.shape.size a) = fun _ => 0 := funext fun a => by fin_cases a <;> decide
  exact Memref.read_access_unit_zero (Elt Ideal) main_v39 hz' (fun a => by rw [congrFun hz' a]; simp) (V c main_v39)

theorem blk4_1 (c : Dev nD) : (iblk4 V c 1 t4_0 : Vec Ideal S128x128 .f32) = V c main_arg25 := by
  unfold iblk4
  have hz' : (fun a => win4_1.index t4_0 a * main_arg25.ty.shape.size a) = fun _ => 0 := funext fun a => by fin_cases a <;> decide
  exact Memref.read_access_unit_zero (Elt Ideal) main_arg25 hz' (fun a => by rw [congrFun hz' a]; simp) (V c main_arg25)

theorem blk4_2 (c : Dev nD) : (iblk4 V c 2 t4_0 : Vec Ideal S128 .f32) = V c main_arg26 := by
  unfold iblk4
  have hz' : (fun a => win4_2.index t4_0 a * main_arg26.ty.shape.size a) = fun _ => 0 := funext fun a => by fin_cases a <;> decide
  exact Memref.read_access_unit_zero (Elt Ideal) main_arg26 hz' (fun a => by rw [congrFun hz' a]; simp) (V c main_arg26)

theorem blk4_3 (c : Dev nD) : (iblk4 V c 3 t4_0 : Vec Ideal S128 .f32) = V c main_arg27 := by
  unfold iblk4
  have hz' : (fun a => win4_3.index t4_0 a * main_arg27.ty.shape.size a) = fun _ => 0 := funext fun a => by fin_cases a <;> decide
  exact Memref.read_access_unit_zero (Elt Ideal) main_arg27 hz' (fun a => by rw [congrFun hz' a]; simp) (V c main_arg27)

theorem blk4_4 (c : Dev nD) : (iblk4 V c 4 t4_0 : Vec Ideal S128 .f32) = V c main_arg28 := by
  unfold iblk4
  have hz' : (fun a => win4_4.index t4_0 a * main_arg28.ty.shape.size a) = fun _ => 0 := funext fun a => by fin_cases a <;> decide
  exact Memref.read_access_unit_zero (Elt Ideal) main_arg28 hz' (fun a => by rw [congrFun hz' a]; simp) (V c main_arg28)

theorem blk4_5 (c : Dev nD) : (iblk4 V c 5 t4_0 : Vec Ideal S128 .f32) = V c main_arg29 := by
  unfold iblk4
  have hz' : (fun a => win4_5.index t4_0 a * main_arg29.ty.shape.size a) = fun _ => 0 := funext fun a => by fin_cases a <;> decide
  exact Memref.read_access_unit_zero (Elt Ideal) main_arg29 hz' (fun a => by rw [congrFun hz' a]; simp) (V c main_arg29)

theorem blk4_6 (c : Dev nD) : (iblk4 V c 6 t4_0 : Vec Ideal S128 .f32) = V c main_arg30 := by
  unfold iblk4
  have hz' : (fun a => win4_6.index t4_0 a * main_arg30.ty.shape.size a) = fun _ => 0 := funext fun a => by fin_cases a <;> decide
  exact Memref.read_access_unit_zero (Elt Ideal) main_arg30 hz' (fun a => by rw [congrFun hz' a]; simp) (V c main_arg30)

/-- The output window's one block starts at the array's origin. -/
theorem off4_7 : (fun a => win4_7.index t4_0 a * win4_7.size a) = fun _ => 0 := funext fun a => by fin_cases a <;> decide

/-- What the region's one point writes back is the specification of the input arrays, read through the output's block. -/
theorem flushed4 (c : Dev nD) (t : Fin cfg4.N) :
    (dat4 (F := Ideal) V c).flushed 7 t = ((cfg4.win 7).blk t).view.read (Elt Ideal)
      (Spec.fc (V c main_v39) (V c main_arg25) (V c main_arg26) (V c main_arg27) (V c main_arg28) (V c main_arg29) (V c main_arg30)) := by
  obtain rfl := fin_N4 t
  show (cfg4.win 7).cut (grid4.coords t4_0) ((dat4 V c).after 7 t4_0) = _
  rw [after4_7]
  have hz' : (fun a => win4_7.index t4_0 a * main_v40.ty.shape.size a) = fun _ => 0 := funext fun a => by fin_cases a <;> decide
  refine Eq.trans ?_ (Memref.read_access_unit_zero (Elt Ideal) main_v40 hz' (fun a => by rw [congrFun hz' a]; simp) _).symm
  refine (out4_eq (iblk4 V c 0 t4_0) (iblk4 V c 1 t4_0) (iblk4 V c 2 t4_0) (iblk4 V c 3 t4_0) (iblk4 V c 4 t4_0) (iblk4 V c 5 t4_0) (iblk4 V c 6 t4_0)).trans ?_
  rw [blk4_0, blk4_1, blk4_2, blk4_3, blk4_4, blk4_5, blk4_6]

/-- The output array after the region: its one block covers it. -/
theorem region4 (c : Dev nD) : (dat4 (F := Ideal) V c).arrAt 7 cfg4.N
    = Spec.fc (V c main_v39) (V c main_arg25) (V c main_arg26) (V c main_arg27) (V c main_arg28) (V c main_arg29) (V c main_arg30) :=
  (dat4 V c).arrAt_eq_of_cover 7 _ (fun t _ => flushed4 V c t) fun i =>
    ⟨t4_0, flush4_7 t4_0, by
      show i ∈ ((View.whole main_v40).slice (win4_7.rect t4_0)).set
      rw [View.set_slice_whole]
      exact View.mem_set_unit_zero off4_7 _ i⟩

end Cert.KVal

end
-- ==== Proof.KGin.lean ====
/-
  The two regions that apply the two-layer block to a node's row plus its aggregated neighbours, as arrays.

  Each region walks twenty blocks of 5000 rows. At a block it loads the 5000 rows of x and of agg and the whole small
  arrays (the two weight matrices, the two biases, the batch norm's four rows), and stores one 5000 × 128 block: the
  sum x + agg contracted with the first weight matrix plus its bias, rectified; that contracted with the second weight
  matrix plus its bias, rectified; the batch norm of that, (h − rm) · rsqrt (rv + ε) · g + be in this grouping. Read at
  an entry (p, j) this is the specification's two-layer block of the loaded blocks at (p, j): every pointwise operation
  reads its operands at the entry, a matrix product into the zero accumulator is the sum over the contracted coordinate,
  a row repeated down the block reads the row at j, and the rounding to the narrower format is the identity on the
  extended reals.

  The two-layer block is row-wise: entry (p, j) needs row p of x and agg only. Row p of block t is row 5000 t + p of the
  array, on every window that moves with the grid, and the windows over the small arrays read the whole array at every
  point. So what point t writes back is block t of the specification's function of the whole arrays. Row r of the
  output lies in block r / 5000, so the twenty blocks cover the output array, and the array after the region is that
  function.  Nothing here needs finiteness: no sum is regrouped.
-/
import proofs.«150847_j10282151707326_2_alg».proof.Proof.Gen.KernelIdeal.Frame
import proofs.«150847_j10282151707326_2_alg».proof.Proof.Spec
import proofs.«150847_j10282151707326_2_alg».proof.Proof.LibDot
import Idealize.ShloMosaic.Lib.ValueLayout
import Idealize.ShloMosaic.Lib.Pipeline.Value
noncomputable section
namespace Cert.KVal
open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

namespace Gin

/-- A length-128 row given a leading unit axis and repeated down 5000 rows reads, at (p, j), the row at j. -/
theorem row_apply (v : FVec Ideal S128 .f32) (h1 : S128.ShapeCasts S1x128) (h2 : S1x128.Broadcasts S5000x128)
    (p : Fin 5000) (j : Fin 128) :
    broadcastTo S5000x128 (shapeCast S1x128 v h1) h2 (ix2 p j) = v (ix1 j) :=
  (broadcastTo_1b_ab_apply _ h2 p j).trans (shapeCast_a_1a_apply v h1 0 j)

/-- The reciprocal square root of a vector, at an index. -/
theorem rsqrt_apply {s : Shape} {φ : FTy} (v : FVec Ideal s φ) (i : s.Idx) : rsqrt v i = Ideal.rsqrt (v i) := rfl

/-- The 5000 × 2 by 2 × 128 product into the zero accumulator, at (p, j): the sum over the two contracted coordinates. -/
theorem mm_2 (l : FVec Ideal S5000x2 .bf16) (r : FVec Ideal S2x128 .bf16) (p : Fin 5000) (j : Fin 128) :
    matmul dot_S5000x2_S2x128_S5000x128_1_0_0_1_n_n none l r (constant S5000x128 .f32 0x00000000#32) (ix2 p j)
      = ∑ k : Fin 2, l (ix2 p k) * r (ix2 k j) :=
  Cert.LibDot.matmul_zero_plain_apply dot_S5000x2_S2x128_S5000x128_1_0_0_1_n_n rfl rfl rfl rfl rfl rfl none l r (ix2 p j)

/-- The 5000 × 128 by 128 × 128 product into the zero accumulator, at (p, j): the sum over the 128 contracted
    coordinates. -/
theorem mm_128 (l : FVec Ideal S5000x128 .bf16) (r : FVec Ideal S128x128 .bf16) (p : Fin 5000) (j : Fin 128) :
    matmul dot_S5000x128_S128x128_S5000x128_1_0_0_1_n_n none l r (constant S5000x128 .f32 0x00000000#32) (ix2 p j)
      = ∑ k : Fin 128, l (ix2 p k) * r (ix2 k j) :=
  Cert.LibDot.matmul_zero_plain_apply dot_S5000x128_S128x128_S5000x128_1_0_0_1_n_n rfl rfl rfl rfl rfl rfl none l r (ix2 p j)

/-- The offsets of a whole-buffer access are zero on both axes, and on the one axis of a row. -/
theorem hz2 : (![0, 0] : Fin 2 → Nat) = fun _ => 0 := funext fun a => by fin_cases a <;> rfl
theorem hz1 : (![0] : Fin 1 → Nat) = fun _ => 0 := funext fun a => by fin_cases a <;> rfl

/-- The two-layer block is row-wise: if row p of the blocks xb, ab is row r of the arrays X, A, then entry (p, j) of the
    blocks' image is entry (r, j) of the arrays' image. The sums range over the contracted coordinate only, and the
    rows are read at (p, k) and (r, k). -/
theorem gin_rows {M M' K : ℕ} (X A : Spec.Mat M' K) (xb ab : Spec.Mat M K) (Wa : Spec.Mat K 128) (ba : Spec.Row 128)
    (Wb : Spec.Mat 128 128) (bb g be rm rv : Spec.Row 128) (p : Fin M) (r : Fin M')
    (hx : ∀ k, xb (ix2 p k) = X (ix2 r k)) (ha : ∀ k, ab (ix2 p k) = A (ix2 r k)) (j : Fin 128) :
    Spec.gin xb ab Wa ba Wb bb g be rm rv (ix2 p j) = Spec.gin X A Wa ba Wb bb g be rm rv (ix2 r j) := by
  have hh : ∀ k : Fin 128, Spec.hidden xb ab Wa ba (ix2 p k) = Spec.hidden X A Wa ba (ix2 r k) := fun k => by
    show max (Spec.lin (fun w => xb w + ab w) Wa ba p k) Spec.zero = max (Spec.lin (fun w => X w + A w) Wa ba r k) Spec.zero
    unfold Spec.lin
    simp only [hx, ha]
  show Spec.bn (max (Spec.lin (Spec.hidden xb ab Wa ba) Wb bb p j) Spec.zero) g be rm rv j
    = Spec.bn (max (Spec.lin (Spec.hidden X A Wa ba) Wb bb r j) Spec.zero) g be rm rv j
  unfold Spec.lin
  simp only [hh]

/-! ## Region 1 -/

/-- The body's stored value at (p, j) is the two-layer block of its loaded blocks at (p, j): the sum of x and agg
    contracted with Wa, plus ba, rectified; contracted with Wb, plus bb, rectified; the batch norm of that. -/
theorem pay1_apply (x0 x1 : Vec Ideal S5000x2 .f32) (x2 : Vec Ideal S2x128 .f32) (x3 : Vec Ideal S128 .f32)
    (x4 : Vec Ideal S128x128 .f32) (x5 x6 x7 x8 x9 : Vec Ideal S128 .f32) (p : Fin 5000) (j : Fin 128) :
    k1_pay1 x7 (k1_pay2 x0 x1 x2 x3 x4 x5 x6 x8 x9) (ix2 p j)
      = Spec.gin x0 x1 x2 x3 x4 x5 x6 x7 x8 x9 (ix2 p j) := by
  unfold k1_pay1 k1_pay2
  simp only [addf_apply, mulf_apply, subf_apply, maximumf_apply, broadcast_apply, truncf_apply, row_apply, rsqrt_apply,
    mm_2, mm_128, shapeCast_self, Ideal.ofBits_def]
  rfl

/-- The block indices of region 1's windows, over the twenty grid points: the row-block windows sit at block (t, 0),
    the others at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_10.index t (0 : Fin 2) = t.val ∧ win1_10.index t (1 : Fin 2) = 0
    ∧ win1_2.index t (0 : Fin 2) = 0 ∧ win1_2.index t (1 : Fin 2) = 0
    ∧ win1_4.index t (0 : Fin 2) = 0 ∧ win1_4.index t (1 : Fin 2) = 0
    ∧ win1_3.index t (0 : Fin 1) = 0 ∧ win1_5.index t (0 : Fin 1) = 0 ∧ win1_6.index t (0 : Fin 1) = 0
    ∧ win1_7.index t (0 : Fin 1) = 0 ∧ win1_8.index t (0 : Fin 1) = 0 ∧ win1_9.index t (0 : Fin 1) = 0 :=
  (by decide +kernel : ∀ t : Fin grid1.N, _)

/-- Row p of a row-block window's block at point t is row 5000 t + p of its array. -/
theorem blk1_0 (c : Dev nD) (t : Fin cfg1.N) (p : Fin 5000) (r : Fin 100000) (hr : r.val = 5000 * t.val + p.val)
    (k : Fin 2) : iblk1 V c 0 t (ix2 p k) = V c main_arg0 (ix2 r k) := by
  show V c main_arg0 (((cfg1.win 0).blk t).view.emb (ix2 p k)) = V c main_arg0 (ix2 r k)
  refine congrArg _ ?_
  obtain ⟨e, e', -⟩ := idx1 t
  funext a; apply Fin.ext
  match a with
  | ⟨0, _⟩ => show win1_0.index t (0 : Fin 2) * 5000 + 1 * p.val = r.val; omega
  | ⟨1, _⟩ => show win1_0.index t (1 : Fin 2) * 2 + 1 * k.val = k.val; omega

theorem blk1_1 (c : Dev nD) (t : Fin cfg1.N) (p : Fin 5000) (r : Fin 100000) (hr : r.val = 5000 * t.val + p.val)
    (k : Fin 2) : iblk1 V c 1 t (ix2 p k) = V c main_v17 (ix2 r k) := by
  show V c main_v17 (((cfg1.win 1).blk t).view.emb (ix2 p k)) = V c main_v17 (ix2 r k)
  refine congrArg _ ?_
  obtain ⟨-, -, e, e', -⟩ := idx1 t
  funext a; apply Fin.ext
  match a with
  | ⟨0, _⟩ => show win1_1.index t (0 : Fin 2) * 5000 + 1 * p.val = r.val; omega
  | ⟨1, _⟩ => show win1_1.index t (1 : Fin 2) * 2 + 1 * k.val = k.val; omega

/-- Entry (p, j) of the output window's block at point t is entry (5000 t + p, j) of its array. -/
theorem emb1_10 (t : Fin cfg1.N) (p : Fin 5000) (r : Fin 100000) (hr : r.val = 5000 * t.val + p.val) (j : Fin 128) :
    ((cfg1.win 10).blk t).view.emb (ix2 p j) = ix2 r j := by
  obtain ⟨-, -, -, -, e, e', -⟩ := idx1 t
  funext a; apply Fin.ext
  match a with
  | ⟨0, _⟩ => show win1_10.index t (0 : Fin 2) * 5000 + 1 * p.val = r.val; omega
  | ⟨1, _⟩ => show win1_10.index t (1 : Fin 2) * 128 + 1 * j.val = j.val; omega

/-- A window over a whole small array reads that array at every point: its block index is zero. -/
theorem blk1_2 (c : Dev nD) (t : Fin cfg1.N) : (iblk1 V c 2 t : Spec.Mat 2 128) = V c main_arg3 := by
  funext y
  obtain ⟨k, j, rfl⟩ : ∃ (k : Fin 2) (j : Fin 128), y = ix2 k j := ⟨y 0, y 1, eq_ix2 y⟩
  show V c main_arg3 (((cfg1.win 2).blk t).view.emb (ix2 k j)) = V c main_arg3 (ix2 k j)
  refine congrArg _ ?_
  obtain ⟨-, -, -, -, -, -, e, e', -⟩ := idx1 t
  funext a; apply Fin.ext
  match a with
  | ⟨0, _⟩ => show win1_2.index t (0 : Fin 2) * 2 + 1 * k.val = k.val; omega
  | ⟨1, _⟩ => show win1_2.index t (1 : Fin 2) * 128 + 1 * j.val = j.val; omega

theorem blk1_4 (c : Dev nD) (t : Fin cfg1.N) : (iblk1 V c 4 t : Spec.Mat 128 128) = V c main_arg5 := by
  funext y
  obtain ⟨k, j, rfl⟩ : ∃ (k : Fin 128) (j : Fin 128), y = ix2 k j := ⟨y 0, y 1, eq_ix2 y⟩
  show V c main_arg5 (((cfg1.win 4).blk t).view.emb (ix2 k j)) = V c main_arg5 (ix2 k j)
  refine congrArg _ ?_
  obtain ⟨-, -, -, -, -, -, -, -, e, e', -⟩ := idx1 t
  funext a; apply Fin.ext
  match a with
  | ⟨0, _⟩ => show win1_4.index t (0 : Fin 2) * 128 + 1 * k.val = k.val; omega
  | ⟨1, _⟩ => show win1_4.index t (1 : Fin 2) * 128 + 1 * j.val = j.val; omega

theorem blk1_3 (c : Dev nD) (t : Fin cfg1.N) : (iblk1 V c 3 t : Spec.Row 128) = V c main_arg4 := by
  funext y
  obtain ⟨j, rfl⟩ : ∃ j : Fin 128, y = ix1 j := ⟨y 0, eq_ix1 y⟩
  show V c main_arg4 (((cfg1.win 3).blk t).view.emb (ix1 j)) = V c main_arg4 (ix1 j)
  refine congrArg _ ?_
  obtain ⟨-, -, -, -, -, -, -, -, -, -, e, -⟩ := idx1 t
  funext a; apply Fin.ext
  match a with
  | ⟨0, _⟩ => show win1_3.index t (0 : Fin 1) * 128 + 1 * j.val = j.val; omega

theorem blk1_5 (c : Dev nD) (t : Fin cfg1.N) : (iblk1 V c 5 t : Spec.Row 128) = V c main_arg6 := by
  funext y
  obtain ⟨j, rfl⟩ : ∃ j : Fin 128, y = ix1 j := ⟨y 0, eq_ix1 y⟩
  show V c main_arg6 (((cfg1.win 5).blk t).view.emb (ix1 j)) = V c main_arg6 (ix1 j)
  refine congrArg _ ?_
  obtain ⟨-, -, -, -, -, -, -, -, -, -, -, e, -⟩ := idx1 t
  funext a; apply Fin.ext
  match a with
  | ⟨0, _⟩ => show win1_5.index t (0 : Fin 1) * 128 + 1 * j.val = j.val; omega

theorem blk1_6 (c : Dev nD) (t : Fin cfg1.N) : (iblk1 V c 6 t : Spec.Row 128) = V c main_arg7 := by
  funext y
  obtain ⟨j, rfl⟩ : ∃ j : Fin 128, y = ix1 j := ⟨y 0, eq_ix1 y⟩
  show V c main_arg7 (((cfg1.win 6).blk t).view.emb (ix1 j)) = V c main_arg7 (ix1 j)
  refine congrArg _ ?_
  obtain ⟨-, -, -, -, -, -, -, -, -, -, -, -, e, -⟩ := idx1 t
  funext a; apply Fin.ext
  match a with
  | ⟨0, _⟩ => show win1_6.index t (0 : Fin 1) * 128 + 1 * j.val = j.val; omega

theorem blk1_7 (c : Dev nD) (t : Fin cfg1.N) : (iblk1 V c 7 t : Spec.Row 128) = V c main_arg8 := by
  funext y
  obtain ⟨j, rfl⟩ : ∃ j : Fin 128, y = ix1 j := ⟨y 0, eq_ix1 y⟩
  show V c main_arg8 (((cfg1.win 7).blk t).view.emb (ix1 j)) = V c main_arg8 (ix1 j)
  refine congrArg _ ?_
  obtain ⟨-, -, -, -, -, -, -, -, -, -, -, -, -, e, -⟩ := idx1 t
  funext a; apply Fin.ext
  match a with
  | ⟨0, _⟩ => show win1_7.index t (0 : Fin 1) * 128 + 1 * j.val = j.val; omega

theorem blk1_8 (c : Dev nD) (t : Fin cfg1.N) : (iblk1 V c 8 t : Spec.Row 128) = V c main_arg9 := by
  funext y
  obtain ⟨j, rfl⟩ : ∃ j : Fin 128, y = ix1 j := ⟨y 0, eq_ix1 y⟩
  show V c main_arg9 (((cfg1.win 8).blk t).view.emb (ix1 j)) = V c main_arg9 (ix1 j)
  refine congrArg _ ?_
  obtain ⟨-, -, -, -, -, -, -, -, -, -, -, -, -, -, e, -⟩ := idx1 t
  funext a; apply Fin.ext
  match a with
  | ⟨0, _⟩ => show win1_8.index t (0 : Fin 1) * 128 + 1 * j.val = j.val; omega

theorem blk1_9 (c : Dev nD) (t : Fin cfg1.N) : (iblk1 V c 9 t : Spec.Row 128) = V c main_arg10 := by
  funext y
  obtain ⟨j, rfl⟩ : ∃ j : Fin 128, y = ix1 j := ⟨y 0, eq_ix1 y⟩
  show V c main_arg10 (((cfg1.win 9).blk t).view.emb (ix1 j)) = V c main_arg10 (ix1 j)
  refine congrArg _ ?_
  obtain ⟨-, -, -, -, -, -, -, -, -, -, -, -, -, -, -, e⟩ := idx1 t
  funext a; apply Fin.ext
  match a with
  | ⟨0, _⟩ => show win1_9.index t (0 : Fin 1) * 128 + 1 * j.val = j.val; omega

/-- What region 1 leaves in its output array: the two-layer block of the arrays it reads. -/
abbrev G1 (c : Dev nD) : Spec.Mat 100000 128 :=
  Spec.gin (V c main_arg0) (V c main_v17) (V c main_arg3) (V c main_arg4) (V c main_arg5) (V c main_arg6) (V c main_arg7)
    (V c main_arg8) (V c main_arg9) (V c main_arg10)

/-- What point t writes back is block t of that array: the body stores the two-layer block of its loaded blocks, the
    block is row-wise, and the blocks' rows are the arrays' rows 5000 t + p. -/
theorem flushed1 (c : Dev nD) (t : Fin cfg1.N) :
    (dat1 (F := Ideal) V c).flushed 10 t = ((cfg1.win 10).blk t).view.read (Elt Ideal) (G1 V c) := by
  show (cfg1.win 10).cut (grid1.coords t) ((dat1 V c).after 10 t) = _
  rw [after1_10]
  unfold out1_10
  rw [View.canon_unit_zero hz2]
  simp only [View.ld_unit_zero (S := S5000x2) hz2, View.ld_unit_zero (S := S2x128) hz2,
    View.ld_unit_zero (S := S128x128) hz2, View.ld_unit_zero (S := S128) hz1]
  refine funext fun (y : S5000x128.Idx) => ?_
  obtain ⟨p, j, rfl⟩ : ∃ (p : Fin 5000) (j : Fin 128), y = ix2 p j := ⟨y 0, y 1, eq_ix2 y⟩
  have ht : t.val < 20 := lt_of_lt_of_eq t.isLt N_1
  have hp : p.val < 5000 := p.isLt
  show k1_pay1 (iblk1 V c 7 t) (k1_pay2 (iblk1 V c 0 t) (iblk1 V c 1 t) (iblk1 V c 2 t) (iblk1 V c 3 t) (iblk1 V c 4 t)
      (iblk1 V c 5 t) (iblk1 V c 6 t) (iblk1 V c 8 t) (iblk1 V c 9 t)) (ix2 p j)
    = G1 V c (((cfg1.win 10).blk t).view.emb (ix2 p j))
  refine (pay1_apply _ _ _ _ _ _ _ _ _ _ p j).trans ?_
  rw [emb1_10 t p ⟨5000 * t.val + p.val, by omega⟩ rfl j, blk1_2, blk1_3, blk1_4, blk1_5, blk1_6,
    blk1_7, blk1_8, blk1_9]
  exact gin_rows _ _ _ _ _ _ _ _ _ _ _ _ p ⟨5000 * t.val + p.val, by omega⟩
    (blk1_0 V c t p _ rfl) (blk1_1 V c t p _ rfl) j

/-- An index of the output array is in point t's block iff each coordinate is in the block's range on its axis. -/
theorem mem_blk1 (t : Fin cfg1.N) (i : S100000x128.Idx) :
    i ∈ ((cfg1.win 10).blk t).view.set ↔ ∀ a : Fin 2, win1_10.index t a * S5000x128.size a ≤ (i a).val
      ∧ (i a).val < win1_10.index t a * S5000x128.size a + S5000x128.size a := by
  show i ∈ ((View.whole main_v18).slice (win1_10.rect t)).set ↔ _
  rw [View.set_slice_whole, Rect.mem_set_unit]
  exact Iff.rfl

/-- The twenty blocks cover the output array: row r is in block r / 5000. -/
theorem cover1 (i : S100000x128.Idx) :
    ∃ t : Fin cfg1.N, (cfg1.win 10).flush t = true ∧ i ∈ ((cfg1.win 10).blk t).view.set := by
  have hi0 : (i 0).val < 100000 := (i 0).isLt
  have hi1 : (i 1).val < 128 := (i 1).isLt
  have hN : cfg1.N = 20 := N_1
  have hq : (i 0).val / 5000 < cfg1.N := by rw [hN]; omega
  refine ⟨⟨(i 0).val / 5000, hq⟩, flush1_10 _, ?_⟩
  rw [mem_blk1]
  obtain ⟨-, -, -, -, e, e', -⟩ := idx1 ⟨(i 0).val / 5000, hq⟩
  intro a
  match a with
  | ⟨0, _⟩ =>
    show win1_10.index ⟨(i 0).val / 5000, hq⟩ (0 : Fin 2) * 5000 ≤ (i 0).val
      ∧ (i 0).val < win1_10.index ⟨(i 0).val / 5000, hq⟩ (0 : Fin 2) * 5000 + 5000
    rw [e]
    show (i 0).val / 5000 * 5000 ≤ (i 0).val ∧ (i 0).val < (i 0).val / 5000 * 5000 + 5000
    omega
  | ⟨1, _⟩ =>
    show win1_10.index ⟨(i 0).val / 5000, hq⟩ (1 : Fin 2) * 128 ≤ (i 1).val
      ∧ (i 1).val < win1_10.index ⟨(i 0).val / 5000, hq⟩ (1 : Fin 2) * 128 + 128
    rw [e']
    omega

/-! ## Region 3 -/

/-- The body's stored value at (p, j) is the two-layer block of its loaded blocks at (p, j): the sum of x and agg
    contracted with Wa, plus ba, rectified; contracted with Wb, plus bb, rectified; the batch norm of that. -/
theorem pay3_apply (x0 x1 : Vec Ideal S5000x128 .f32) (x2 : Vec Ideal S128x128 .f32) (x3 : Vec Ideal S128 .f32)
    (x4 : Vec Ideal S128x128 .f32) (x5 x6 x7 x8 x9 : Vec Ideal S128 .f32) (p : Fin 5000) (j : Fin 128) :
    k3_pay1 x7 (k3_pay2 x0 x1 x2 x3 x4 x5 x8 x9) (k3_pay3 x6) (ix2 p j)
      = Spec.gin x0 x1 x2 x3 x4 x5 x6 x7 x8 x9 (ix2 p j) := by
  unfold k3_pay1 k3_pay2 k3_pay3
  simp only [addf_apply, mulf_apply, subf_apply, maximumf_apply, broadcast_apply, truncf_apply, row_apply, rsqrt_apply,
    mm_128, shapeCast_self, Ideal.ofBits_def]
  rfl

/-- The block indices of region 3's windows, over the twenty grid points: the row-block windows sit at block (t, 0),
    the others at block 0. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_10.index t (0 : Fin 2) = t.val ∧ win3_10.index t (1 : Fin 2) = 0
    ∧ win3_2.index t (0 : Fin 2) = 0 ∧ win3_2.index t (1 : Fin 2) = 0
    ∧ win3_4.index t (0 : Fin 2) = 0 ∧ win3_4.index t (1 : Fin 2) = 0
    ∧ win3_3.index t (0 : Fin 1) = 0 ∧ win3_5.index t (0 : Fin 1) = 0 ∧ win3_6.index t (0 : Fin 1) = 0
    ∧ win3_7.index t (0 : Fin 1) = 0 ∧ win3_8.index t (0 : Fin 1) = 0 ∧ win3_9.index t (0 : Fin 1) = 0 :=
  (by decide +kernel : ∀ t : Fin grid3.N, _)

/-- Row p of a row-block window's block at point t is row 5000 t + p of its array. -/
theorem blk3_0 (c : Dev nD) (t : Fin cfg3.N) (p : Fin 5000) (r : Fin 100000) (hr : r.val = 5000 * t.val + p.val)
    (k : Fin 128) : iblk3 V c 0 t (ix2 p k) = V c main_v18 (ix2 r k) := by
  show V c main_v18 (((cfg3.win 0).blk t).view.emb (ix2 p k)) = V c main_v18 (ix2 r k)
  refine congrArg _ ?_
  obtain ⟨e, e', -⟩ := idx3 t
  funext a; apply Fin.ext
  match a with
  | ⟨0, _⟩ => show win3_0.index t (0 : Fin 2) * 5000 + 1 * p.val = r.val; omega
  | ⟨1, _⟩ => show win3_0.index t (1 : Fin 2) * 128 + 1 * k.val = k.val; omega

theorem blk3_1 (c : Dev nD) (t : Fin cfg3.N) (p : Fin 5000) (r : Fin 100000) (hr : r.val = 5000 * t.val + p.val)
    (k : Fin 128) : iblk3 V c 1 t (ix2 p k) = V c main_v33 (ix2 r k) := by
  show V c main_v33 (((cfg3.win 1).blk t).view.emb (ix2 p k)) = V c main_v33 (ix2 r k)
  refine congrArg _ ?_
  obtain ⟨-, -, e, e', -⟩ := idx3 t
  funext a; apply Fin.ext
  match a with
  | ⟨0, _⟩ => show win3_1.index t (0 : Fin 2) * 5000 + 1 * p.val = r.val; omega
  | ⟨1, _⟩ => show win3_1.index t (1 : Fin 2) * 128 + 1 * k.val = k.val; omega

/-- Entry (p, j) of the output window's block at point t is entry (5000 t + p, j) of its array. -/
theorem emb3_10 (t : Fin cfg3.N) (p : Fin 5000) (r : Fin 100000) (hr : r.val = 5000 * t.val + p.val) (j : Fin 128) :
    ((cfg3.win 10).blk t).view.emb (ix2 p j) = ix2 r j := by
  obtain ⟨-, -, -, -, e, e', -⟩ := idx3 t
  funext a; apply Fin.ext
  match a with
  | ⟨0, _⟩ => show win3_10.index t (0 : Fin 2) * 5000 + 1 * p.val = r.val; omega
  | ⟨1, _⟩ => show win3_10.index t (1 : Fin 2) * 128 + 1 * j.val = j.val; omega

/-- A window over a whole small array reads that array at every point: its block index is zero. -/
theorem blk3_2 (c : Dev nD) (t : Fin cfg3.N) : (iblk3 V c 2 t : Spec.Mat 128 128) = V c main_arg11 := by
  funext y
  obtain ⟨k, j, rfl⟩ : ∃ (k : Fin 128) (j : Fin 128), y = ix2 k j := ⟨y 0, y 1, eq_ix2 y⟩
  show V c main_arg11 (((cfg3.win 2).blk t).view.emb (ix2 k j)) = V c main_arg11 (ix2 k j)
  refine congrArg _ ?_
  obtain ⟨-, -, -, -, -, -, e, e', -⟩ := idx3 t
  funext a; apply Fin.ext
  match a with
  | ⟨0, _⟩ => show win3_2.index t (0 : Fin 2) * 128 + 1 * k.val = k.val; omega
  | ⟨1, _⟩ => show win3_2.index t (1 : Fin 2) * 128 + 1 * j.val = j.val; omega

theorem blk3_4 (c : Dev nD) (t : Fin cfg3.N) : (iblk3 V c 4 t : Spec.Mat 128 128) = V c main_arg13 := by
  funext y
  obtain ⟨k, j, rfl⟩ : ∃ (k : Fin 128) (j : Fin 128), y = ix2 k j := ⟨y 0, y 1, eq_ix2 y⟩
  show V c main_arg13 (((cfg3.win 4).blk t).view.emb (ix2 k j)) = V c main_arg13 (ix2 k j)
  refine congrArg _ ?_
  obtain ⟨-, -, -, -, -, -, -, -, e, e', -⟩ := idx3 t
  funext a; apply Fin.ext
  match a with
  | ⟨0, _⟩ => show win3_4.index t (0 : Fin 2) * 128 + 1 * k.val = k.val; omega
  | ⟨1, _⟩ => show win3_4.index t (1 : Fin 2) * 128 + 1 * j.val = j.val; omega

theorem blk3_3 (c : Dev nD) (t : Fin cfg3.N) : (iblk3 V c 3 t : Spec.Row 128) = V c main_arg12 := by
  funext y
  obtain ⟨j, rfl⟩ : ∃ j : Fin 128, y = ix1 j := ⟨y 0, eq_ix1 y⟩
  show V c main_arg12 (((cfg3.win 3).blk t).view.emb (ix1 j)) = V c main_arg12 (ix1 j)
  refine congrArg _ ?_
  obtain ⟨-, -, -, -, -, -, -, -, -, -, e, -⟩ := idx3 t
  funext a; apply Fin.ext
  match a with
  | ⟨0, _⟩ => show win3_3.index t (0 : Fin 1) * 128 + 1 * j.val = j.val; omega

theorem blk3_5 (c : Dev nD) (t : Fin cfg3.N) : (iblk3 V c 5 t : Spec.Row 128) = V c main_arg14 := by
  funext y
  obtain ⟨j, rfl⟩ : ∃ j : Fin 128, y = ix1 j := ⟨y 0, eq_ix1 y⟩
  show V c main_arg14 (((cfg3.win 5).blk t).view.emb (ix1 j)) = V c main_arg14 (ix1 j)
  refine congrArg _ ?_
  obtain ⟨-, -, -, -, -, -, -, -, -, -, -, e, -⟩ := idx3 t
  funext a; apply Fin.ext
  match a with
  | ⟨0, _⟩ => show win3_5.index t (0 : Fin 1) * 128 + 1 * j.val = j.val; omega

theorem blk3_6 (c : Dev nD) (t : Fin cfg3.N) : (iblk3 V c 6 t : Spec.Row 128) = V c main_arg15 := by
  funext y
  obtain ⟨j, rfl⟩ : ∃ j : Fin 128, y = ix1 j := ⟨y 0, eq_ix1 y⟩
  show V c main_arg15 (((cfg3.win 6).blk t).view.emb (ix1 j)) = V c main_arg15 (ix1 j)
  refine congrArg _ ?_
  obtain ⟨-, -, -, -, -, -, -, -, -, -, -, -, e, -⟩ := idx3 t
  funext a; apply Fin.ext
  match a with
  | ⟨0, _⟩ => show win3_6.index t (0 : Fin 1) * 128 + 1 * j.val = j.val; omega

theorem blk3_7 (c : Dev nD) (t : Fin cfg3.N) : (iblk3 V c 7 t : Spec.Row 128) = V c main_arg16 := by
  funext y
  obtain ⟨j, rfl⟩ : ∃ j : Fin 128, y = ix1 j := ⟨y 0, eq_ix1 y⟩
  show V c main_arg16 (((cfg3.win 7).blk t).view.emb (ix1 j)) = V c main_arg16 (ix1 j)
  refine congrArg _ ?_
  obtain ⟨-, -, -, -, -, -, -, -, -, -, -, -, -, e, -⟩ := idx3 t
  funext a; apply Fin.ext
  match a with
  | ⟨0, _⟩ => show win3_7.index t (0 : Fin 1) * 128 + 1 * j.val = j.val; omega

theorem blk3_8 (c : Dev nD) (t : Fin cfg3.N) : (iblk3 V c 8 t : Spec.Row 128) = V c main_arg17 := by
  funext y
  obtain ⟨j, rfl⟩ : ∃ j : Fin 128, y = ix1 j := ⟨y 0, eq_ix1 y⟩
  show V c main_arg17 (((cfg3.win 8).blk t).view.emb (ix1 j)) = V c main_arg17 (ix1 j)
  refine congrArg _ ?_
  obtain ⟨-, -, -, -, -, -, -, -, -, -, -, -, -, -, e, -⟩ := idx3 t
  funext a; apply Fin.ext
  match a with
  | ⟨0, _⟩ => show win3_8.index t (0 : Fin 1) * 128 + 1 * j.val = j.val; omega

theorem blk3_9 (c : Dev nD) (t : Fin cfg3.N) : (iblk3 V c 9 t : Spec.Row 128) = V c main_arg18 := by
  funext y
  obtain ⟨j, rfl⟩ : ∃ j : Fin 128, y = ix1 j := ⟨y 0, eq_ix1 y⟩
  show V c main_arg18 (((cfg3.win 9).blk t).view.emb (ix1 j)) = V c main_arg18 (ix1 j)
  refine congrArg _ ?_
  obtain ⟨-, -, -, -, -, -, -, -, -, -, -, -, -, -, -, e⟩ := idx3 t
  funext a; apply Fin.ext
  match a with
  | ⟨0, _⟩ => show win3_9.index t (0 : Fin 1) * 128 + 1 * j.val = j.val; omega

/-- What region 3 leaves in its output array: the two-layer block of the arrays it reads. -/
abbrev G3 (c : Dev nD) : Spec.Mat 100000 128 :=
  Spec.gin (V c main_v18) (V c main_v33) (V c main_arg11) (V c main_arg12) (V c main_arg13) (V c main_arg14) (V c main_arg15)
    (V c main_arg16) (V c main_arg17) (V c main_arg18)

/-- What point t writes back is block t of that array: the body stores the two-layer block of its loaded blocks, the
    block is row-wise, and the blocks' rows are the arrays' rows 5000 t + p. -/
theorem flushed3 (c : Dev nD) (t : Fin cfg3.N) :
    (dat3 (F := Ideal) V c).flushed 10 t = ((cfg3.win 10).blk t).view.read (Elt Ideal) (G3 V c) := by
  show (cfg3.win 10).cut (grid3.coords t) ((dat3 V c).after 10 t) = _
  rw [after3_10]
  unfold out3_10
  rw [View.canon_unit_zero hz2]
  simp only [View.ld_unit_zero (S := S5000x128) hz2, View.ld_unit_zero (S := S128x128) hz2,
    View.ld_unit_zero (S := S128x128) hz2, View.ld_unit_zero (S := S128) hz1]
  refine funext fun (y : S5000x128.Idx) => ?_
  obtain ⟨p, j, rfl⟩ : ∃ (p : Fin 5000) (j : Fin 128), y = ix2 p j := ⟨y 0, y 1, eq_ix2 y⟩
  have ht : t.val < 20 := lt_of_lt_of_eq t.isLt N_3
  have hp : p.val < 5000 := p.isLt
  show k3_pay1 (iblk3 V c 7 t) (k3_pay2 (iblk3 V c 0 t) (iblk3 V c 1 t) (iblk3 V c 2 t) (iblk3 V c 3 t) (iblk3 V c 4 t)
      (iblk3 V c 5 t) (iblk3 V c 8 t) (iblk3 V c 9 t)) (k3_pay3 (iblk3 V c 6 t)) (ix2 p j)
    = G3 V c (((cfg3.win 10).blk t).view.emb (ix2 p j))
  refine (pay3_apply _ _ _ _ _ _ _ _ _ _ p j).trans ?_
  rw [emb3_10 t p ⟨5000 * t.val + p.val, by omega⟩ rfl j, blk3_2, blk3_3, blk3_4, blk3_5, blk3_6,
    blk3_7, blk3_8, blk3_9]
  exact gin_rows _ _ _ _ _ _ _ _ _ _ _ _ p ⟨5000 * t.val + p.val, by omega⟩
    (blk3_0 V c t p _ rfl) (blk3_1 V c t p _ rfl) j

/-- An index of the output array is in point t's block iff each coordinate is in the block's range on its axis. -/
theorem mem_blk3 (t : Fin cfg3.N) (i : S100000x128.Idx) :
    i ∈ ((cfg3.win 10).blk t).view.set ↔ ∀ a : Fin 2, win3_10.index t a * S5000x128.size a ≤ (i a).val
      ∧ (i a).val < win3_10.index t a * S5000x128.size a + S5000x128.size a := by
  show i ∈ ((View.whole main_v34).slice (win3_10.rect t)).set ↔ _
  rw [View.set_slice_whole, Rect.mem_set_unit]
  exact Iff.rfl

/-- The twenty blocks cover the output array: row r is in block r / 5000. -/
theorem cover3 (i : S100000x128.Idx) :
    ∃ t : Fin cfg3.N, (cfg3.win 10).flush t = true ∧ i ∈ ((cfg3.win 10).blk t).view.set := by
  have hi0 : (i 0).val < 100000 := (i 0).isLt
  have hi1 : (i 1).val < 128 := (i 1).isLt
  have hN : cfg3.N = 20 := N_3
  have hq : (i 0).val / 5000 < cfg3.N := by rw [hN]; omega
  refine ⟨⟨(i 0).val / 5000, hq⟩, flush3_10 _, ?_⟩
  rw [mem_blk3]
  obtain ⟨-, -, -, -, e, e', -⟩ := idx3 ⟨(i 0).val / 5000, hq⟩
  intro a
  match a with
  | ⟨0, _⟩ =>
    show win3_10.index ⟨(i 0).val / 5000, hq⟩ (0 : Fin 2) * 5000 ≤ (i 0).val
      ∧ (i 0).val < win3_10.index ⟨(i 0).val / 5000, hq⟩ (0 : Fin 2) * 5000 + 5000
    rw [e]
    show (i 0).val / 5000 * 5000 ≤ (i 0).val ∧ (i 0).val < (i 0).val / 5000 * 5000 + 5000
    omega
  | ⟨1, _⟩ =>
    show win3_10.index ⟨(i 0).val / 5000, hq⟩ (1 : Fin 2) * 128 ≤ (i 1).val
      ∧ (i 1).val < win3_10.index ⟨(i 0).val / 5000, hq⟩ (1 : Fin 2) * 128 + 128
    rw [e']
    omega

end Gin

open Gin

/-- After region 1 its output array holds the two-layer block of the arrays the region reads. -/
theorem region1 (c : Dev nD) : (dat1 (F := Ideal) V c).arrAt 10 cfg1.N
    = Spec.gin (V c main_arg0) (V c main_v17) (V c main_arg3) (V c main_arg4) (V c main_arg5) (V c main_arg6)
        (V c main_arg7) (V c main_arg8) (V c main_arg9) (V c main_arg10) :=
  (dat1 V c).arrAt_eq_of_cover 10 (G1 V c) (fun t _ => flushed1 V c t) cover1

/-- After region 3 its output array holds the two-layer block of the arrays the region reads. -/
theorem region3 (c : Dev nD) : (dat3 (F := Ideal) V c).arrAt 10 cfg3.N
    = Spec.gin (V c main_v18) (V c main_v33) (V c main_arg11) (V c main_arg12) (V c main_arg13) (V c main_arg14)
        (V c main_arg15) (V c main_arg16) (V c main_arg17) (V c main_arg18) :=
  (dat3 V c).arrAt_eq_of_cover 10 (G3 V c) (fun t _ => flushed3 V c t) cover3

end Cert.KVal

end
-- ==== Proof.KCls.lean ====
/-
  The classifier block of the kernel, as one array.

  The region has one grid point, and at that point every window's block is its whole array: each input block read is
  the input array, and the one write-back covers the output array.

  What the body stores, index by index. The first matrix product, accumulated into zero, is the plain sum over the 128
  contracted coordinates; the bias, the running mean, the reciprocal square root of the running variance plus ε, the scale
  and the shift are rows repeated down the rows, read at the column; the slope is the one entry of a 1 × 1 array, repeated
  everywhere; the leaky rectifier chooses h where h > 0 and slope · h elsewhere, with the product in that order. That is
  the specification's hidden layer at (i, k). The second product, accumulated into zero, is the sum over the 64 hidden
  coordinates of hidden (i, k) · W₂ (k, j), and the last bias row is added at column j: the specification's classifier.
  Rounding to the narrow format is the identity on the extended reals. Nothing here needs finiteness.
-/
import proofs.«150847_j10282151707326_2_alg».proof.Proof.Gen.KernelIdeal.Frame
import proofs.«150847_j10282151707326_2_alg».proof.Proof.Spec
import proofs.«150847_j10282151707326_2_alg».proof.Proof.LibDot
import Idealize.ShloMosaic.Lib.ValueLayout
import Idealize.ShloMosaic.Lib.Pipeline.Value

noncomputable section

namespace Cert.KVal

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b))

namespace Cls

theorem origin1 : (![0] : Fin 1 → Nat) = fun _ => 0 := funext fun a => by fin_cases a <;> rfl
theorem origin2 : (![0, 0] : Fin 2 → Nat) = fun _ => 0 := funext fun a => by fin_cases a <;> rfl

/-- One row, given a leading unit axis and repeated down the rows, reads the row's entry of the column. -/
theorem row_read {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (i : Fin a) (j : Fin b) :
    broadcastTo ⟨2, ![a, b]⟩ (shapeCast ⟨2, ![1, b]⟩ v h1) h2 (ix2 i j) = v (ix1 j) := by
  rw [broadcastTo_1b_ab_apply, shapeCast_a_1a_apply]

/-- The one entry of a 1 × 1 array, extracted. -/
theorem entry_apply (v : Vec Ideal S1x1 .f32) (h : ∀ a, (![0, 0] : Fin 2 → Nat) a < S1x1.size a) :
    extractAt ![0, 0] v h = v (ix2 0 0) :=
  congrArg v (funext fun a => by fin_cases a <;> rfl)

end Cls

open Cls

/-! ## The stored value -/

/-- The second product at row i, column j: the sum over the hidden coordinates of the specification's hidden layer
    times the second weight. -/
theorem pay5_2_apply (x : Vec Ideal S1000x128 .f32) (W1 : Vec Ideal S128x64 .f32) (b1 g be rm rv : Vec Ideal S64 .f32)
    (a11 : Vec Ideal S1x1 .f32) (W2 : Vec Ideal S64x10 .f32) (i : Fin 1000) (j : Fin 10) :
    k5_pay2 x W1 b1 g be rm rv a11 W2 (ix2 i j)
      = ∑ k : Fin 64, Spec.clsHidden x W1 b1 g be rm rv (a11 (ix2 0 0)) (ix2 i k) * W2 (ix2 k j) := by
  have hm1 : ∀ k : Fin 64, matmul dot_S1000x128_S128x64_S1000x64_1_0_0_1_n_n none (truncf .bf16 x bitsLt_bf16_f32)
      (truncf .bf16 W1 bitsLt_bf16_f32) (constant (F := Ideal) S1000x64 .f32 0x00000000#32) (ix2 i k)
      = ∑ q : Fin 128, x (ix2 i q) * W1 (ix2 q k) := fun k =>
    Cert.LibDot.matmul_zero_plain_apply dot_S1000x128_S128x64_S1000x64_1_0_0_1_n_n rfl rfl rfl rfl rfl rfl none _ _ (ix2 i k)
  unfold k5_pay2
  refine (Cert.LibDot.matmul_zero_plain_apply dot_S1000x64_S64x10_S1000x10_1_0_0_1_n_n rfl rfl rfl rfl rfl rfl none _ _ (ix2 i j)).trans ?_
  refine Finset.sum_congr rfl fun k _ => ?_
  refine congrArg (· * W2 (ix2 k j)) ?_
  show (_ : S1000x64.Idx → EReal) (ix2 i k) = _
  simp only [truncf_apply, select_apply, cmpf_apply, mulf_apply, addf_apply, subf_apply, broadcast_apply, row_read,
    shapeCast_self, entry_apply]
  rw [hm1 k, entry_apply a11 inpos_S1x1_p0_0]
  rfl

/-- The stored value at row i, column j: the second product plus the last bias row read at column j. -/
theorem pay5_apply (x : Vec Ideal S1000x128 .f32) (W1 : Vec Ideal S128x64 .f32) (b1 g be rm rv : Vec Ideal S64 .f32)
    (a11 : Vec Ideal S1x1 .f32) (W2 : Vec Ideal S64x10 .f32) (b2 : Vec Ideal S10 .f32) (i : Fin 1000) (j : Fin 10) :
    k5_pay1 (k5_pay2 x W1 b1 g be rm rv a11 W2) b2 (ix2 i j)
      = Spec.cls x W1 b1 g be rm rv (a11 (ix2 0 0)) W2 b2 (ix2 i j) := by
  unfold k5_pay1
  simp only [addf_apply, row_read]
  rw [pay5_2_apply x W1 b1 g be rm rv a11 W2 i j]
  rfl

/-- What the body leaves in the output's buffer: its one store fills the buffer, and each load reads a whole block. -/
theorem out5_eq (x : Vec Ideal S1000x128 .f32) (W1 : Vec Ideal S128x64 .f32) (b1 g be rm rv : Vec Ideal S64 .f32)
    (a11 : Vec Ideal S1x1 .f32) (W2 : Vec Ideal S64x10 .f32) (b2 : Vec Ideal S10 .f32) :
    out5_10 x W1 b1 g be rm rv a11 W2 b2 = Spec.cls x W1 b1 g be rm rv (a11 (ix2 0 0)) W2 b2 := by
  unfold out5_10
  rw [View.canon_unit_zero origin2]
  simp only [View.ld_unit_zero (S := S1000x128) origin2, View.ld_unit_zero (S := S128x64) origin2,
    View.ld_unit_zero (S := S64) origin1, View.ld_unit_zero (S := S1x1) origin2, View.ld_unit_zero (S := S64x10) origin2,
    View.ld_unit_zero (S := S10) origin1]
  funext y
  obtain ⟨p, q, rfl⟩ : ∃ (p : Fin 1000) (q : Fin 10), y = ix2 p q := ⟨y 0, y 1, eq_ix2 y⟩
  exact pay5_apply x W1 b1 g be rm rv a11 W2 b2 p q

/-! ## The region -/

theorem blk5_0 (c : Dev nD) : (iblk5 V c 0 t5_0 : Vec Ideal S1000x128 .f32) = V c main_v40 := by
  unfold iblk5
  have hz' : (fun a => win5_0.index t5_0 a * main_v40.ty.shape.size a) = fun _ => 0 := funext fun a => by fin_cases a <;> decide
  exact Memref.read_access_unit_zero (Elt Ideal) main_v40 hz' (fun a => by rw [congrFun hz' a]; simp) (V c main_v40)

theorem blk5_1 (c : Dev nD) : (iblk5 V c 1 t5_0 : Vec Ideal S128x64 .f32) = V c main_arg31 := by
  unfold iblk5
  have hz' : (fun a => win5_1.index t5_0 a * main_arg31.ty.shape.size a) = fun _ => 0 := funext fun a => by fin_cases a <;> decide
  exact Memref.read_access_unit_zero (Elt Ideal) main_arg31 hz' (fun a => by rw [congrFun hz' a]; simp) (V c main_arg31)

theorem blk5_2 (c : Dev nD) : (iblk5 V c 2 t5_0 : Vec Ideal S64 .f32) = V c main_arg32 := by
  unfold iblk5
  have hz' : (fun a => win5_2.index t5_0 a * main_arg32.ty.shape.size a) = fun _ => 0 := funext fun a => by fin_cases a <;> decide
  exact Memref.read_access_unit_zero (Elt Ideal) main_arg32 hz' (fun a => by rw [congrFun hz' a]; simp) (V c main_arg32)

theorem blk5_3 (c : Dev nD) : (iblk5 V c 3 t5_0 : Vec Ideal S64 .f32) = V c main_arg33 := by
  unfold iblk5
  have hz' : (fun a => win5_3.index t5_0 a * main_arg33.ty.shape.size a) = fun _ => 0 := funext fun a => by fin_cases a <;> decide
  exact Memref.read_access_unit_zero (Elt Ideal) main_arg33 hz' (fun a => by rw [congrFun hz' a]; simp) (V c main_arg33)

theorem blk5_4 (c : Dev nD) : (iblk5 V c 4 t5_0 : Vec Ideal S64 .f32) = V c main_arg34 := by
  unfold iblk5
  have hz' : (fun a => win5_4.index t5_0 a * main_arg34.ty.shape.size a) = fun _ => 0 := funext fun a => by fin_cases a <;> decide
  exact Memref.read_access_unit_zero (Elt Ideal) main_arg34 hz' (fun a => by rw [congrFun hz' a]; simp) (V c main_arg34)

theorem blk5_5 (c : Dev nD) : (iblk5 V c 5 t5_0 : Vec Ideal S64 .f32) = V c main_arg35 := by
  unfold iblk5
  have hz' : (fun a => win5_5.index t5_0 a * main_arg35.ty.shape.size a) = fun _ => 0 := funext fun a => by fin_cases a <;> decide
  exact Memref.read_access_unit_zero (Elt Ideal) main_arg35 hz' (fun a => by rw [congrFun hz' a]; simp) (V c main_arg35)

theorem blk5_6 (c : Dev nD) : (iblk5 V c 6 t5_0 : Vec Ideal S64 .f32) = V c main_arg36 := by
  unfold iblk5
  have hz' : (fun a => win5_6.index t5_0 a * main_arg36.ty.shape.size a) = fun _ => 0 := funext fun a => by fin_cases a <;> decide
  exact Memref.read_access_unit_zero (Elt Ideal) main_arg36 hz' (fun a => by rw [congrFun hz' a]; simp) (V c main_arg36)

theorem blk5_7 (c : Dev nD) : (iblk5 V c 7 t5_0 : Vec Ideal S1x1 .f32) = V c main_v41 := by
  unfold iblk5
  have hz' : (fun a => win5_7.index t5_0 a * main_v41.ty.shape.size a) = fun _ => 0 := funext fun a => by fin_cases a <;> decide
  exact Memref.read_access_unit_zero (Elt Ideal) main_v41 hz' (fun a => by rw [congrFun hz' a]; simp) (V c main_v41)

theorem blk5_8 (c : Dev nD) : (iblk5 V c 8 t5_0 : Vec Ideal S64x10 .f32) = V c main_arg38 := by
  unfold iblk5
  have hz' : (fun a => win5_8.index t5_0 a * main_arg38.ty.shape.size a) = fun _ => 0 := funext fun a => by fin_cases a <;> decide
  exact Memref.read_access_unit_zero (Elt Ideal) main_arg38 hz' (fun a => by rw [congrFun hz' a]; simp) (V c main_arg38)

theorem blk5_9 (c : Dev nD) : (iblk5 V c 9 t5_0 : Vec Ideal S10 .f32) = V c main_arg39 := by
  unfold iblk5
  have hz' : (fun a => win5_9.index t5_0 a * main_arg39.ty.shape.size a) = fun _ => 0 := funext fun a => by fin_cases a <;> decide
  exact Memref.read_access_unit_zero (Elt Ideal) main_arg39 hz' (fun a => by rw [congrFun hz' a]; simp) (V c main_arg39)

/-- The output window's one block starts at the array's origin. -/
theorem off5_10 : (fun a => win5_10.index t5_0 a * win5_10.size a) = fun _ => 0 := funext fun a => by fin_cases a <;> decide

/-- What the region's one point writes back is the specification of the input arrays, read through the output's block. -/
theorem flushed5 (c : Dev nD) (t : Fin cfg5.N) :
    (dat5 (F := Ideal) V c).flushed 10 t = ((cfg5.win 10).blk t).view.read (Elt Ideal)
      (Spec.cls (V c main_v40) (V c main_arg31) (V c main_arg32) (V c main_arg33) (V c main_arg34) (V c main_arg35) (V c main_arg36) (V c main_v41 (ix2 0 0)) (V c main_arg38) (V c main_arg39)) := by
  obtain rfl := fin_N5 t
  show (cfg5.win 10).cut (grid5.coords t5_0) ((dat5 V c).after 10 t5_0) = _
  rw [after5_10]
  have hz' : (fun a => win5_10.index t5_0 a * main_v42.ty.shape.size a) = fun _ => 0 := funext fun a => by fin_cases a <;> decide
  refine Eq.trans ?_ (Memref.read_access_unit_zero (Elt Ideal) main_v42 hz' (fun a => by rw [congrFun hz' a]; simp) _).symm
  refine (out5_eq (iblk5 V c 0 t5_0) (iblk5 V c 1 t5_0) (iblk5 V c 2 t5_0) (iblk5 V c 3 t5_0) (iblk5 V c 4 t5_0) (iblk5 V c 5 t5_0) (iblk5 V c 6 t5_0) (iblk5 V c 7 t5_0) (iblk5 V c 8 t5_0) (iblk5 V c 9 t5_0)).trans ?_
  rw [blk5_0, blk5_1, blk5_2, blk5_3, blk5_4, blk5_5, blk5_6, blk5_7, blk5_8, blk5_9]

/-- The output array after the region: its one block covers it. -/
theorem region5 (c : Dev nD) : (dat5 (F := Ideal) V c).arrAt 10 cfg5.N
    = Spec.cls (V c main_v40) (V c main_arg31) (V c main_arg32) (V c main_arg33) (V c main_arg34) (V c main_arg35) (V c main_arg36) (V c main_v41 (ix2 0 0)) (V c main_arg38) (V c main_arg39) :=
  (dat5 V c).arrAt_eq_of_cover 10 _ (fun t _ => flushed5 V c t) fun i =>
    ⟨t5_0, flush5_10 t5_0, by
      show i ∈ ((View.whole main_v42).slice (win5_10.rect t5_0)).set
      rw [View.set_slice_whole]
      exact View.mem_set_unit_zero off5_10 _ i⟩

end Cert.KVal

end
-- ==== Proof.Compose.lean ====
/-
  The whole network as one function of its inputs, with the sparse steps left as parameters.

  The network pools the node positions per graph, applies a fully connected block, runs two rounds of message passing
  (each round adds to every node the sum of its in-neighbours' rows and applies the two-layer block), pools each round's
  node features per graph, adds what was pooled to the earlier per-graph features, applies a shared fully connected block,
  and classifies.  The pooling and the neighbour aggregation are data-dependent scatters and gathers; they enter here only
  as given maps between arrays (`pool2`, `pool128`, `agg2`, `agg128`), and the sums of per-graph features are entry by
  entry.  Stating the network once, over these parameters, lets two programs that perform the same sparse steps be compared
  through their dense blocks alone.
-/
import proofs.«150847_j10282151707326_2_alg».proof.Proof.Spec

noncomputable section

namespace Cert.Compose

open Idealize.ShloMosaic Idealize.ShloMosaic.ValueIdx Cert.Spec

/-- Entry-by-entry sum of two arrays of one shape. -/
def add {m n : ℕ} (a b : Mat m n) : Mat m n := fun y => a y + b y

/-- The network's output, 1000 graphs × 10 classes, from the node positions `pos`, the sparse maps, and the weights. -/
def result
    (pool2 : Mat 100000 2 → Mat 1000 2) (pool128 : Mat 100000 128 → Mat 1000 128)
    (agg2 : Mat 100000 2 → Mat 100000 2) (agg128 : Mat 100000 128 → Mat 100000 128)
    (pos : Mat 100000 2)
    (W1a : Mat 2 128) (b1a : Row 128) (W1b : Mat 128 128) (b1b n1g n1b n1rm n1rv : Row 128)
    (W2a : Mat 128 128) (b2a : Row 128) (W2b : Mat 128 128) (b2b n2g n2b n2rm n2rv : Row 128)
    (Wf1 : Mat 2 128) (bf1 f1g f1b f1rm f1rv : Row 128)
    (Wf2 : Mat 128 128) (bf2 f2g f2b f2rm f2rv : Row 128)
    (Wc1 : Mat 128 64) (bc1 gc bec rmc rvc : Row 64) (a : EReal) (Wc2 : Mat 64 10) (bc2 : Row 10) : Mat 1000 10 :=
  let x0g := fc (pool2 pos) Wf1 bf1 f1g f1b f1rm f1rv
  let x1 := gin pos (agg2 pos) W1a b1a W1b b1b n1g n1b n1rm n1rv
  let x1g := fc (add x0g (pool128 x1)) Wf2 bf2 f2g f2b f2rm f2rv
  let x2 := gin x1 (agg128 x1) W2a b2a W2b b2b n2g n2b n2rm n2rv
  let x2g := fc (add (add x0g x1g) (pool128 x2)) Wf2 bf2 f2g f2b f2rm f2rv
  cls x2g Wc1 bc1 gc bec rmc rvc a Wc2 bc2

end Cert.Compose

end
-- ==== Proof.KValue.lean ====
/-
  The kernel program's result as the network's function of its launch arrays.

  Each launch's output array is the specification's dense block of the launch's input arrays (one lemma per launch);
  each input array, at the launch's entry, is a launch array of the program, an earlier launch's output, or a sparse host
  step of those (the fold of the buffer contents through the program's segments).  Substituting one into the other from
  the first launch to the last gives the result array as the composed network of the launch arrays: the per-graph pooled
  positions through a fully connected block, two rounds of aggregation and two-layer blocks, the pooled rounds added to
  the earlier per-graph features, the shared fully connected block, the classifier.
-/
import proofs.«150847_j10282151707326_2_alg».proof.Proof.KFold
import proofs.«150847_j10282151707326_2_alg».proof.Proof.KFc
import proofs.«150847_j10282151707326_2_alg».proof.Proof.KGin
import proofs.«150847_j10282151707326_2_alg».proof.Proof.KCls
import proofs.«150847_j10282151707326_2_alg».proof.Proof.Compose

noncomputable section

namespace Cert.KValue

open Idealize.ShloMosaic Idealize.ShloMosaic.TcCoe Idealize.ShloMosaic.ValueIdx Cert.KernelIdeal Cert.KernelIdeal.Gen Cert.KFold

variable (m : (ℓ : Loc nD τ sig) → Buf (Elt Ideal) ℓ) (ρ : Dev nD → PrngReg) (c : Dev nD)

/-- An entry-by-entry float sum of two arrays is the specification's sum. -/
theorem addf_eq_add {a b : ℕ} (x y : FVec Ideal ⟨2, ![a, b]⟩ .f32) : addf x y = Compose.add x y := rfl

/-- The slope of the leaky rectifier: the 1 × 1 reshape of the scalar, read at its one entry, is the scalar. -/
theorem slope (a : FVec Ideal S_ .f32) : shapeCast S1x1 a shapeCasts_S_S1x1 (ix2 0 0) = a ix0 := by
  unfold shapeCast
  exact congrArg a (eq_ix0 _)

/-- Launch 0: the pooled positions through the first fully connected block. -/
theorem X0_eq : X0 m ρ c = Spec.fc (KSparse.pool2 (A m c main_arg2) (A m c main_arg0)) (A m c main_arg19) (A m c main_arg20) (A m c main_arg21) (A m c main_arg22) (A m c main_arg23) (A m c main_arg24) := by
  unfold X0
  rw [Cert.KVal.region0 (V1 m ρ) c, entry0_v6 m ρ c, args_V1 m ρ c main_arg19 (by decide), args_V1 m ρ c main_arg20 (by decide), args_V1 m ρ c main_arg21 (by decide), args_V1 m ρ c main_arg22 (by decide), args_V1 m ρ c main_arg23 (by decide), args_V1 m ρ c main_arg24 (by decide)]

/-- Launch 1: the first round's two-layer block of the positions and their aggregated neighbours. -/
theorem X1_eq : X1 m ρ c = Spec.gin (A m c main_arg0) (KSparse.agg2 (A m c main_arg1) (A m c main_arg0)) (A m c main_arg3) (A m c main_arg4) (A m c main_arg5) (A m c main_arg6) (A m c main_arg7) (A m c main_arg8) (A m c main_arg9) (A m c main_arg10) := by
  unfold X1
  rw [Cert.KVal.region1 (V3 m ρ) c, entry1_v17 m ρ c, args_V3 m ρ c main_arg0 (by decide), args_V3 m ρ c main_arg3 (by decide), args_V3 m ρ c main_arg4 (by decide), args_V3 m ρ c main_arg5 (by decide), args_V3 m ρ c main_arg6 (by decide), args_V3 m ρ c main_arg7 (by decide), args_V3 m ρ c main_arg8 (by decide), args_V3 m ρ c main_arg9 (by decide), args_V3 m ρ c main_arg10 (by decide)]

/-- Launch 2: the shared fully connected block of the first per-graph features plus the pooled first round. -/
theorem X2_eq : X2 m ρ c = Spec.fc (Compose.add (X0 m ρ c) (KSparse.pool128 (A m c main_arg2) (X1 m ρ c))) (A m c main_arg25) (A m c main_arg26) (A m c main_arg27) (A m c main_arg28) (A m c main_arg29) (A m c main_arg30) := by
  unfold X2
  rw [Cert.KVal.region2 (V5 m ρ) c, entry2_v22 m ρ c, args_V5 m ρ c main_arg25 (by decide), args_V5 m ρ c main_arg26 (by decide), args_V5 m ρ c main_arg27 (by decide), args_V5 m ρ c main_arg28 (by decide), args_V5 m ρ c main_arg29 (by decide), args_V5 m ρ c main_arg30 (by decide)]
  rfl

-- each rewrite re-derives the buffers' array types from the program's buffer table
set_option maxHeartbeats 4000000 in
/-- Launch 3: the second round's two-layer block of the first round's features and their aggregated neighbours. -/
theorem X3_eq : X3 m ρ c = Spec.gin (X1 m ρ c) (KSparse.agg128 (A m c main_arg1) (X1 m ρ c)) (A m c main_arg11) (A m c main_arg12) (A m c main_arg13) (A m c main_arg14) (A m c main_arg15) (A m c main_arg16) (A m c main_arg17) (A m c main_arg18) := by
  unfold X3
  rw [Cert.KVal.region3 (V7 m ρ) c, entry3_v18 m ρ c, entry3_v33 m ρ c, args_V7 m ρ c main_arg11 (by decide), args_V7 m ρ c main_arg12 (by decide), args_V7 m ρ c main_arg13 (by decide), args_V7 m ρ c main_arg14 (by decide), args_V7 m ρ c main_arg15 (by decide), args_V7 m ρ c main_arg16 (by decide), args_V7 m ρ c main_arg17 (by decide), args_V7 m ρ c main_arg18 (by decide)]

-- each rewrite re-derives the buffers' array types from the program's buffer table
set_option maxHeartbeats 4000000 in
/-- Launch 4: the shared fully connected block of the two earlier per-graph features plus the pooled second round. -/
theorem X4_eq : X4 m ρ c = Spec.fc (Compose.add (Compose.add (X0 m ρ c) (X2 m ρ c)) (KSparse.pool128 (A m c main_arg2) (X3 m ρ c))) (A m c main_arg25) (A m c main_arg26) (A m c main_arg27) (A m c main_arg28) (A m c main_arg29) (A m c main_arg30) := by
  unfold X4
  rw [Cert.KVal.region4 (V9 m ρ) c, entry4_v39 m ρ c, args_V9 m ρ c main_arg25 (by decide), args_V9 m ρ c main_arg26 (by decide), args_V9 m ρ c main_arg27 (by decide), args_V9 m ρ c main_arg28 (by decide), args_V9 m ρ c main_arg29 (by decide), args_V9 m ρ c main_arg30 (by decide)]
  rfl

-- each rewrite re-derives the buffers' array types from the program's buffer table
set_option maxHeartbeats 4000000 in
/-- Launch 5: the classifier of the last per-graph features. -/
theorem X5_eq : X5 m ρ c = Spec.cls (X4 m ρ c) (A m c main_arg31) (A m c main_arg32) (A m c main_arg33) (A m c main_arg34) (A m c main_arg35) (A m c main_arg36) (A m c main_arg37 ix0) (A m c main_arg38) (A m c main_arg39) := by
  unfold X5
  rw [Cert.KVal.region5 (V11 m ρ) c, entry5_v40 m ρ c, entry5_v41 m ρ c, slope, args_V11 m ρ c main_arg31 (by decide), args_V11 m ρ c main_arg32 (by decide), args_V11 m ρ c main_arg33 (by decide), args_V11 m ρ c main_arg34 (by decide), args_V11 m ρ c main_arg35 (by decide), args_V11 m ρ c main_arg36 (by decide), args_V11 m ρ c main_arg38 (by decide), args_V11 m ρ c main_arg39 (by decide)]

-- each rewrite re-derives the buffers' array types from the program's buffer table
set_option maxHeartbeats 4000000 in
/-- The result array is the composed network of the launch arrays. -/
theorem kernel_value : W12 m ρ c (Proc.devRef .tc main_v42)
    = Compose.result (KSparse.pool2 (A m c main_arg2)) (KSparse.pool128 (A m c main_arg2)) (KSparse.agg2 (A m c main_arg1)) (KSparse.agg128 (A m c main_arg1)) (A m c main_arg0)
        (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg22) (A m c main_arg23) (A m c main_arg24) (A m c main_arg25) (A m c main_arg26) (A m c main_arg27) (A m c main_arg28) (A m c main_arg29) (A m c main_arg30) (A m c main_arg31) (A m c main_arg32) (A m c main_arg33) (A m c main_arg34) (A m c main_arg35) (A m c main_arg36) (A m c main_arg37 ix0) (A m c main_arg38) (A m c main_arg39) := by
  rw [exit_v42 m ρ c, X5_eq, X4_eq, X3_eq, X2_eq, X1_eq, X0_eq]
  rfl

end Cert.KValue

end
-- ==== Proof.RSparse.lean ====
/-
  The sparse steps of the network as maps between arrays, spelt with this program's own records.

  `pool` adds every node's row into the row of the graph the node belongs to (a scatter-add of the node rows into a zero
  array of 1000 graph rows, indexed by the graph ids).  `agg` adds, for every edge, the source node's row into the target
  node's row: the source ids are wrapped (a negative id has the node count added), the source rows are gathered, and the
  gathered rows are scatter-added into a zero array of 100000 node rows, indexed by the target ids.  The edge array's first
  row holds the source ids and its second row the target ids.  These are exactly the host operations the program performs,
  composed; they are never evaluated.
-/
import proofs.«150847_j10282151707326_2_alg».proof.ReferenceIdeal
import proofs.«150847_j10282151707326_2_alg».proof.Proof.Gen.ReferenceIdeal
import Idealize.ShloMosaic.PureOps.Ideal

noncomputable section

namespace Cert.RSparse

open Idealize.ShloMosaic Cert.ReferenceIdeal Cert.ReferenceIdeal.Gen

/-- The graph ids of the nodes. -/
abbrev Ids : Type := (⟨S100000, .i32⟩ : BufTy).Contents (Elt Ideal)
/-- The edges: row 0 the source ids, row 1 the target ids. -/
abbrev Edges : Type := (⟨S2x600000, .i32⟩ : BufTy).Contents (Elt Ideal)

/-- The source ids of the edges. -/
def src (ei : Edges) : (⟨S600000, .i32⟩ : BufTy).Contents (Elt Ideal) :=
  shapeCast S600000 (extractStridedSlice S1x600000 ![0, 0] ei slices_S2x600000_S1x600000_0_0) shapeCasts_S1x600000_S600000
/-- The target ids of the edges. -/
def dst (ei : Edges) : (⟨S600000, .i32⟩ : BufTy).Contents (Elt Ideal) :=
  shapeCast S600000 (extractStridedSlice S1x600000 ![1, 0] ei slices_S2x600000_S1x600000_1_0) shapeCasts_S1x600000_S600000
/-- The source ids wrapped into range as a column of indices: a negative id has the node count added. -/
def srcIdx (ei : Edges) : (⟨S600000x1, .i32⟩ : BufTy).Contents (Elt Ideal) :=
  broadcastInDim S600000x1 ![0] bcast_S600000_S600000x1_0
    (select (cmpi .slt (src ei) (broadcastInDim S600000 ![] bcast_S_S600000 (constantI S_ 32 0#32)))
      (addi (src ei) (broadcastInDim S600000 ![] bcast_S_S600000 (constantI S_ 32 100000#32))) (src ei))

/-- Per-graph sums of two-column node rows. -/
def pool2 (batch : Ids) (x : FVec Ideal S100000x2 .f32) : FVec Ideal S1000x2 .f32 :=
  Host.scatterAdd scatter_S1000x2_S100000x1_S100000x2_1_0_0_1
    (broadcastInDim S1000x2 ![] bcast_S_S1000x2 (constant S_ .f32 0x00000000#32))
    (broadcastInDim S100000x1 ![0] bcast_S100000_S100000x1_0 batch) x
/-- Per-graph sums of 128-column node rows. -/
def pool128 (batch : Ids) (x : FVec Ideal S100000x128 .f32) : FVec Ideal S1000x128 .f32 :=
  Host.scatterAdd scatter_S1000x128_S100000x1_S100000x128_1_0_0_1
    (broadcastInDim S1000x128 ![] bcast_S_S1000x128 (constant S_ .f32 0x00000000#32))
    (broadcastInDim S100000x1 ![0] bcast_S100000_S100000x1_0 batch) x
/-- Per-node sums of the in-neighbours' two-column rows. -/
def agg2 (ei : Edges) (x : FVec Ideal S100000x2 .f32) : FVec Ideal S100000x2 .f32 :=
  Host.scatterAdd scatter_S100000x2_S600000x1_S600000x2_1_0_0_1
    (broadcastInDim S100000x2 ![] bcast_S_S100000x2 (constant S_ .f32 0x00000000#32))
    (broadcastInDim S600000x1 ![0] bcast_S600000_S600000x1_0 (dst ei))
    (Host.gather gather_S100000x2_S600000x1_S600000x2_1_0_n_n_0_1_12 x (srcIdx ei))
/-- Per-node sums of the in-neighbours' 128-column rows. -/
def agg128 (ei : Edges) (x : FVec Ideal S100000x128 .f32) : FVec Ideal S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 (dst ei))
    (Host.gather gather_S100000x128_S600000x1_S600000x128_1_0_n_n_0_1_1128 x (srcIdx ei))

end Cert.RSparse

end
-- ==== Proof.LibBcast.lean ====
/-
  Host broadcasts and a row reshape, read at an index.

  A vector of length `a` broadcast first to an `a × 1` column and then across `b` columns reads, at `(i, c)`, the vector
  at `i`; a vector of length `b` broadcast first to a `1 × b` row and then down `a` rows reads, at `(i, c)`, the vector
  at `c`; a scalar broadcast to any shape reads the scalar everywhere; and a `1 × n` array reshaped to length `n`
  reads, at `j`, the array at `(0, j)`.  A broadcast reads its operand at the coordinates its axes are sent to, and at
  `0` on an operand axis of extent one; when the extent of a broadcast axis happens to be one as well, the coordinate
  read is below one, hence `0`, and the two descriptions agree.  A reshape keeps the row-major position.
-/
import Idealize.ShloMosaic.Lib.Pipeline.Value
import Idealize.ShloMosaic.Lib.ValueIdx

namespace Cert.LibBcast

open Idealize.ShloMosaic Idealize.ShloMosaic.ValueIdx

/-- A vector broadcast to a column and then across `b` columns, read at `(i, c)`, is the vector at `i`. -/
theorem rows_apply {α : Type} {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![a, 1]⟩ ![0] h1 v) (ix2 i c) = v (ix1 i) := by
  have hi : i.val < a := i.isLt
  have e2 := broadcastInDim_apply ![0, 1] h2 (broadcastInDim ⟨2, ![a, 1]⟩ ![0] h1 v) (ix2 i c) (ix2 i (0 : Fin 1)) (by
    intro d
    match d with
    | ⟨0, _⟩ =>
      show i.val = if a = 1 then 0 else i.val
      split
      · omega
      · rfl
    | ⟨1, _⟩ =>
      show 0 = if 1 = 1 then 0 else c.val
      exact (if_pos rfl).symm)
  have e1 := broadcastInDim_apply ![0] h1 v (ix2 i (0 : Fin 1)) (ix1 i) (by
    intro d
    match d with
    | ⟨0, _⟩ =>
      show i.val = if a = 1 then 0 else i.val
      split
      · omega
      · rfl)
  exact e2.trans e1

/-- A vector broadcast to a row and then down `a` rows, read at `(i, c)`, is the vector at `c`. -/
theorem cols_apply {α : Type} {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![1, b]⟩ ![1] h1 v) (ix2 i c) = v (ix1 c) := by
  have hc : c.val < b := c.isLt
  have e2 := broadcastInDim_apply ![0, 1] h2 (broadcastInDim ⟨2, ![1, b]⟩ ![1] h1 v) (ix2 i c) (ix2 (0 : Fin 1) c) (by
    intro d
    match d with
    | ⟨0, _⟩ =>
      show 0 = if 1 = 1 then 0 else i.val
      exact (if_pos rfl).symm
    | ⟨1, _⟩ =>
      show c.val = if b = 1 then 0 else c.val
      split
      · omega
      · rfl)
  have e1 := broadcastInDim_apply ![1] h1 v (ix2 (0 : Fin 1) c) (ix1 c) (by
    intro d
    match d with
    | ⟨0, _⟩ =>
      show c.val = if b = 1 then 0 else c.val
      split
      · omega
      · rfl)
  exact e2.trans e1

/-- A scalar broadcast to any shape reads the scalar at every index. -/
theorem scalar_apply {α : Type} (T : Shape) (v : (⟨0, ![]⟩ : Shape).Idx → α)
    (h : (⟨0, ![]⟩ : Shape).BroadcastsInDim T (![] : Fin 0 → Fin T.rank)) (i : T.Idx) :
    broadcastInDim T ![] h v i = v ix0 :=
  broadcastInDim_apply ![] h v i ix0 fun d => d.elim0

/-- A `1 × n` array reshaped to length `n` reads, at `j`, the array at `(0, j)`: the same row-major position. -/
theorem row_reshape_apply {α : Type} {n : ℕ} (x : (⟨2, ![1, n]⟩ : Shape).Idx → α)
    (h : (⟨2, ![1, n]⟩ : Shape).ShapeCasts ⟨1, ![n]⟩) (j : Fin n) :
    shapeCast ⟨1, ![n]⟩ x h (ix1 j) = x (ix2 (0 : Fin 1) j) :=
  shapeCast_apply x h (ix1 j) (ix2 (0 : Fin 1) j) (by
    rw [Shape.rowMajor_val_two, Shape.rowMajor_val_one]
    show 0 * n + j.val = j.val
    omega)

end Cert.LibBcast
-- ==== Proof.LibTRef.lean ====
/-
  A typed reference's two transports cancel.

  A typed reference to a host buffer carries the equation between the buffer's recorded type and the value's type; an
  operation stated over typed references carries contents of the value's type into the buffer's type on the way in and back
  on the way out. Carrying a value in and straight back out is the identity, whatever the equation's proof.
-/
import Idealize.ShloMosaic.Lib.StableHlo

namespace Cert.LibTRef

open Idealize.ShloMosaic Idealize.ShloMosaic.StableHlo

/-- Contents carried into a typed reference's buffer type and back out are the contents. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTRef
-- ==== Proof.RefSide.lean ====
/-
  The reference program's result as the shared specification's function of the launch contents.

  The reference's dense layers are whole-array expressions: a matrix product, a bias row repeated down the rows, a maximum
  with the zero array, the batch norm's subtraction, products and sum with repeated rows, a compare-and-select.  Each such
  expression is named here once, for arbitrary extents, exactly as the program spells it, and is shown to agree entry by
  entry with the specification's index-by-index layer: an entry of a matrix product is the sum over the contracted
  coordinate, a repeated row reads the row at the column, a repeated scalar reads the scalar, and every other operation
  acts entry by entry.  The program's result is then literally the composition of these named expressions with the sparse
  steps, and the composition is the specification's network.
-/
import proofs.«150847_j10282151707326_2_alg».proof.Proof.Gen.ReferenceIdeal.Run
import proofs.«150847_j10282151707326_2_alg».proof.Proof.Gen.ReferenceIdeal.Read
import proofs.«150847_j10282151707326_2_alg».proof.Proof.RSparse
import proofs.«150847_j10282151707326_2_alg».proof.Proof.Compose
import proofs.«150847_j10282151707326_2_alg».proof.Proof.LibDot
import proofs.«150847_j10282151707326_2_alg».proof.Proof.LibBcast
import proofs.«150847_j10282151707326_2_alg».proof.Proof.LibTRef

noncomputable section

namespace Cert.RefSide

open Idealize.ShloMosaic Idealize.ShloMosaic.ValueIdx Cert.ReferenceIdeal Cert.ReferenceIdeal.Value

section blocks

variable {M K H O : ℕ}

/-- A matrix of extended reals, as the program's operations type it. -/
abbrev MatF (m n : ℕ) : Type := FVec Ideal ⟨2, ![m, n]⟩ .f32
/-- A row of extended reals, as the program's operations type it. -/
abbrev RowF (n : ℕ) : Type := FVec Ideal ⟨1, ![n]⟩ .f32

/-- The dimension numbers of a plain matrix product: the left operand's second axis is contracted with the right
    operand's first, and there is no batch axis. -/
structure Plain (d : DotDims ⟨2, ![M, K]⟩ ⟨2, ![K, H]⟩ ⟨2, ![M, H]⟩) : Prop where
  lc : d.lhsContracting = [1]
  rc : d.rhsContracting = [0]
  ln : d.lhsNonContracting = [0]
  rn : d.rhsNonContracting = [1]
  lb : d.lhsBatch = []
  rb : d.rhsBatch = []

/-- A row repeated down M rows: first made a 1 × H array, then broadcast along the rows. -/
def rowB (h1 : (⟨1, ![H]⟩ : Shape).BroadcastsInDim ⟨2, ![1, H]⟩ (![1] : Fin 1 → Fin 2))
    (h2 : (⟨2, ![1, H]⟩ : Shape).BroadcastsInDim ⟨2, ![M, H]⟩ (![0, 1] : Fin 2 → Fin 2)) (v : RowF H) : MatF M H :=
  broadcastInDim ⟨2, ![M, H]⟩ ![0, 1] h2 (broadcastInDim ⟨2, ![1, H]⟩ ![1] h1 v)

theorem rowB_apply (h1 : (⟨1, ![H]⟩ : Shape).BroadcastsInDim ⟨2, ![1, H]⟩ (![1] : Fin 1 → Fin 2))
    (h2 : (⟨2, ![1, H]⟩ : Shape).BroadcastsInDim ⟨2, ![M, H]⟩ (![0, 1] : Fin 2 → Fin 2)) (v : RowF H)
    (i : Fin M) (j : Fin H) : rowB h1 h2 v (ix2 i j) = v (ix1 j) :=
  Cert.LibBcast.cols_apply v h1 h2 i j

/-- The M × H array of zeros: the zero word as a scalar, broadcast. -/
def zeroB (hz : (⟨0, ![]⟩ : Shape).BroadcastsInDim ⟨2, ![M, H]⟩ (![] : Fin 0 → Fin (⟨2, ![M, H]⟩ : Shape).rank)) : MatF M H :=
  broadcastInDim ⟨2, ![M, H]⟩ ![] hz (constant (F := Ideal) ⟨0, ![]⟩ .f32 0x00000000#32)

theorem zeroB_apply (hz : (⟨0, ![]⟩ : Shape).BroadcastsInDim ⟨2, ![M, H]⟩ (![] : Fin 0 → Fin (⟨2, ![M, H]⟩ : Shape).rank))
    (y : (⟨2, ![M, H]⟩ : Shape).Idx) : zeroB hz y = Spec.zero :=
  Cert.LibBcast.scalar_apply ⟨2, ![M, H]⟩ _ hz y

/-- x · W + b, the bias row repeated down the rows. -/
def linG (d : DotDims ⟨2, ![M, K]⟩ ⟨2, ![K, H]⟩ ⟨2, ![M, H]⟩)
    (h1 : (⟨1, ![H]⟩ : Shape).BroadcastsInDim ⟨2, ![1, H]⟩ (![1] : Fin 1 → Fin 2))
    (h2 : (⟨2, ![1, H]⟩ : Shape).BroadcastsInDim ⟨2, ![M, H]⟩ (![0, 1] : Fin 2 → Fin 2))
    (x : MatF M K) (W : MatF K H) (b : RowF H) : MatF M H :=
  addf (Host.dotGeneral d none x W) (rowB h1 h2 b)

theorem linG_apply (d : DotDims ⟨2, ![M, K]⟩ ⟨2, ![K, H]⟩ ⟨2, ![M, H]⟩) (hd : Plain d)
    (h1 : (⟨1, ![H]⟩ : Shape).BroadcastsInDim ⟨2, ![1, H]⟩ (![1] : Fin 1 → Fin 2))
    (h2 : (⟨2, ![1, H]⟩ : Shape).BroadcastsInDim ⟨2, ![M, H]⟩ (![0, 1] : Fin 2 → Fin 2))
    (x : MatF M K) (W : MatF K H) (b : RowF H) (i : Fin M) (j : Fin H) :
    linG d h1 h2 x W b (ix2 i j) = Spec.lin x W b i j := by
  unfold linG Spec.lin
  rw [addf_apply, rowB_apply]
  refine congrArg (· + b (ix1 j)) ?_
  exact Cert.LibDot.dotGeneral_plain_apply d hd.lc hd.rc hd.ln hd.rn hd.lb hd.rb none .single x W (ix2 i j)

/-- The rectifier: the maximum with the array of zeros. -/
def reluG (hz : (⟨0, ![]⟩ : Shape).BroadcastsInDim ⟨2, ![M, H]⟩ (![] : Fin 0 → Fin (⟨2, ![M, H]⟩ : Shape).rank))
    (x : MatF M H) : MatF M H :=
  maximumf x (zeroB hz)

theorem reluG_apply (hz : (⟨0, ![]⟩ : Shape).BroadcastsInDim ⟨2, ![M, H]⟩ (![] : Fin 0 → Fin (⟨2, ![M, H]⟩ : Shape).rank))
    (x : MatF M H) (y : (⟨2, ![M, H]⟩ : Shape).Idx) : reluG hz x y = max (x y) Spec.zero := by
  unfold reluG
  rw [maximumf_apply, zeroB_apply]

/-- The row of ε's: the word of ε as a scalar, broadcast. -/
def epsB (he : (⟨0, ![]⟩ : Shape).BroadcastsInDim ⟨1, ![H]⟩ (![] : Fin 0 → Fin (⟨1, ![H]⟩ : Shape).rank)) : RowF H :=
  broadcastInDim ⟨1, ![H]⟩ ![] he (constant (F := Ideal) ⟨0, ![]⟩ .f32 0x3727C5AC#32)

theorem epsB_apply (he : (⟨0, ![]⟩ : Shape).BroadcastsInDim ⟨1, ![H]⟩ (![] : Fin 0 → Fin (⟨1, ![H]⟩ : Shape).rank)) (j : Fin H) : epsB he (ix1 j) = Spec.eps :=
  Cert.LibBcast.scalar_apply ⟨1, ![H]⟩ _ he (ix1 j)

/-- The inference batch norm of an array: (h − rm) · rsqrt (rv + ε) · g + be, the rows rm, rsqrt (rv + ε), g, be
    repeated down the rows. -/
def bnG (h1 : (⟨1, ![H]⟩ : Shape).BroadcastsInDim ⟨2, ![1, H]⟩ (![1] : Fin 1 → Fin 2))
    (h2 : (⟨2, ![1, H]⟩ : Shape).BroadcastsInDim ⟨2, ![M, H]⟩ (![0, 1] : Fin 2 → Fin 2))
    (he : (⟨0, ![]⟩ : Shape).BroadcastsInDim ⟨1, ![H]⟩ (![] : Fin 0 → Fin (⟨1, ![H]⟩ : Shape).rank))
    (h : MatF M H) (g be rm rv : RowF H) : MatF M H :=
  addf (mulf (mulf (subf h (rowB h1 h2 rm)) (rowB h1 h2 (Host.rsqrt (addf rv (epsB he))))) (rowB h1 h2 g)) (rowB h1 h2 be)

theorem bnG_apply (h1 : (⟨1, ![H]⟩ : Shape).BroadcastsInDim ⟨2, ![1, H]⟩ (![1] : Fin 1 → Fin 2))
    (h2 : (⟨2, ![1, H]⟩ : Shape).BroadcastsInDim ⟨2, ![M, H]⟩ (![0, 1] : Fin 2 → Fin 2))
    (he : (⟨0, ![]⟩ : Shape).BroadcastsInDim ⟨1, ![H]⟩ (![] : Fin 0 → Fin (⟨1, ![H]⟩ : Shape).rank))
    (h : MatF M H) (g be rm rv : RowF H) (i : Fin M) (j : Fin H) :
    bnG h1 h2 he h g be rm rv (ix2 i j) = Spec.bn (h (ix2 i j)) g be rm rv j := by
  unfold bnG Spec.bn
  rw [addf_apply, mulf_apply, mulf_apply, subf_apply, rowB_apply, rowB_apply, rowB_apply, rowB_apply]
  show (h (ix2 i j) - rm (ix1 j)) * Ideal.rsqrt (rv (ix1 j) + epsB he (ix1 j)) * g (ix1 j) + be (ix1 j) = _
  rw [epsB_apply]

/-- Linear, rectifier, batch norm, as whole-array operations. -/
def fcG (d : DotDims ⟨2, ![M, K]⟩ ⟨2, ![K, H]⟩ ⟨2, ![M, H]⟩)
    (h1 : (⟨1, ![H]⟩ : Shape).BroadcastsInDim ⟨2, ![1, H]⟩ (![1] : Fin 1 → Fin 2))
    (h2 : (⟨2, ![1, H]⟩ : Shape).BroadcastsInDim ⟨2, ![M, H]⟩ (![0, 1] : Fin 2 → Fin 2))
    (hz : (⟨0, ![]⟩ : Shape).BroadcastsInDim ⟨2, ![M, H]⟩ (![] : Fin 0 → Fin (⟨2, ![M, H]⟩ : Shape).rank))
    (he : (⟨0, ![]⟩ : Shape).BroadcastsInDim ⟨1, ![H]⟩ (![] : Fin 0 → Fin (⟨1, ![H]⟩ : Shape).rank))
    (x : MatF M K) (W : MatF K H) (b g be rm rv : RowF H) : MatF M H :=
  bnG h1 h2 he (reluG hz (linG d h1 h2 x W b)) g be rm rv

theorem fcG_eq (d : DotDims ⟨2, ![M, K]⟩ ⟨2, ![K, H]⟩ ⟨2, ![M, H]⟩) (hd : Plain d)
    (h1 : (⟨1, ![H]⟩ : Shape).BroadcastsInDim ⟨2, ![1, H]⟩ (![1] : Fin 1 → Fin 2))
    (h2 : (⟨2, ![1, H]⟩ : Shape).BroadcastsInDim ⟨2, ![M, H]⟩ (![0, 1] : Fin 2 → Fin 2))
    (hz : (⟨0, ![]⟩ : Shape).BroadcastsInDim ⟨2, ![M, H]⟩ (![] : Fin 0 → Fin (⟨2, ![M, H]⟩ : Shape).rank))
    (he : (⟨0, ![]⟩ : Shape).BroadcastsInDim ⟨1, ![H]⟩ (![] : Fin 0 → Fin (⟨1, ![H]⟩ : Shape).rank))
    (x : MatF M K) (W : MatF K H) (b g be rm rv : RowF H) :
    fcG d h1 h2 hz he x W b g be rm rv = Spec.fc x W b g be rm rv := by
  funext y
  obtain ⟨i, j, rfl⟩ : ∃ (i : Fin M) (j : Fin H), y = ix2 i j := ⟨y 0, y 1, eq_ix2 y⟩
  show bnG h1 h2 he (reluG hz (linG d h1 h2 x W b)) g be rm rv (ix2 i j)
    = Spec.bn (max (Spec.lin x W b i j) Spec.zero) g be rm rv j
  rw [bnG_apply, reluG_apply, linG_apply d hd]

/-- The hidden layer of the two-layer block, as whole-array operations on x + agg. -/
def hiddenG (d : DotDims ⟨2, ![M, K]⟩ ⟨2, ![K, H]⟩ ⟨2, ![M, H]⟩)
    (h1 : (⟨1, ![H]⟩ : Shape).BroadcastsInDim ⟨2, ![1, H]⟩ (![1] : Fin 1 → Fin 2))
    (h2 : (⟨2, ![1, H]⟩ : Shape).BroadcastsInDim ⟨2, ![M, H]⟩ (![0, 1] : Fin 2 → Fin 2))
    (hz : (⟨0, ![]⟩ : Shape).BroadcastsInDim ⟨2, ![M, H]⟩ (![] : Fin 0 → Fin (⟨2, ![M, H]⟩ : Shape).rank))
    (x agg : MatF M K) (Wa : MatF K H) (ba : RowF H) : MatF M H :=
  reluG hz (linG d h1 h2 (addf x agg) Wa ba)

theorem hiddenG_eq (d : DotDims ⟨2, ![M, K]⟩ ⟨2, ![K, H]⟩ ⟨2, ![M, H]⟩) (hd : Plain d)
    (h1 : (⟨1, ![H]⟩ : Shape).BroadcastsInDim ⟨2, ![1, H]⟩ (![1] : Fin 1 → Fin 2))
    (h2 : (⟨2, ![1, H]⟩ : Shape).BroadcastsInDim ⟨2, ![M, H]⟩ (![0, 1] : Fin 2 → Fin 2))
    (hz : (⟨0, ![]⟩ : Shape).BroadcastsInDim ⟨2, ![M, H]⟩ (![] : Fin 0 → Fin (⟨2, ![M, H]⟩ : Shape).rank))
    (x agg : MatF M K) (Wa : MatF K H) (ba : RowF H) :
    hiddenG d h1 h2 hz x agg Wa ba = Spec.hidden x agg Wa ba := by
  funext z
  obtain ⟨i, j, rfl⟩ : ∃ (i : Fin M) (j : Fin H), z = ix2 i j := ⟨z 0, z 1, eq_ix2 z⟩
  show reluG hz (linG d h1 h2 (addf x agg) Wa ba) (ix2 i j)
    = max (Spec.lin (fun w => x w + agg w) Wa ba i j) Spec.zero
  rw [reluG_apply, linG_apply d hd]
  rfl

/-- Linear, rectifier, linear, rectifier, batch norm, as whole-array operations on x + agg. -/
def ginG (da : DotDims ⟨2, ![M, K]⟩ ⟨2, ![K, H]⟩ ⟨2, ![M, H]⟩) (db : DotDims ⟨2, ![M, H]⟩ ⟨2, ![H, O]⟩ ⟨2, ![M, O]⟩)
    (h1a : (⟨1, ![H]⟩ : Shape).BroadcastsInDim ⟨2, ![1, H]⟩ (![1] : Fin 1 → Fin 2))
    (h2a : (⟨2, ![1, H]⟩ : Shape).BroadcastsInDim ⟨2, ![M, H]⟩ (![0, 1] : Fin 2 → Fin 2))
    (hza : (⟨0, ![]⟩ : Shape).BroadcastsInDim ⟨2, ![M, H]⟩ (![] : Fin 0 → Fin (⟨2, ![M, H]⟩ : Shape).rank))
    (h1b : (⟨1, ![O]⟩ : Shape).BroadcastsInDim ⟨2, ![1, O]⟩ (![1] : Fin 1 → Fin 2))
    (h2b : (⟨2, ![1, O]⟩ : Shape).BroadcastsInDim ⟨2, ![M, O]⟩ (![0, 1] : Fin 2 → Fin 2))
    (hzb : (⟨0, ![]⟩ : Shape).BroadcastsInDim ⟨2, ![M, O]⟩ (![] : Fin 0 → Fin (⟨2, ![M, O]⟩ : Shape).rank))
    (heb : (⟨0, ![]⟩ : Shape).BroadcastsInDim ⟨1, ![O]⟩ (![] : Fin 0 → Fin (⟨1, ![O]⟩ : Shape).rank))
    (x agg : MatF M K) (Wa : MatF K H) (ba : RowF H) (Wb : MatF H O) (bb g be rm rv : RowF O) : MatF M O :=
  bnG h1b h2b heb (reluG hzb (linG db h1b h2b (hiddenG da h1a h2a hza x agg Wa ba) Wb bb)) g be rm rv

theorem ginG_eq (da : DotDims ⟨2, ![M, K]⟩ ⟨2, ![K, H]⟩ ⟨2, ![M, H]⟩) (hda : Plain da) (db : DotDims ⟨2, ![M, H]⟩ ⟨2, ![H, O]⟩ ⟨2, ![M, O]⟩) (hdb : Plain db)
    (h1a : (⟨1, ![H]⟩ : Shape).BroadcastsInDim ⟨2, ![1, H]⟩ (![1] : Fin 1 → Fin 2))
    (h2a : (⟨2, ![1, H]⟩ : Shape).BroadcastsInDim ⟨2, ![M, H]⟩ (![0, 1] : Fin 2 → Fin 2))
    (hza : (⟨0, ![]⟩ : Shape).BroadcastsInDim ⟨2, ![M, H]⟩ (![] : Fin 0 → Fin (⟨2, ![M, H]⟩ : Shape).rank))
    (h1b : (⟨1, ![O]⟩ : Shape).BroadcastsInDim ⟨2, ![1, O]⟩ (![1] : Fin 1 → Fin 2))
    (h2b : (⟨2, ![1, O]⟩ : Shape).BroadcastsInDim ⟨2, ![M, O]⟩ (![0, 1] : Fin 2 → Fin 2))
    (hzb : (⟨0, ![]⟩ : Shape).BroadcastsInDim ⟨2, ![M, O]⟩ (![] : Fin 0 → Fin (⟨2, ![M, O]⟩ : Shape).rank))
    (heb : (⟨0, ![]⟩ : Shape).BroadcastsInDim ⟨1, ![O]⟩ (![] : Fin 0 → Fin (⟨1, ![O]⟩ : Shape).rank))
    (x agg : MatF M K) (Wa : MatF K H) (ba : RowF H) (Wb : MatF H O) (bb g be rm rv : RowF O) :
    ginG da db h1a h2a hza h1b h2b hzb heb x agg Wa ba Wb bb g be rm rv = Spec.gin x agg Wa ba Wb bb g be rm rv := by
  funext y
  obtain ⟨i, j, rfl⟩ : ∃ (i : Fin M) (j : Fin O), y = ix2 i j := ⟨y 0, y 1, eq_ix2 y⟩
  show bnG h1b h2b heb (reluG hzb (linG db h1b h2b (hiddenG da h1a h2a hza x agg Wa ba) Wb bb)) g be rm rv (ix2 i j)
    = Spec.bn (max (Spec.lin (Spec.hidden x agg Wa ba) Wb bb i j) Spec.zero) g be rm rv j
  rw [bnG_apply, reluG_apply, linG_apply db hdb, hiddenG_eq da hda]

/-- The leaky rectifier with a scalar slope, as whole-array operations: where h > 0 take h, elsewhere slope · h, the
    slope repeated over the array and standing on the left of the product. -/
def preluG (hz : (⟨0, ![]⟩ : Shape).BroadcastsInDim ⟨2, ![M, H]⟩ (![] : Fin 0 → Fin (⟨2, ![M, H]⟩ : Shape).rank))
    (a : FVec Ideal ⟨0, ![]⟩ .f32) (h : MatF M H) : MatF M H :=
  select (cmpf .ogt h (zeroB hz)) h (mulf (broadcastInDim ⟨2, ![M, H]⟩ ![] hz a) h)

theorem preluG_apply (hz : (⟨0, ![]⟩ : Shape).BroadcastsInDim ⟨2, ![M, H]⟩ (![] : Fin 0 → Fin (⟨2, ![M, H]⟩ : Shape).rank))
    (a : FVec Ideal ⟨0, ![]⟩ .f32) (h : MatF M H) (y : (⟨2, ![M, H]⟩ : Shape).Idx) :
    preluG hz a h y = Spec.prelu (a ix0) (h y) := by
  unfold preluG Spec.prelu
  rw [select_apply, cmpf_apply, mulf_apply, zeroB_apply, Cert.LibBcast.scalar_apply ⟨2, ![M, H]⟩ a hz y]
  rfl

/-- The classifier as whole-array operations: linear, batch norm, leaky rectifier, linear. -/
def clsG (d1 : DotDims ⟨2, ![M, K]⟩ ⟨2, ![K, H]⟩ ⟨2, ![M, H]⟩) (d2 : DotDims ⟨2, ![M, H]⟩ ⟨2, ![H, O]⟩ ⟨2, ![M, O]⟩)
    (h1a : (⟨1, ![H]⟩ : Shape).BroadcastsInDim ⟨2, ![1, H]⟩ (![1] : Fin 1 → Fin 2))
    (h2a : (⟨2, ![1, H]⟩ : Shape).BroadcastsInDim ⟨2, ![M, H]⟩ (![0, 1] : Fin 2 → Fin 2))
    (hza : (⟨0, ![]⟩ : Shape).BroadcastsInDim ⟨2, ![M, H]⟩ (![] : Fin 0 → Fin (⟨2, ![M, H]⟩ : Shape).rank))
    (hea : (⟨0, ![]⟩ : Shape).BroadcastsInDim ⟨1, ![H]⟩ (![] : Fin 0 → Fin (⟨1, ![H]⟩ : Shape).rank))
    (h1b : (⟨1, ![O]⟩ : Shape).BroadcastsInDim ⟨2, ![1, O]⟩ (![1] : Fin 1 → Fin 2))
    (h2b : (⟨2, ![1, O]⟩ : Shape).BroadcastsInDim ⟨2, ![M, O]⟩ (![0, 1] : Fin 2 → Fin 2))
    (x : MatF M K) (W1 : MatF K H) (b1 g be rm rv : RowF H) (a : FVec Ideal ⟨0, ![]⟩ .f32) (W2 : MatF H O) (b2 : RowF O) :
    MatF M O :=
  linG d2 h1b h2b (preluG hza a (bnG h1a h2a hea (linG d1 h1a h2a x W1 b1) g be rm rv)) W2 b2

theorem clsG_eq (d1 : DotDims ⟨2, ![M, K]⟩ ⟨2, ![K, H]⟩ ⟨2, ![M, H]⟩) (hd1 : Plain d1) (d2 : DotDims ⟨2, ![M, H]⟩ ⟨2, ![H, O]⟩ ⟨2, ![M, O]⟩) (hd2 : Plain d2)
    (h1a : (⟨1, ![H]⟩ : Shape).BroadcastsInDim ⟨2, ![1, H]⟩ (![1] : Fin 1 → Fin 2))
    (h2a : (⟨2, ![1, H]⟩ : Shape).BroadcastsInDim ⟨2, ![M, H]⟩ (![0, 1] : Fin 2 → Fin 2))
    (hza : (⟨0, ![]⟩ : Shape).BroadcastsInDim ⟨2, ![M, H]⟩ (![] : Fin 0 → Fin (⟨2, ![M, H]⟩ : Shape).rank))
    (hea : (⟨0, ![]⟩ : Shape).BroadcastsInDim ⟨1, ![H]⟩ (![] : Fin 0 → Fin (⟨1, ![H]⟩ : Shape).rank))
    (h1b : (⟨1, ![O]⟩ : Shape).BroadcastsInDim ⟨2, ![1, O]⟩ (![1] : Fin 1 → Fin 2))
    (h2b : (⟨2, ![1, O]⟩ : Shape).BroadcastsInDim ⟨2, ![M, O]⟩ (![0, 1] : Fin 2 → Fin 2))
    (x : MatF M K) (W1 : MatF K H) (b1 g be rm rv : RowF H) (a : FVec Ideal ⟨0, ![]⟩ .f32) (W2 : MatF H O) (b2 : RowF O) :
    clsG d1 d2 h1a h2a hza hea h1b h2b x W1 b1 g be rm rv a W2 b2 = Spec.cls x W1 b1 g be rm rv (a ix0) W2 b2 := by
  have hh : preluG hza a (bnG h1a h2a hea (linG d1 h1a h2a x W1 b1) g be rm rv)
      = Spec.clsHidden x W1 b1 g be rm rv (a ix0) := by
    funext z
    obtain ⟨i, j, rfl⟩ : ∃ (i : Fin M) (j : Fin H), z = ix2 i j := ⟨z 0, z 1, eq_ix2 z⟩
    show _ = Spec.prelu (a ix0) (Spec.bn (Spec.lin x W1 b1 i j) g be rm rv j)
    rw [preluG_apply, bnG_apply, linG_apply d1 hd1]
  funext y
  obtain ⟨i, j, rfl⟩ : ∃ (i : Fin M) (j : Fin O), y = ix2 i j := ⟨y 0, y 1, eq_ix2 y⟩
  show linG d2 h1b h2b (preluG hza a (bnG h1a h2a hea (linG d1 h1a h2a x W1 b1) g be rm rv)) W2 b2 (ix2 i j)
    = Spec.lin (Spec.clsHidden x W1 b1 g be rm rv (a ix0)) W2 b2 i j
  rw [linG_apply d2 hd2, hh]

end blocks

section main

open Cert.ReferenceIdeal.Gen Idealize.ShloMosaic.TcCoe Idealize.SL.Sem Idealize.ShloMosaic.StableHlo

/-- The fully connected block on the per-graph sums of the node positions (1000 × 2 by 2 × 128). -/
def fc2 (x : FVec Ideal S1000x2 .f32) (W : FVec Ideal S2x128 .f32) (b g be rm rv : FVec Ideal S128 .f32) :
    FVec Ideal S1000x128 .f32 :=
  fcG dot_S1000x2_S2x128_S1000x128_1_0_0_1_n_n bcast_S128_S1x128_1 bcast_S1x128_S1000x128_0_1 bcast_S_S1000x128
    bcast_S_S128 x W b g be rm rv

theorem fc2_eq (x : FVec Ideal S1000x2 .f32) (W : FVec Ideal S2x128 .f32) (b g be rm rv : FVec Ideal S128 .f32) :
    fc2 x W b g be rm rv = Spec.fc x W b g be rm rv :=
  fcG_eq _ ⟨rfl, rfl, rfl, rfl, rfl, rfl⟩ _ _ _ _ x W b g be rm rv

/-- The shared fully connected block on per-graph features (1000 × 128 by 128 × 128). -/
def fc128 (x : FVec Ideal S1000x128 .f32) (W : FVec Ideal S128x128 .f32) (b g be rm rv : FVec Ideal S128 .f32) :
    FVec Ideal S1000x128 .f32 :=
  fcG dot_S1000x128_S128x128_S1000x128_1_0_0_1_n_n bcast_S128_S1x128_1 bcast_S1x128_S1000x128_0_1 bcast_S_S1000x128
    bcast_S_S128 x W b g be rm rv

theorem fc128_eq (x : FVec Ideal S1000x128 .f32) (W : FVec Ideal S128x128 .f32) (b g be rm rv : FVec Ideal S128 .f32) :
    fc128 x W b g be rm rv = Spec.fc x W b g be rm rv :=
  fcG_eq _ ⟨rfl, rfl, rfl, rfl, rfl, rfl⟩ _ _ _ _ x W b g be rm rv

/-- The first round's two-layer block on the node positions plus their aggregated neighbours (100000 × 2). -/
def gin2 (x agg : FVec Ideal S100000x2 .f32) (Wa : FVec Ideal S2x128 .f32) (ba : FVec Ideal S128 .f32)
    (Wb : FVec Ideal S128x128 .f32) (bb g be rm rv : FVec Ideal S128 .f32) : FVec Ideal S100000x128 .f32 :=
  ginG dot_S100000x2_S2x128_S100000x128_1_0_0_1_n_n dot_S100000x128_S128x128_S100000x128_1_0_0_1_n_n
    bcast_S128_S1x128_1 bcast_S1x128_S100000x128_0_1 bcast_S_S100000x128
    bcast_S128_S1x128_1 bcast_S1x128_S100000x128_0_1 bcast_S_S100000x128 bcast_S_S128
    x agg Wa ba Wb bb g be rm rv

theorem gin2_eq (x agg : FVec Ideal S100000x2 .f32) (Wa : FVec Ideal S2x128 .f32) (ba : FVec Ideal S128 .f32)
    (Wb : FVec Ideal S128x128 .f32) (bb g be rm rv : FVec Ideal S128 .f32) :
    gin2 x agg Wa ba Wb bb g be rm rv = Spec.gin x agg Wa ba Wb bb g be rm rv :=
  ginG_eq _ ⟨rfl, rfl, rfl, rfl, rfl, rfl⟩ _ ⟨rfl, rfl, rfl, rfl, rfl, rfl⟩ _ _ _ _ _ _ _ x agg Wa ba Wb bb g be rm rv

/-- The second round's two-layer block on the node features plus their aggregated neighbours (100000 × 128). -/
def gin128 (x agg : FVec Ideal S100000x128 .f32) (Wa : FVec Ideal S128x128 .f32) (ba : FVec Ideal S128 .f32)
    (Wb : FVec Ideal S128x128 .f32) (bb g be rm rv : FVec Ideal S128 .f32) : FVec Ideal S100000x128 .f32 :=
  ginG dot_S100000x128_S128x128_S100000x128_1_0_0_1_n_n dot_S100000x128_S128x128_S100000x128_1_0_0_1_n_n
    bcast_S128_S1x128_1 bcast_S1x128_S100000x128_0_1 bcast_S_S100000x128
    bcast_S128_S1x128_1 bcast_S1x128_S100000x128_0_1 bcast_S_S100000x128 bcast_S_S128
    x agg Wa ba Wb bb g be rm rv

theorem gin128_eq (x agg : FVec Ideal S100000x128 .f32) (Wa : FVec Ideal S128x128 .f32) (ba : FVec Ideal S128 .f32)
    (Wb : FVec Ideal S128x128 .f32) (bb g be rm rv : FVec Ideal S128 .f32) :
    gin128 x agg Wa ba Wb bb g be rm rv = Spec.gin x agg Wa ba Wb bb g be rm rv :=
  ginG_eq _ ⟨rfl, rfl, rfl, rfl, rfl, rfl⟩ _ ⟨rfl, rfl, rfl, rfl, rfl, rfl⟩ _ _ _ _ _ _ _ x agg Wa ba Wb bb g be rm rv

/-- The classifier (1000 × 128 to 64 to 10). -/
def clsR (x : FVec Ideal S1000x128 .f32) (W1 : FVec Ideal S128x64 .f32) (b1 g be rm rv : FVec Ideal S64 .f32)
    (a : FVec Ideal S_ .f32) (W2 : FVec Ideal S64x10 .f32) (b2 : FVec Ideal S10 .f32) : FVec Ideal S1000x10 .f32 :=
  clsG dot_S1000x128_S128x64_S1000x64_1_0_0_1_n_n dot_S1000x64_S64x10_S1000x10_1_0_0_1_n_n
    bcast_S64_S1x64_1 bcast_S1x64_S1000x64_0_1 bcast_S_S1000x64 bcast_S_S64 bcast_S10_S1x10_1 bcast_S1x10_S1000x10_0_1
    x W1 b1 g be rm rv a W2 b2

theorem clsR_eq (x : FVec Ideal S1000x128 .f32) (W1 : FVec Ideal S128x64 .f32) (b1 g be rm rv : FVec Ideal S64 .f32)
    (a : FVec Ideal S_ .f32) (W2 : FVec Ideal S64x10 .f32) (b2 : FVec Ideal S10 .f32) :
    clsR x W1 b1 g be rm rv a W2 b2 = Spec.cls x W1 b1 g be rm rv (a ix0) W2 b2 :=
  clsG_eq _ ⟨rfl, rfl, rfl, rfl, rfl, rfl⟩ _ ⟨rfl, rfl, rfl, rfl, rfl, rfl⟩ _ _ _ _ _ _ x W1 b1 g be rm rv a W2 b2

/-- The sum of two arrays by the program's addition is their entry-by-entry sum. -/
theorem addf_eq_add {a b : ℕ} (x y : FVec Ideal ⟨2, ![a, b]⟩ .f32) : addf x y = Compose.add x y := rfl

/-! The program's intermediate arrays, as functions of the launch contents: the per-graph features of the pooled
    positions, the first round's node features, the per-graph features after the first round, the second round's node
    features, and the per-graph features after the second round. -/

def X0g (m : (ℓ : Loc nD τ sig) → Buf (Elt Ideal) ℓ) (c : Dev nD) : FVec Ideal S1000x128 .f32 :=
  fc2 (RSparse.pool2 (m ((c.tc : Thread nD τ).loc main_arg2)) (m ((c.tc : Thread nD τ).loc main_arg0))) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))

def X1 (m : (ℓ : Loc nD τ sig) → Buf (Elt Ideal) ℓ) (c : Dev nD) : FVec Ideal S100000x128 .f32 :=
  gin2 (m ((c.tc : Thread nD τ).loc main_arg0)) (RSparse.agg2 (m ((c.tc : Thread nD τ).loc main_arg1)) (m ((c.tc : Thread nD τ).loc main_arg0))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

def X1g (m : (ℓ : Loc nD τ sig) → Buf (Elt Ideal) ℓ) (c : Dev nD) : FVec Ideal S1000x128 .f32 :=
  fc128 (addf (X0g m c) (RSparse.pool128 (m ((c.tc : Thread nD τ).loc main_arg2)) (X1 m c))) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30))

def X2 (m : (ℓ : Loc nD τ sig) → Buf (Elt Ideal) ℓ) (c : Dev nD) : FVec Ideal S100000x128 .f32 :=
  gin128 (X1 m c) (RSparse.agg128 (m ((c.tc : Thread nD τ).loc main_arg1)) (X1 m c)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))

def X2g (m : (ℓ : Loc nD τ sig) → Buf (Elt Ideal) ℓ) (c : Dev nD) : FVec Ideal S1000x128 .f32 :=
  fc128 (addf (addf (X0g m c) (X1g m c)) (RSparse.pool128 (m ((c.tc : Thread nD τ).loc main_arg2)) (X2 m c))) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30))

/-- The program's result is, operation for operation, the classifier applied to the per-graph features after the second
    round: both sides are the same nest of whole-array operations once the names are opened. -/
theorem ref_struct (m : (ℓ : Loc nD τ sig) → Buf (Elt Ideal) ℓ) (c : Dev nD) :
    res_out0 (F := Ideal) m c = clsR (X2g m c) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36)) (m ((c.tc : Thread nD τ).loc main_arg37)) (m ((c.tc : Thread nD τ).loc main_arg38)) (m ((c.tc : Thread nD τ).loc main_arg39)) := rfl

theorem X0g_eq (m : (ℓ : Loc nD τ sig) → Buf (Elt Ideal) ℓ) (c : Dev nD) :
    X0g m c = Spec.fc (RSparse.pool2 (m ((c.tc : Thread nD τ).loc main_arg2)) (m ((c.tc : Thread nD τ).loc main_arg0))) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  fc2_eq _ _ _ _ _ _ _

theorem X1_eq (m : (ℓ : Loc nD τ sig) → Buf (Elt Ideal) ℓ) (c : Dev nD) :
    X1 m c = Spec.gin (m ((c.tc : Thread nD τ).loc main_arg0)) (RSparse.agg2 (m ((c.tc : Thread nD τ).loc main_arg1)) (m ((c.tc : Thread nD τ).loc main_arg0))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  gin2_eq _ _ _ _ _ _ _ _ _ _

theorem X1g_eq (m : (ℓ : Loc nD τ sig) → Buf (Elt Ideal) ℓ) (c : Dev nD) :
    X1g m c = Spec.fc (Compose.add (X0g m c) (RSparse.pool128 (m ((c.tc : Thread nD τ).loc main_arg2)) (X1 m c))) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) :=
  fc128_eq _ _ _ _ _ _ _

theorem X2_eq (m : (ℓ : Loc nD τ sig) → Buf (Elt Ideal) ℓ) (c : Dev nD) :
    X2 m c = Spec.gin (X1 m c) (RSparse.agg128 (m ((c.tc : Thread nD τ).loc main_arg1)) (X1 m c)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) :=
  gin128_eq _ _ _ _ _ _ _ _ _ _

theorem X2g_eq (m : (ℓ : Loc nD τ sig) → Buf (Elt Ideal) ℓ) (c : Dev nD) :
    X2g m c = Spec.fc (Compose.add (Compose.add (X0g m c) (X1g m c)) (RSparse.pool128 (m ((c.tc : Thread nD τ).loc main_arg2)) (X2 m c)))
      (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) :=
  fc128_eq _ _ _ _ _ _ _

/-- The reference program's result is the specification's network of the launch contents, with the sparse steps the
    program's own. -/
theorem ref_value (m : (ℓ : Loc nD τ sig) → Buf (Elt Ideal) ℓ) (c : Dev nD) :
    Cert.ReferenceIdeal.Value.res_out0 (F := Ideal) m c
      = Cert.Compose.result (RSparse.pool2 (m ((c.tc : Thread nD τ).loc main_arg2))) (RSparse.pool128 (m ((c.tc : Thread nD τ).loc main_arg2))) (RSparse.agg2 (m ((c.tc : Thread nD τ).loc main_arg1))) (RSparse.agg128 (m ((c.tc : Thread nD τ).loc main_arg1))) (m ((c.tc : Thread nD τ).loc main_arg0))
          (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
          (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
          (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30))
          (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36)) ((m ((c.tc : Thread nD τ).loc main_arg37)) ValueIdx.ix0) (m ((c.tc : Thread nD τ).loc main_arg38)) (m ((c.tc : Thread nD τ).loc main_arg39)) := by
  rw [ref_struct, clsR_eq, X2g_eq, X2_eq, X1g_eq, X1_eq, X0g_eq]
  rfl

end main

end Cert.RefSide

end
-- ==== Proof.SparseEq.lean ====
/-
  The two programs perform the same sparse steps.

  Each program spells its pooling and its neighbour aggregation with its own records of dimension numbers and its own
  witnesses of the side conditions; the records have the same fields and the witnesses prove the same propositions, so
  the maps are the same maps.  The scatters and the gathers themselves are never opened: only their dimension records
  are compared.
-/
import proofs.«150847_j10282151707326_2_alg».proof.Proof.KSparse
import proofs.«150847_j10282151707326_2_alg».proof.Proof.RSparse

noncomputable section

namespace Cert.SparseEq

open Idealize.ShloMosaic

theorem scatter_pool2 : Cert.KernelIdeal.scatter_S1000x2_S100000x1_S100000x2_1_0_0_1 = Cert.ReferenceIdeal.scatter_S1000x2_S100000x1_S100000x2_1_0_0_1 := rfl
theorem scatter_pool128 : Cert.KernelIdeal.scatter_S1000x128_S100000x1_S100000x128_1_0_0_1 = Cert.ReferenceIdeal.scatter_S1000x128_S100000x1_S100000x128_1_0_0_1 := rfl
theorem scatter_agg2 : Cert.KernelIdeal.scatter_S100000x2_S600000x1_S600000x2_1_0_0_1 = Cert.ReferenceIdeal.scatter_S100000x2_S600000x1_S600000x2_1_0_0_1 := rfl
theorem scatter_agg128 : Cert.KernelIdeal.scatter_S100000x128_S600000x1_S600000x128_1_0_0_1 = Cert.ReferenceIdeal.scatter_S100000x128_S600000x1_S600000x128_1_0_0_1 := rfl
theorem gather_agg2 : Cert.KernelIdeal.gather_S100000x2_S600000x1_S600000x2_1_0_n_n_0_1_12 = Cert.ReferenceIdeal.gather_S100000x2_S600000x1_S600000x2_1_0_n_n_0_1_12 := rfl
theorem gather_agg128 : Cert.KernelIdeal.gather_S100000x128_S600000x1_S600000x128_1_0_n_n_0_1_1128 = Cert.ReferenceIdeal.gather_S100000x128_S600000x1_S600000x128_1_0_n_n_0_1_1128 := rfl

/-- The edge ids are sliced, reshaped and wrapped alike. -/
theorem src_eq (ei : Cert.KSparse.Edges) : Cert.KSparse.src ei = Cert.RSparse.src ei := rfl
theorem dst_eq (ei : Cert.KSparse.Edges) : Cert.KSparse.dst ei = Cert.RSparse.dst ei := rfl
theorem srcIdx_eq (ei : Cert.KSparse.Edges) : Cert.KSparse.srcIdx ei = Cert.RSparse.srcIdx ei := rfl

theorem pool2_eq (batch : Cert.KSparse.Ids) (x : FVec Ideal Cert.KernelIdeal.S100000x2 .f32) :
    Cert.KSparse.pool2 batch x = Cert.RSparse.pool2 batch x := by
  unfold Cert.KSparse.pool2 Cert.RSparse.pool2
  rw [scatter_pool2]

theorem pool128_eq (batch : Cert.KSparse.Ids) (x : FVec Ideal Cert.KernelIdeal.S100000x128 .f32) :
    Cert.KSparse.pool128 batch x = Cert.RSparse.pool128 batch x := by
  unfold Cert.KSparse.pool128 Cert.RSparse.pool128
  rw [scatter_pool128]

theorem agg2_eq (ei : Cert.KSparse.Edges) (x : FVec Ideal Cert.KernelIdeal.S100000x2 .f32) :
    Cert.KSparse.agg2 ei x = Cert.RSparse.agg2 ei x := by
  unfold Cert.KSparse.agg2 Cert.RSparse.agg2
  rw [scatter_agg2, gather_agg2, dst_eq, srcIdx_eq]

theorem agg128_eq (ei : Cert.KSparse.Edges) (x : FVec Ideal Cert.KernelIdeal.S100000x128 .f32) :
    Cert.KSparse.agg128 ei x = Cert.RSparse.agg128 ei x := by
  unfold Cert.KSparse.agg128 Cert.RSparse.agg128
  rw [scatter_agg128, gather_agg128, dst_eq, srcIdx_eq]

end Cert.SparseEq

end
-- ==== Proof.Congr.lean ====
/-
  The composed network respects equality of its inputs.

  If the sparse maps, the node positions, every weight array and the slope of the two instances are equal, the two
  networks are equal.  Stated once so that two instances of the network over differently named but equal inputs are
  compared argument by argument.
-/
import proofs.«150847_j10282151707326_2_alg».proof.Proof.Compose

noncomputable section

namespace Cert.Compose

open Cert.Spec

/-- Equal inputs, equal networks. -/
theorem result_congr {pool2 pool2' : Mat 100000 2 → Mat 1000 2} {pool128 pool128' : Mat 100000 128 → Mat 1000 128} {agg2 agg2' : Mat 100000 2 → Mat 100000 2} {agg128 agg128' : Mat 100000 128 → Mat 100000 128} {pos pos' : Mat 100000 2} {W1a W1a' : Mat 2 128} {b1a b1a' : Row 128} {W1b W1b' : Mat 128 128} {b1b b1b' : Row 128} {n1g n1g' : Row 128} {n1b n1b' : Row 128} {n1rm n1rm' : Row 128} {n1rv n1rv' : Row 128} {W2a W2a' : Mat 128 128} {b2a b2a' : Row 128} {W2b W2b' : Mat 128 128} {b2b b2b' : Row 128} {n2g n2g' : Row 128} {n2b n2b' : Row 128} {n2rm n2rm' : Row 128} {n2rv n2rv' : Row 128} {Wf1 Wf1' : Mat 2 128} {bf1 bf1' : Row 128} {f1g f1g' : Row 128} {f1b f1b' : Row 128} {f1rm f1rm' : Row 128} {f1rv f1rv' : Row 128} {Wf2 Wf2' : Mat 128 128} {bf2 bf2' : Row 128} {f2g f2g' : Row 128} {f2b f2b' : Row 128} {f2rm f2rm' : Row 128} {f2rv f2rv' : Row 128} {Wc1 Wc1' : Mat 128 64} {bc1 bc1' : Row 64} {gc gc' : Row 64} {bec bec' : Row 64} {rmc rmc' : Row 64} {rvc rvc' : Row 64} {a a' : EReal} {Wc2 Wc2' : Mat 64 10} {bc2 bc2' : Row 10}
    (h_pool2 : pool2 = pool2') (h_pool128 : pool128 = pool128') (h_agg2 : agg2 = agg2') (h_agg128 : agg128 = agg128') (h_pos : pos = pos') (h_W1a : W1a = W1a') (h_b1a : b1a = b1a') (h_W1b : W1b = W1b') (h_b1b : b1b = b1b') (h_n1g : n1g = n1g') (h_n1b : n1b = n1b') (h_n1rm : n1rm = n1rm') (h_n1rv : n1rv = n1rv') (h_W2a : W2a = W2a') (h_b2a : b2a = b2a') (h_W2b : W2b = W2b') (h_b2b : b2b = b2b') (h_n2g : n2g = n2g') (h_n2b : n2b = n2b') (h_n2rm : n2rm = n2rm') (h_n2rv : n2rv = n2rv') (h_Wf1 : Wf1 = Wf1') (h_bf1 : bf1 = bf1') (h_f1g : f1g = f1g') (h_f1b : f1b = f1b') (h_f1rm : f1rm = f1rm') (h_f1rv : f1rv = f1rv') (h_Wf2 : Wf2 = Wf2') (h_bf2 : bf2 = bf2') (h_f2g : f2g = f2g') (h_f2b : f2b = f2b') (h_f2rm : f2rm = f2rm') (h_f2rv : f2rv = f2rv') (h_Wc1 : Wc1 = Wc1') (h_bc1 : bc1 = bc1') (h_gc : gc = gc') (h_bec : bec = bec') (h_rmc : rmc = rmc') (h_rvc : rvc = rvc') (h_a : a = a') (h_Wc2 : Wc2 = Wc2') (h_bc2 : bc2 = bc2') :
    result pool2 pool128 agg2 agg128 pos W1a b1a W1b b1b n1g n1b n1rm n1rv W2a b2a W2b b2b n2g n2b n2rm n2rv Wf1 bf1 f1g f1b f1rm f1rv Wf2 bf2 f2g f2b f2rm f2rv Wc1 bc1 gc bec rmc rvc a Wc2 bc2 = result pool2' pool128' agg2' agg128' pos' W1a' b1a' W1b' b1b' n1g' n1b' n1rm' n1rv' W2a' b2a' W2b' b2b' n2g' n2b' n2rm' n2rv' Wf1' bf1' f1g' f1b' f1rm' f1rv' Wf2' bf2' f2g' f2b' f2rm' f2rv' Wc1' bc1' gc' bec' rmc' rvc' a' Wc2' bc2' := by
  subst_vars
  rfl

end Cert.Compose

end
-- ==== Proof.lean ====
/-
  Two programs for one graph network agree on the extended reals.

  The network pools 100000 node positions into 1000 graphs, applies a fully connected block (a linear layer, the
  rectifier, an inference batch norm), runs two rounds of message passing — each adds to every node the sum of its
  in-neighbours' rows and applies a two-layer block —, adds each round's pooled features to the earlier per-graph
  features, applies a shared fully connected block, and classifies (linear, batch norm, a leaky rectifier, linear).
  One program runs the dense blocks as six launches, the node blocks tile by tile over rows, with its matrix products
  accumulated into zero; the other is the plain array program.  Both perform the same gathers and scatter-adds between
  the dense blocks.

  Read at an index, a matrix product into the zero accumulator and the plain product are the same sum over the contracted
  coordinate; a change of float format is the identity; the broadcasts of a bias row read the same entry; and both
  programs apply the batch norm (h − rm) · rsqrt (rv + ε) · g + be in the same grouping with the same ε.  So every dense
  block of either program is the specification's block, index by index, a row tile of a node block being the block of
  the whole arrays read at the tile's rows; the two results are then one composition of the same maps.  No sum is
  regrouped and no factor is moved across a sum, so the precondition (finite inputs) is not used.

  The frames of the two tiled programs are the generated ones; the plain program's frame is its generated run with the
  result dropped; the idealization changed nothing the ledger records, so its conjunct is trivial.
-/
import proofs.«150847_j10282151707326_2_alg».proof.Defs
import proofs.«150847_j10282151707326_2_alg».proof.Proof.Gen.Kernel
import proofs.«150847_j10282151707326_2_alg».proof.Proof.Gen.Kernel.Frame
import proofs.«150847_j10282151707326_2_alg».proof.Proof.Gen.KernelIdeal
import proofs.«150847_j10282151707326_2_alg».proof.Proof.Gen.KernelIdeal.Frame
import proofs.«150847_j10282151707326_2_alg».proof.Proof.Gen.ReferenceIdeal
import proofs.«150847_j10282151707326_2_alg».proof.Proof.Gen.Pre_finite_inputs
import proofs.«150847_j10282151707326_2_alg».proof.Proof.Gen.ReferenceIdeal.Run
import proofs.«150847_j10282151707326_2_alg».proof.Proof.KRun
import proofs.«150847_j10282151707326_2_alg».proof.Proof.KValue
import proofs.«150847_j10282151707326_2_alg».proof.Proof.RefSide
import proofs.«150847_j10282151707326_2_alg».proof.Proof.SparseEq
import proofs.«150847_j10282151707326_2_alg».proof.Proof.Congr
import Idealize.ShloMosaic.Adequacy
import Idealize.ShloMosaic.Init

noncomputable section

namespace Cert.Proof

open Idealize.ShloMosaic Idealize.ShloMosaic.TcCoe Idealize.SL.Sem

/-- The tiled program at the word level runs, and leaves its arguments unchanged. -/
theorem frame_kernel : Cert.frame_Kernel := fun m ρ _ => Cert.Kernel.Gen.frame m ρ

/-- The tiled program on the extended reals runs, and leaves its arguments unchanged. -/
theorem frame_kernelIdeal : Cert.frame_KernelIdeal := fun m ρ _ => Cert.KernelIdeal.Gen.frame m ρ

/-- The plain program runs, and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's ledger is empty. -/
theorem preserves : Cert.preserves_Kernel_KernelIdeal := trivial

/-- Both programs end with the composed network of the launch arrays as their result. -/
theorem algebraic : Cert.algebraic_KernelIdeal_ReferenceIdeal := by
  intro m ρ m' ρ' _ hagree
  refine ⟨fun c => Cert.KernelIdeal.Gen.W12 m ρ c (Proc.devRef .tc Cert.KernelIdeal.main_v42),
    Cert.KRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39⟩ := hagree c
  refine (Cert.RefSide.ref_value m' c).trans ?_
  refine (Cert.Compose.result_congr
    ((congrArg Cert.RSparse.pool2 h2).trans (funext fun x => (Cert.SparseEq.pool2_eq _ x).symm))
    ((congrArg Cert.RSparse.pool128 h2).trans (funext fun x => (Cert.SparseEq.pool128_eq _ x).symm))
    ((congrArg Cert.RSparse.agg2 h1).trans (funext fun x => (Cert.SparseEq.agg2_eq _ x).symm))
    ((congrArg Cert.RSparse.agg128 h1).trans (funext fun x => (Cert.SparseEq.agg128_eq _ x).symm))
    h0 h3 h4 h5 h6 h7 h8 h9 h10 h11 h12 h13 h14 h15 h16 h17 h18 h19 h20 h21 h22 h23 h24 h25 h26 h27 h28 h29 h30 h31 h32 h33 h34 h35 h36 (congrFun h37 ValueIdx.ix0) h38 h39).trans ?_
  exact (Cert.KValue.kernel_value m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
